-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192 : Shape := ⟨1, ![8192]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 3
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024, .f32⟩
  | .local _ .vmem, ⟨9, _⟩ => ⟨S1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v114 : BitVec 1 := Scalar.cmpi .eq arg2 c3_i32
  let v115 : BitVec 32 := Scalar.extui v114
  let c0_i32_46 : BitVec 32 := 0#32
  let v116 : BitVec 1 := Scalar.cmpi .ne v115 c0_i32_46
  v116

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  transposes_S1024x256_p1_0_S256x1024 : S1024x256.Transposes [1, 0] S256x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024x1_S1024 : S1024x1.ShapeCasts S1024
  inb_S1024_S1024_0 : ∀ a, (![0] : Fin 1 → Nat) a + S1024.size a ≤ S1024.size a
  h_S1024 : 0 < S1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .f32 = 32 ∨ (Rect.block (s := S4096x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x8192 : Shape := ⟨2, ![4096, 8192]⟩
abbrev S8192x8192 : Shape := ⟨2, ![8192, 8192]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S256x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S256x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S256x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S_, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x8192, .f32⟩
  | .hbm, ⟨52, _⟩ => ⟨S4096x4096, .f32⟩
  | .hbm, ⟨53, _⟩ => ⟨S4096x8192, .f32⟩
  | .hbm, ⟨54, _⟩ => ⟨S8192x8192, .f32⟩
  | .hbm, ⟨55, _⟩ => ⟨S8192, .i32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S8192x1, .i32⟩
  | .hbm, ⟨72, _⟩ => ⟨S_, .i32⟩
  | .hbm, ⟨73, _⟩ => ⟨S8192x1, .i32⟩
  | .hbm, ⟨74, _⟩ => ⟨S8192x1, .i1⟩
  | .hbm, ⟨75, _⟩ => ⟨S_, .i32⟩
  | .hbm, ⟨76, _⟩ => ⟨S8192x1, .i32⟩
  | .hbm, ⟨77, _⟩ => ⟨S8192x1, .i32⟩
  | .hbm, ⟨78, _⟩ => ⟨S8192x1, .i32⟩
  | .hbm, ⟨79, _⟩ => ⟨S8192x1x1, .i32⟩
  | .hbm, ⟨80, _⟩ => ⟨S1, .i32⟩
  | .hbm, ⟨81, _⟩ => ⟨S_, .i32⟩
  | .hbm, ⟨82, _⟩ => ⟨S8192x1x1, .i32⟩
  | .hbm, ⟨83, _⟩ => ⟨S8192x1x1, .i1⟩
  | .hbm, ⟨84, _⟩ => ⟨S1x1x1, .i32⟩
  | .hbm, ⟨85, _⟩ => ⟨S8192x1x1, .i32⟩
  | .hbm, ⟨86, _⟩ => ⟨S8192x1x1, .i1⟩
  | .hbm, ⟨87, _⟩ => ⟨S8192x1x1, .i1⟩
  | .hbm, ⟨88, _⟩ => ⟨S_, .i1⟩
  | .hbm, ⟨89, _⟩ => ⟨S8192x1, .i1⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S8192, .f32⟩
  | .hbm, ⟨95, _⟩ => ⟨S8192, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_cst_5 : Ref sig .tc := ⟨.hbm, 47, rfl⟩
abbrev main_call3_v0 : Ref sig .tc := ⟨.hbm, 48, rfl⟩
abbrev main_call3_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call4_cst : Ref sig .tc := ⟨.hbm, 56, rfl⟩
abbrev main_call4_v0 : Ref sig .tc := ⟨.hbm, 57, rfl⟩
abbrev main_call4_cst_0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_v5 : Ref sig .tc := ⟨.hbm, 63, rfl⟩
abbrev main_call4_v6 : Ref sig .tc := ⟨.hbm, 64, rfl⟩
abbrev main_call4_cst_1 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_v34 : Ref sig .tc := ⟨.hbm, 70, rfl⟩
abbrev main_v35 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_call5_c_0 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_c_1 : Ref sig .tc := ⟨.hbm, 80, rfl⟩
abbrev main_call5_c_2 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_3 : Ref sig .tc := ⟨.hbm, 88, rfl⟩
abbrev main_call5_v12 : Ref sig .tc := ⟨.hbm, 89, rfl⟩
abbrev main_call5_v13 : Ref sig .tc := ⟨.hbm, 90, rfl⟩
abbrev main_call5_cst : Ref sig .tc := ⟨.hbm, 91, rfl⟩
abbrev main_call5_v14 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  transposes_S4096x4096_S4096x4096_1_0 : S4096x4096.Transposes [1, 0] S4096x4096
  concatenates_S4096x8192_S4096x8192_S8192x8192_d0 : Shape.Concatenates [S4096x8192, S4096x8192] S8192x8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  dot_S4096x256_S256x4096_S4096x4096_1_0_0_1_n_n_wf : DotDims.WF S4096x256 S256x4096 S4096x4096 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.KernelFrRuns.lean ====
/-
  The contrastive-loss kernel as printed: what the runs of its body share.

  The grid has 32 points (half, row tile, column tile). The body is called with the row tile and the column tile of
  each batch, the result block, and three one-column buffers it keeps from point to point: the running maximum, the
  running sum and the label logit of the 1024 rows of the row tile. It resets the three columns at the first column
  tile (points ≡ 0 mod 4) and stores the result block at the last (points ≡ 3 mod 4); elsewhere the result window is
  idle. Stated here: the program around the region, each input window's block at a point, the two conditions in
  closed form over the grid, where the result window is idle, and the memrefs the body is called with.
-/
import proofs.«108332_j71305047049043_2_alg».proof.Proof.Gen.Kernel.Launch
import proofs.«108332_j71305047049043_2_alg».proof.Proof.Gen.Kernel.Skeleton
import proofs.«108332_j71305047049043_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions: first column tile, last column tile -/

/-- The body resets its three running columns when the column-tile coordinate is 0. -/
abbrev cond0_0 (i : grid0.Coords) : Prop := (Scalar.cmpi .ne (Scalar.extui (Scalar.cmpi .eq (BitVec.ofNat 32 (i 2).val) 0#32)) 0#32) = 1#1
/-- That is at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body writes its result block when the column-tile coordinate is 3, the last. -/
abbrev cond0_1 (i : grid0.Coords) : Prop := k0_cond2 i = 1#1
/-- That is at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the result window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the result window, through which its contents are stated. -/
abbrev VO0_4 : View sig .tc .vmem S1024 .f32 := (Memref.whole cc0_stg4_0 : Memref sig .tc .vmem S1024 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
/-- The three columns the body carries from point to point: running maximum, running sum, label logit. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The core's scoped buffers that are no staging buffer are the three carried columns, each owned at some contents. -/
theorem scopedRest0_owns (c : Dev nD) :
    (Pipeline.scopedRest spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.Kernel.Fr

end
-- ==== Proof.KernelFrRunA.lean ====
/-
  The body's run at a first column tile: the three carried columns are stored whole twice (the reset, then this
  tile's update), the result window is left untouched. The pieces each column ends with are found by the run.
-/
import proofs.«108332_j71305047049043_2_alg».proof.Proof.KernelFrRuns

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (first column tile; points ≡ 0 mod 4): the three carried columns hold anything and are stored whole (reset,
    then this tile's step); the result window is idle: its buffer is handed back untouched. The pieces each carried
    column ends with are found by the run. -/
noncomputable def kernelRun0_A (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__ntxent_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Fr

end
-- ==== Proof.KernelFrRunB.lean ====
/-
  The body's run at a middle column tile: the three carried columns hold what the point before left, each is stored
  whole once (this tile's update), the result window is left untouched.
-/
import proofs.«108332_j71305047049043_2_alg».proof.Proof.KernelFrRunA

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (a middle column tile; points ≡ 1, 2 mod 4): the three carried columns hold what the point before left and
    are stored whole (this tile's step); the result window is idle. -/
noncomputable def kernelRun0_B (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__ntxent_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Fr

end
-- ==== Proof.KernelFrRunC.lean ====
/-
  The body's run at the last column tile: the three carried columns are updated as at a middle tile, then read back,
  and the result block is stored whole from them.
-/
import proofs.«108332_j71305047049043_2_alg».proof.Proof.KernelFrRunB

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (last column tile; points ≡ 3 mod 4): the three carried columns hold what the point before left and are
    stored whole (this tile's step); then the result block is stored whole from them. -/
noncomputable def kernelRun0_C (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__ntxent_kernel i arg3 harg3 arg4 harg4 arg5 harg5 arg6 harg6 arg7 harg7 arg8 harg8 arg9 harg9 arg10 harg10) K } := by
  refine ⟨?_, ?_, ?_, ?_, fun E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Fr

end
-- ==== Proof.LibSharedFrame.lean ====
/-
  The frame run of a one-region pipeline kernel whose input windows may SHARE an array (one array handed to the kernel
  through several input windows, read at different blocks), for a kernel that uses no semaphore of its own, no scratch
  it names and no random-number register: the region's invariant is just the core's scoped buffers that are no
  staging buffer, at some contents.

  With distinct arrays every window's array is held whole at the full share. With a shared array that cannot be: the
  one buffer behind the array has to be dealt among the windows that read it. The run below therefore takes, in place
  of "every share is full", the entailment `hsplit`: the distinct buffers behind the arrays, each whole at the full
  share at the region's entry contents, yield the proof data's arrays at entry, each window at its own share.
  `pointsTo_halves` is the one law a two-reader split needs: a full share is its left half and its right half.

  The conclusion is the same post as for distinct arrays: every window's array ends at what the write-backs of the
  proof data compute, every other unscoped buffer ends as the region found it.
-/
import Idealize.ShloMosaic.Lib.Pipeline.Frame

noncomputable section

namespace Cert.Lib.SharedFrame

open Idealize.ShloMosaic Idealize.ShloMosaic.Pipeline Idealize.ShloMosaic.Rounds Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- A buffer held at the full share is the same buffer held at the two halves of the full share: what two readers of
    one array are each given. -/
theorem pointsTo_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

variable (cfgs : P → Cfg sig Λ₀) (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

include hinj hw in
/-- THE FRAME RUN when input windows may share an array. `hbody` is the body obligation at every point; `hne`, `harr`,
    `hstage` the layout (no block empty, arrays and staging memrefs whole buffers); `howed`: nothing owed; `hmain`: the
    program up to the region, leaving the unscoped buffers at `V`; `hsplit`: how the buffers behind the arrays are dealt
    among the windows; `hΦ`: the invariant is the scoped rest. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => (cfgs q).toPCfg (Val := Val)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => by
      rw [hΦ]
      iintro ⟨-, H⟩
      iexact H)
    (hout := fun c => by
      rw [hΦ]
      iintro H
      isplitr
      · iempintro
      · iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.LibSharedTrack.lean ====
/-
  The frame run of a one-region pipeline kernel whose input windows may share an array, for a kernel that CARRIES
  values in scratch buffers from one grid point to the next (and uses no semaphore of its own and no random-number
  register).

  The region's invariant `Φ t` is then whatever the proof states point by point — the scratch buffers at the contents
  the points so far have left in them. Two entailments tie it to what the launch hands over and takes back, the
  core's scoped buffers that are no staging buffer, each at some contents: before the first point they yield the
  invariant (`hin`: the scratch may hold anything), and after the last point the invariant yields them back
  (`hout`: what the scratch holds is forgotten). As with untracked scratch, the one buffer behind a shared array is
  dealt among the windows that read it by `hsplit`.
-/
import Idealize.ShloMosaic.Lib.Pipeline.Frame

noncomputable section

namespace Cert.Lib.SharedTrack

open Idealize.ShloMosaic Idealize.ShloMosaic.Pipeline Idealize.ShloMosaic.Rounds Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

include hinj hw in
/-- THE FRAME RUN with shared input arrays and a tracking invariant. `hbody` is the body obligation at every point;
    `hne`, `harr`, `hstage` the layout; `howed`: nothing owed; `hmain`: the program up to the region, leaving the
    unscoped buffers at `V`; `hsplit`: how the buffers behind the arrays are dealt among the windows; `hin` / `hout`:
    the scoped rest yields the invariant before the first point and gets it back after the last. -/
theorem θ_run_frame_shared_track
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => (cfgs q).toPCfg (Val := Val)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show iprop(emp ∗ scopedRest (cfgs p).spec c) ⊢ (scopedRest (cfgs p).spec c : sProp 𝕄) from by
      iintro ⟨-, H⟩
      iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedTrack

end
-- ==== Proof.KernelFr.lean ====
/-
  The proof data of the kernel's one region and its body obligation.

  Per control case: what the run leaves in each carried column and in the result buffer, as the found pieces read
  back, each list of pieces covering its buffer. Point by point: the result buffer and the three columns after
  position `n`, by recursion — the case the position is in, the columns taken from position `n - 1` except at a first
  column tile. The invariant before position `n` holds the three columns at those contents (at anything before the
  first point). Each batch is read through a row-tile window and a column-tile window, which hold the two halves of
  its share. The body obligation is a case split on the position among the four column tiles.
-/
import proofs.«108332_j71305047049043_2_alg».proof.Proof.KernelFrRunC
import proofs.«108332_j71305047049043_2_alg».proof.Proof.LibSharedFrame
import proofs.«108332_j71305047049043_2_alg».proof.Proof.LibSharedTrack

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Case A -/

/-- Case A's pieces for carried column 0 cover it (one whole store is the last into it). -/
theorem scover0_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.1 S1024x1.size (by sl_kernel_rfl) y

/-- What case A leaves in carried column 0: its pieces read back. -/
def sout0_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024x1 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3).2.1)

/-- Case A's pieces for carried column 1 cover it (one whole store is the last into it). -/
theorem scover0_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.1 S1024x1.size (by sl_kernel_rfl) y

/-- What case A leaves in carried column 1: its pieces read back. -/
def sout0_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024x1 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3).2.2.1)

/-- Case A's pieces for carried column 2 cover it (one whole store is the last into it). -/
theorem scover0_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.2.1 S1024x1.size (by sl_kernel_rfl) y

/-- What case A leaves in carried column 2: its pieces read back. -/
def sout0_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024x1 .f32 :=
  VS0_2.read (Elt F) (VS0_2.writes (Elt F) VS0_2.junk (kernelRun0_A c i arg3 harg3 arg4 harg4 arg5 harg5 arg6 harg6 arg7 harg7 arg8 harg8 arg9 harg9 arg10 harg10 hc0 hc1 x0 x1 x2 x3).2.2.2.1)

/-- What case A leaves in the result window's staging buffer (nothing is stored: a placeholder nothing consults). -/
def out0_A_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024 .f32 :=
  VO0_4.read (Elt F) (VO0_4.writes (Elt F) VO0_4.junk (kernelRun0_A c i arg3 harg3 arg4 harg4 arg5 harg5 arg6 harg6 arg7 harg7 arg8 harg8 arg9 harg9 arg10 harg10 hc0 hc1 x0 x1 x2 x3).1)

/-! ### Case B -/

/-- Case B's pieces for carried column 0 cover it (one whole store is the last into it). -/
theorem scover0_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y

/-- What case B leaves in carried column 0: its pieces read back. -/
def sout0_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024x1 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 xs0 xs1 xs2).2.1)

/-- Case B's pieces for carried column 1 cover it (one whole store is the last into it). -/
theorem scover0_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

/-- What case B leaves in carried column 1: its pieces read back. -/
def sout0_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024x1 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 xs0 xs1 xs2).2.2.1)

/-- Case B's pieces for carried column 2 cover it (one whole store is the last into it). -/
theorem scover0_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.2.1 S1024x1.size (by sl_kernel_rfl) y

/-- What case B leaves in carried column 2: its pieces read back. -/
def sout0_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024x1 .f32 :=
  VS0_2.read (Elt F) (VS0_2.writes (Elt F) VS0_2.junk (kernelRun0_B c i arg3 harg3 arg4 harg4 arg5 harg5 arg6 harg6 arg7 harg7 arg8 harg8 arg9 harg9 arg10 harg10 hc0 hc1 x0 x1 x2 x3 xs0 xs1 xs2).2.2.2.1)

/-- What case B leaves in the result window's staging buffer (nothing is stored: a placeholder nothing consults). -/
def out0_B_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024 .f32 :=
  VO0_4.read (Elt F) (VO0_4.writes (Elt F) VO0_4.junk (kernelRun0_B c i arg3 harg3 arg4 harg4 arg5 harg5 arg6 harg6 arg7 harg7 arg8 harg8 arg9 harg9 arg10 harg10 hc0 hc1 x0 x1 x2 x3 xs0 xs1 xs2).1)

/-! ### Case C -/

/-- Case C's pieces for carried column 0 cover it (one whole store is the last into it). -/
theorem scover0_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.1 S1024x1.size (by sl_kernel_rfl) y

/-- What case C leaves in carried column 0: its pieces read back. -/
def sout0_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024x1 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 xs0 xs1 xs2).2.1)

/-- Case C's pieces for carried column 1 cover it (one whole store is the last into it). -/
theorem scover0_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

/-- What case C leaves in carried column 1: its pieces read back. -/
def sout0_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024x1 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 xs0 xs1 xs2).2.2.1)

/-- Case C's pieces for carried column 2 cover it (one whole store is the last into it). -/
theorem scover0_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.2.1 S1024x1.size (by sl_kernel_rfl) y

/-- What case C leaves in carried column 2: its pieces read back. -/
def sout0_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024x1 .f32 :=
  VS0_2.read (Elt F) (VS0_2.writes (Elt F) VS0_2.junk (kernelRun0_C c i arg3 harg3 arg4 harg4 arg5 harg5 arg6 harg6 arg7 harg7 arg8 harg8 arg9 harg9 arg10 harg10 hc0 hc1 x0 x1 x2 x3 xs0 xs1 xs2).2.2.2.1)

/-- Case C's one store into the result block covers it. -/
theorem cover0_C_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).1 S1024.size (by sl_kernel_rfl) y

/-- What case C leaves in the result window's staging buffer: its one store read back. -/
def out0_C_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024 .f32 :=
  VO0_4.read (Elt F) (VO0_4.writes (Elt F) VO0_4.junk (kernelRun0_C c i arg3 harg3 arg4 harg4 arg5 harg5 arg6 harg6 arg7 harg7 arg8 harg8 arg9 harg9 arg10 harg10 hc0 hc1 x0 x1 x2 x3 xs0 xs1 xs2).1)

/-! ## What the result buffer and the three carried columns hold after each point -/

/-- After the body at position `n`: the result window's staging buffer, then the running maximum, the running sum and
    the label logit columns — the case the position is in, run at the point's memrefs and input blocks, the carried
    columns (cases B, C) at what position `n - 1` left. -/
def outsAt0 (c : Dev nD) : (n : ℕ) → n < cfg0.N → Vec F S1024 .f32 × Vec F S1024x1 .f32 × Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B, over what the point before left. -/
theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C, over what the point before left. -/
theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the three columns hold anything; afterwards each
    holds what the point before left in it. -/
def PhiS (c : Dev nD) : (n : ℕ) → n ≤ cfg0.N → sProp 𝕄
  | 0, _ => Pipeline.scopedRest spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) := by
  cases n with
  | zero => exact absurd rfl hz
  | succ n => rfl

/-! ## The proof data -/

/-- The arrays as the region finds them; after the body each input's buffer at its block, the result's at `outsAt0`;
    the invariant `PhiS`; nothing owed. Each batch is read through two windows (row tile, column tile), which hold the
    two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the inputs' buffers hold their blocks; the point's position among the four column tiles says
    which case it is in; the invariant hands the body the three columns at what the point before left (at anything at
    the very first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, scopedRest0_owns]
        iintro ⟨⟨HS0, HS1, HS2⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 4 = 3
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1 sout0_C_2; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _)
        unfold owns; iexists _; isplitr
        swap; · iexact HS2
        ipureintro; exact View.read_writes_of_cover _ _ _ _ _ (scover0_C_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the three columns back, their contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_owns]
  iintro ⟨HS0, HS1, HS2⟩
  isplitl [HS0]; · iexists _; iexact HS0
  isplitl [HS1]; · iexists _; iexact HS1
  iexists _; iexact HS2

end Cert.Kernel.Fr

end
-- ==== Proof.KernelFrLaunch.lean ====
/-
  The run of the kernel's region. The buffer behind each batch is dealt in halves between the two windows that read
  it; the launch hands the three carried columns over at any contents and takes them back forgetting their contents;
  so every weakly fair execution terminates, the result array ends at what the write-backs of the proof data compute,
  and both batches end as launched.
-/
import proofs.«108332_j71305047049043_2_alg».proof.Proof.KernelFr

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## How the two batches' buffers are dealt among the windows -/

/-- The windowed arrays, each as its buffer's points-to at the window's share. -/
theorem arrays_eq (c : Dev nD) :
    (dats m 0 c).arrays ((dats m 0 c).arrAt · 0)
      = bigSep Finset.univ fun w : Fin cfg0.W => ((((c.tc : Thread nD τ).loc (Pipeline.arrRef spec0 w)) ↦{(dats m 0 c).share w} (dats m 0 c).arrAt w 0) : sProp 𝕄) := by
  unfold Dat.arrays
  exact bigSep_congr fun w _ => by rw [(arr_whole0 w).set_eq_univ]

theorem share0_0 (c : Dev nD) : (dats m 0 c).share 0 = fullShare.left := rfl
theorem share0_1 (c : Dev nD) : (dats m 0 c).share 1 = fullShare.left := rfl
theorem share0_2 (c : Dev nD) : (dats m 0 c).share 2 = fullShare.right := rfl
theorem share0_3 (c : Dev nD) : (dats m 0 c).share 3 = fullShare.right := rfl
theorem share0_4 (c : Dev nD) : (dats m 0 c).share 4 = fullShare := rfl

/-- Each batch's buffer is dealt in halves between the row-tile window and the column-tile window that read it; the
    result's buffer goes whole to its one window. -/
theorem hsplit (c : Dev nD) : (Pipeline.arrBufs spec0 c (V m c) : sProp 𝕄) ⊢ (dats m 0 c).arrays ((dats m 0 c).arrAt · 0) := by
  rw [arrays_eq, bigSep_W0, share0_0, share0_1, share0_2, share0_3, share0_4]
  unfold Pipeline.arrBufs
  rw [Idealize.SL.BI.bigSep_eq_bigSepL_of_eq [main_arg0, main_arg1, main_v0] (by decide) (by decide)]
  simp only [Idealize.SL.BI.bigSepL_cons_cons, Idealize.SL.BI.bigSepL_singleton]
  refine (BIClass.sep_mono (Cert.Lib.SharedFrame.pointsTo_halves _ _) (BIClass.sep_mono (Cert.Lib.SharedFrame.pointsTo_halves _ _) .rfl)).trans ?_
  iintro ⟨⟨A0l, A0r⟩, ⟨A1l, A1r⟩, Av⟩
  isplitl [A0l]; · iexact A0l
  isplitl [A1l]; · iexact A1l
  isplitl [A0r]; · iexact A0r
  isplitl [A1r]; · iexact A1r
  iexact Av

/-! ## The run -/

set_option backward.isDefEq.respectTransparency.types false in
/-- From any memory with zero counters every weakly fair execution of the program terminates, the result array ends at
    what the write-backs of the proof data compute, and every other unscoped buffer ends as launched. -/
theorem run_main : θ_run defs (onTc (τ := τ) (main (F := F))) (s₀ m ρ) (Pipeline.FramePost cfgs (dats m) 0 (V m)) :=
  Cert.Lib.SharedTrack.θ_run_frame_shared_track cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- The frame: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans (A_eq m c 0)),
    ((h c).1 1).trans (((dats m 0 c).arrAt_in 1 rfl _).trans (A_eq m c 1))⟩) (run_main m ρ)

end Cert.Kernel.Fr

end
-- ==== Proof.KernelIdealFrRuns.lean ====
/-
  The contrastive-loss kernel in its idealized form: what the runs of its body share.

  The grid has 32 points (half, row tile, column tile). The body is called with the row tile and the column tile of
  each batch, the result block, and three one-column buffers it keeps from point to point: the running maximum, the
  running sum and the label logit of the 1024 rows of the row tile. It resets the three columns at the first column
  tile (points ≡ 0 mod 4) and stores the result block at the last (points ≡ 3 mod 4); elsewhere the result window is
  idle. Stated here: the program around the region, each input window's block at a point, the two conditions in
  closed form over the grid, where the result window is idle, and the memrefs the body is called with.
-/
import proofs.«108332_j71305047049043_2_alg».proof.Proof.Gen.KernelIdeal.Launch
import proofs.«108332_j71305047049043_2_alg».proof.Proof.Gen.KernelIdeal.Skeleton
import proofs.«108332_j71305047049043_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program around the region -/

/-- A core's buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions: first column tile, last column tile -/

/-- The body resets its three running columns when the column-tile coordinate is 0. -/
abbrev cond0_0 (i : grid0.Coords) : Prop := (Scalar.cmpi .ne (Scalar.extui (Scalar.cmpi .eq (BitVec.ofNat 32 (i 2).val) 0#32)) 0#32) = 1#1
/-- That is at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body writes its result block when the column-tile coordinate is 3, the last. -/
abbrev cond0_1 (i : grid0.Coords) : Prop := k0_cond2 i = 1#1
/-- That is at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the result window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the result window, through which its contents are stated. -/
abbrev VO0_4 : View sig .tc .vmem S1024 .f32 := (Memref.whole cc0_stg4_0 : Memref sig .tc .vmem S1024 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
/-- The three columns the body carries from point to point: running maximum, running sum, label logit. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The core's scoped buffers that are no staging buffer are the three carried columns, each owned at some contents. -/
theorem scopedRest0_owns (c : Dev nD) :
    (Pipeline.scopedRest spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Fr

end
-- ==== Proof.KernelIdealFrRunA.lean ====
/-
  The body's run at a first column tile: the three carried columns are stored whole twice (the reset, then this
  tile's update), the result window is left untouched. The pieces each column ends with are found by the run.
-/
import proofs.«108332_j71305047049043_2_alg».proof.Proof.KernelIdealFrRuns

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- CASE A (first column tile; points ≡ 0 mod 4): the three carried columns hold anything and are stored whole (reset,
    then this tile's step); the result window is idle: its buffer is handed back untouched. The pieces each carried
    column ends with are found by the run. -/
noncomputable def kernelRun0_A (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__ntxent_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Fr

end
-- ==== Proof.KernelIdealFrRunB.lean ====
/-
  The body's run at a middle column tile: the three carried columns hold what the point before left, each is stored
  whole once (this tile's update), the result window is left untouched.
-/
import proofs.«108332_j71305047049043_2_alg».proof.Proof.KernelIdealFrRunA

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- CASE B (a middle column tile; points ≡ 1, 2 mod 4): the three carried columns hold what the point before left and
    are stored whole (this tile's step); the result window is idle. -/
noncomputable def kernelRun0_B (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__ntxent_kernel i arg3 harg3 arg4 harg4 arg5 harg5 arg6 harg6 arg7 harg7 arg8 harg8 arg9 harg9 arg10 harg10) K } := by
  refine ⟨[], ?_, ?_, ?_, fun xi4 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Fr

end
-- ==== Proof.KernelIdealFrRunC.lean ====
/-
  The body's run at the last column tile: the three carried columns are updated as at a middle tile, then read back,
  and the result block is stored whole from them.
-/
import proofs.«108332_j71305047049043_2_alg».proof.Proof.KernelIdealFrRunB

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- CASE C (last column tile; points ≡ 3 mod 4): the three carried columns hold what the point before left and are
    stored whole (this tile's step); then the result block is stored whole from them. -/
noncomputable def kernelRun0_C (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__ntxent_kernel i arg3 harg3 arg4 harg4 arg5 harg5 arg6 harg6 arg7 harg7 arg8 harg8 arg9 harg9 arg10 harg10) K } := by
  refine ⟨?_, ?_, ?_, ?_, fun E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.KernelIdealFr.lean ====
/-
  The proof data of the kernel's one region and its body obligation.

  Per control case: what the run leaves in each carried column and in the result buffer, as the found pieces read
  back, each list of pieces covering its buffer. Point by point: the result buffer and the three columns after
  position `n`, by recursion — the case the position is in, the columns taken from position `n - 1` except at a first
  column tile. The invariant before position `n` holds the three columns at those contents (at anything before the
  first point). Each batch is read through a row-tile window and a column-tile window, which hold the two halves of
  its share. The body obligation is a case split on the position among the four column tiles.
-/
import proofs.«108332_j71305047049043_2_alg».proof.Proof.KernelIdealFrRunC
import proofs.«108332_j71305047049043_2_alg».proof.Proof.LibSharedFrame
import proofs.«108332_j71305047049043_2_alg».proof.Proof.LibSharedTrack

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### Case A -/

/-- Case A's pieces for carried column 0 cover it (one whole store is the last into it). -/
theorem scover0_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.1 S1024x1.size (by sl_kernel_rfl) y

/-- What case A leaves in carried column 0: its pieces read back. -/
def sout0_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024x1 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3).2.1)

/-- Case A's pieces for carried column 1 cover it (one whole store is the last into it). -/
theorem scover0_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.1 S1024x1.size (by sl_kernel_rfl) y

/-- What case A leaves in carried column 1: its pieces read back. -/
def sout0_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024x1 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3).2.2.1)

/-- Case A's pieces for carried column 2 cover it (one whole store is the last into it). -/
theorem scover0_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3).2.2.2.1 S1024x1.size (by sl_kernel_rfl) y

/-- What case A leaves in carried column 2: its pieces read back. -/
def sout0_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024x1 .f32 :=
  VS0_2.read (Elt F) (VS0_2.writes (Elt F) VS0_2.junk (kernelRun0_A c i arg3 harg3 arg4 harg4 arg5 harg5 arg6 harg6 arg7 harg7 arg8 harg8 arg9 harg9 arg10 harg10 hc0 hc1 x0 x1 x2 x3).2.2.2.1)

/-- What case A leaves in the result window's staging buffer (nothing is stored: a placeholder nothing consults). -/
def out0_A_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) : Vec F S1024 .f32 :=
  VO0_4.read (Elt F) (VO0_4.writes (Elt F) VO0_4.junk (kernelRun0_A c i arg3 harg3 arg4 harg4 arg5 harg5 arg6 harg6 arg7 harg7 arg8 harg8 arg9 harg9 arg10 harg10 hc0 hc1 x0 x1 x2 x3).1)

/-! ### Case B -/

/-- Case B's pieces for carried column 0 cover it (one whole store is the last into it). -/
theorem scover0_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y

/-- What case B leaves in carried column 0: its pieces read back. -/
def sout0_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024x1 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 xs0 xs1 xs2).2.1)

/-- Case B's pieces for carried column 1 cover it (one whole store is the last into it). -/
theorem scover0_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

/-- What case B leaves in carried column 1: its pieces read back. -/
def sout0_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024x1 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 xs0 xs1 xs2).2.2.1)

/-- Case B's pieces for carried column 2 cover it (one whole store is the last into it). -/
theorem scover0_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 xs0 xs1 xs2).2.2.2.1 S1024x1.size (by sl_kernel_rfl) y

/-- What case B leaves in carried column 2: its pieces read back. -/
def sout0_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024x1 .f32 :=
  VS0_2.read (Elt F) (VS0_2.writes (Elt F) VS0_2.junk (kernelRun0_B c i arg3 harg3 arg4 harg4 arg5 harg5 arg6 harg6 arg7 harg7 arg8 harg8 arg9 harg9 arg10 harg10 hc0 hc1 x0 x1 x2 x3 xs0 xs1 xs2).2.2.2.1)

/-- What case B leaves in the result window's staging buffer (nothing is stored: a placeholder nothing consults). -/
def out0_B_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) : Vec F S1024 .f32 :=
  VO0_4.read (Elt F) (VO0_4.writes (Elt F) VO0_4.junk (kernelRun0_B c i arg3 harg3 arg4 harg4 arg5 harg5 arg6 harg6 arg7 harg7 arg8 harg8 arg9 harg9 arg10 harg10 hc0 hc1 x0 x1 x2 x3 xs0 xs1 xs2).1)

/-! ### Case C -/

/-- Case C's pieces for carried column 0 cover it (one whole store is the last into it). -/
theorem scover0_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.1 S1024x1.size (by sl_kernel_rfl) y

/-- What case C leaves in carried column 0: its pieces read back. -/
def sout0_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024x1 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 xs0 xs1 xs2).2.1)

/-- Case C's pieces for carried column 1 cover it (one whole store is the last into it). -/
theorem scover0_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

/-- What case C leaves in carried column 1: its pieces read back. -/
def sout0_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024x1 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 xs0 xs1 xs2).2.2.1)

/-- Case C's pieces for carried column 2 cover it (one whole store is the last into it). -/
theorem scover0_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).2.2.2.1 S1024x1.size (by sl_kernel_rfl) y

/-- What case C leaves in carried column 2: its pieces read back. -/
def sout0_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024x1 .f32 :=
  VS0_2.read (Elt F) (VS0_2.writes (Elt F) VS0_2.junk (kernelRun0_C c i arg3 harg3 arg4 harg4 arg5 harg5 arg6 harg6 arg7 harg7 arg8 harg8 arg9 harg9 arg10 harg10 hc0 hc1 x0 x1 x2 x3 xs0 xs1 xs2).2.2.2.1)

/-- Case C's one store into the result block covers it. -/
theorem cover0_C_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) (y : S1024.Idx) :
    ∃ pc ∈ (kernelRun0_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg3 harg3 arg4 harg4 arg5 harg5 arg6 harg6 arg7 harg7 arg8 harg8 arg9 harg9 arg10 harg10 hc0 hc1 x0 x1 x2 x3 xs0 xs1 xs2).1 S1024.size (by sl_kernel_rfl) y

/-- What case C leaves in the result window's staging buffer: its one store read back. -/
def out0_C_4 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) : Vec F S1024 .f32 :=
  VO0_4.read (Elt F) (VO0_4.writes (Elt F) VO0_4.junk (kernelRun0_C c i arg3 harg3 arg4 harg4 arg5 harg5 arg6 harg6 arg7 harg7 arg8 harg8 arg9 harg9 arg10 harg10 hc0 hc1 x0 x1 x2 x3 xs0 xs1 xs2).1)

/-! ## What the result buffer and the three carried columns hold after each point -/

/-- After the body at position `n`: the result window's staging buffer, then the running maximum, the running sum and
    the label logit columns — the case the position is in, run at the point's memrefs and input blocks, the carried
    columns (cases B, C) at what position `n - 1` left. -/
def outsAt0 (c : Dev nD) : (n : ℕ) → n < cfg0.N → Vec F S1024 .f32 × Vec F S1024x1 .f32 × Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B, over what the point before left. -/
theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C, over what the point before left. -/
theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the three columns hold anything; afterwards each
    holds what the point before left in it. -/
def PhiS (c : Dev nD) : (n : ℕ) → n ≤ cfg0.N → sProp 𝕄
  | 0, _ => Pipeline.scopedRest spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) := by
  cases n with
  | zero => exact absurd rfl hz
  | succ n => rfl

/-! ## The proof data -/

/-- The arrays as the region finds them; after the body each input's buffer at its block, the result's at `outsAt0`;
    the invariant `PhiS`; nothing owed. Each batch is read through two windows (row tile, column tile), which hold the
    two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the inputs' buffers hold their blocks; the point's position among the four column tiles says
    which case it is in; the invariant hands the body the three columns at what the point before left (at anything at
    the very first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, scopedRest0_owns]
        iintro ⟨⟨HS0, HS1, HS2⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 4 = 3
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1 sout0_C_2; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _)
        unfold owns; iexists _; isplitr
        swap; · iexact HS2
        ipureintro; exact View.read_writes_of_cover _ _ _ _ _ (scover0_C_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the three columns back, their contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_owns]
  iintro ⟨HS0, HS1, HS2⟩
  isplitl [HS0]; · iexists _; iexact HS0
  isplitl [HS1]; · iexists _; iexact HS1
  iexists _; iexact HS2

end Cert.KernelIdeal.Fr

end
-- ==== Proof.KernelIdealCols.lean ====
/-
  What the found pieces are. Each control case's pieces are single whole stores of the body's arithmetic, so the three
  carried columns after a point are one STEP — on the running maximum, the running sum, the label logit — applied to
  the columns before it (the reset values at a first column tile), at the point's own four blocks; and at a last
  column tile the result block is formed from the three columns after the step.
-/
import proofs.«108332_j71305047049043_2_alg».proof.Proof.KernelIdealFr
import Idealize.ShloMosaic.Lib.Pipeline.Value

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## One column tile's step on the three carried columns

At a grid point the body sees four blocks: the row tile of each batch (`x0`, `x1`) and the column tile of each batch
(`x2`, `x3`). From them it forms the tile of unmasked logits (query rows against the partner batch's column-tile rows),
the tile of own-batch logits, and the mask of the entries whose global row and column index coincide; then it updates
the running maximum, the running sum and the label logit. -/

/-- The unmasked logits tile. -/
def vPos (i : grid0.Coords) (x0 x1 x2 x3 : Vec F S1024x256 .f32) : FVec F S1024x1024 .f32 :=
  k0_pay16 (BitVec.ofNat 32 (i 0).val) (k0_pay7 x0) (k0_pay8 x1) (k0_pay9 x2) x3 (k0_pay10 x3) (Scalar.ofBits .f32 0x322BCC77#32)
/-- The own-batch logits tile, before masking. -/
def vNeg (i : grid0.Coords) (x0 x1 x2 x3 : Vec F S1024x256 .f32) : FVec F S1024x1024 .f32 :=
  k0_pay17 (BitVec.ofNat 32 (i 0).val) (k0_pay7 x0) (k0_pay8 x1) (k0_pay9 x2) x3 (k0_pay10 x3) (Scalar.ofBits .f32 0x322BCC77#32)
/-- The mask: global row index = global column index. -/
def vMask (i : grid0.Coords) : IVec S1024x1024 1 := k0_pay18 (BitVec.ofNat 32 (i 1).val) (BitVec.ofNat 32 (i 2).val)
/-- The running maximum after this tile. -/
def stepM (i : grid0.Coords) (x0 x1 x2 x3 : Vec F S1024x256 .f32) (xm : Vec F S1024x1 .f32) : Vec F S1024x1 .f32 :=
  k0_pay5 (vPos i x0 x1 x2 x3) (vNeg i x0 x1 x2 x3) (vMask i) xm
/-- The running sum after this tile. -/
def stepL (i : grid0.Coords) (x0 x1 x2 x3 : Vec F S1024x256 .f32) (xm xl : Vec F S1024x1 .f32) : Vec F S1024x1 .f32 :=
  k0_pay4 (vPos i x0 x1 x2 x3) (vNeg i x0 x1 x2 x3) (vMask i) xm xm xl
/-- The label logit after this tile. -/
def stepD (i : grid0.Coords) (x0 x1 x2 x3 : Vec F S1024x256 .f32) (xd : Vec F S1024x1 .f32) : Vec F S1024x1 .f32 :=
  k0_pay1 (k0_pay19 (BitVec.ofNat 32 (i 0).val) (BitVec.ofNat 32 (i 1).val) (BitVec.ofNat 32 (i 2).val) (k0_pay7 x0) (k0_pay8 x1) (k0_pay9 x2) x3 (k0_pay10 x3) (Scalar.ofBits .f32 0x322BCC77#32) xd)
/-- The result block from the three columns after the last tile. -/
def finOut (xm xl xd : Vec F S1024x1 .f32) : Vec F S1024 .f32 := k0_pay6 xm xl xd

/-! ## What each case's found pieces are -/

theorem sout0_B_0_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) :
    sout0_B_0 c i arg3 harg3 arg4 harg4 arg5 harg5 arg6 harg6 arg7 harg7 arg8 harg8 arg9 harg9 arg10 harg10 hc0 hc1 x0 x1 x2 x3 xs0 xs1 xs2 = stepM i x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_B_1_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) :
    sout0_B_1 c i arg3 harg3 arg4 harg4 arg5 harg5 arg6 harg6 arg7 harg7 arg8 harg8 arg9 harg9 arg10 harg10 hc0 hc1 x0 x1 x2 x3 xs0 xs1 xs2 = stepL i x0 x1 x2 x3 xs0 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_B_2_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 x1 x2 x3 : Vec F S1024x256 .f32) (xs0 xs1 xs2 : Vec F S1024x1 .f32) :
    sout0_B_2 c i arg3 harg3 arg4 harg4 arg5 harg5 arg6 harg6 arg7 harg7 arg8 harg8 arg9 harg9 arg10 harg10 hc0 hc1 x0 x1 x2 x3 xs0 xs1 xs2 = stepD i x0 x1 x2 x3 xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_C_0_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) :
    sout0_C_0 c i arg3 harg3 arg4 harg4 arg5 harg5 arg6 harg6 arg7 harg7 arg8 harg8 arg9 harg9 arg10 harg10 hc0 hc1 x0 x1 x2 x3 xs0 xs1 xs2 = stepM i x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_C_1_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) :
    sout0_C_1 c i arg3 harg3 arg4 harg4 arg5 harg5 arg6 harg6 arg7 harg7 arg8 harg8 arg9 harg9 arg10 harg10 hc0 hc1 x0 x1 x2 x3 xs0 xs1 xs2 = stepL i x0 x1 x2 x3 xs0 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_C_2_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) :
    sout0_C_2 c i arg3 harg3 arg4 harg4 arg5 harg5 arg6 harg6 arg7 harg7 arg8 harg8 arg9 harg9 arg10 harg10 hc0 hc1 x0 x1 x2 x3 xs0 xs1 xs2 = stepD i x0 x1 x2 x3 xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem out0_C_4_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 x1 x2 x3 : Vec F S1024x256 .f32) (xs0 xs1 xs2 : Vec F S1024x1 .f32) :
    out0_C_4 c i arg3 harg3 arg4 harg4 arg5 harg5 arg6 harg6 arg7 harg7 arg8 harg8 arg9 harg9 arg10 harg10 hc0 hc1 x0 x1 x2 x3 xs0 xs1 xs2 = finOut (stepM i x0 x1 x2 x3 xs0) (stepL i x0 x1 x2 x3 xs0 xs1) (stepD i x0 x1 x2 x3 xs2) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz1]
  simp only [View.readCov_unit_zero (S := S1024x1) _ hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_A_0_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) :
    sout0_A_0 c i arg3 harg3 arg4 harg4 arg5 harg5 arg6 harg6 arg7 harg7 arg8 harg8 arg9 harg9 arg10 harg10 hc0 hc1 x0 x1 x2 x3 = stepM i x0 x1 x2 x3 (k0_pay12 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz2]
  simp only [View.readCov_unit_zero (S := S1024x1) _ hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_A_1_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) :
    sout0_A_1 c i arg3 harg3 arg4 harg4 arg5 harg5 arg6 harg6 arg7 harg7 arg8 harg8 arg9 harg9 arg10 harg10 hc0 hc1 x0 x1 x2 x3 = stepL i x0 x1 x2 x3 (k0_pay12 (F := F)) (k0_pay13 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz2]
  simp only [View.readCov_unit_zero (S := S1024x1) _ hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

theorem sout0_A_2_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 x1 x2 x3 : Vec F S1024x256 .f32) :
    sout0_A_2 c i arg3 harg3 arg4 harg4 arg5 harg5 arg6 harg6 arg7 harg7 arg8 harg8 arg9 harg9 arg10 harg10 hc0 hc1 x0 x1 x2 x3 = stepD i x0 x1 x2 x3 (k0_pay14 (F := F)) := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz2]
  simp only [View.readCov_unit_zero (S := S1024x1) _ hz2]
  simp only [View.readAt_eq_ld, harg3.read_unread, harg4.read_unread, harg5.read_unread, harg6.read_unread, harg7.read_unread, harg8.read_unread, harg9.read_unread, harg10.read_unread, View.ld_unit_zero (S := S1024x256) hz2, View.ld_unit_zero (S := S1024x1) hz2, View.ld_unit_zero (S := S1024) hz1]
  rfl

/-! ## The three columns, point by point -/

/-- A point's step on the running maximum, at the point's own blocks. -/
def blkM (c : Dev nD) (t : Fin cfg0.N) (xm : Vec F S1024x1 .f32) : Vec F S1024x1 .f32 := stepM (grid0.coords t) (iblk m c 0 t) (iblk m c 1 t) (iblk m c 2 t) (iblk m c 3 t) xm
/-- A point's step on the running sum. -/
def blkL (c : Dev nD) (t : Fin cfg0.N) (xm xl : Vec F S1024x1 .f32) : Vec F S1024x1 .f32 := stepL (grid0.coords t) (iblk m c 0 t) (iblk m c 1 t) (iblk m c 2 t) (iblk m c 3 t) xm xl
/-- A point's step on the label logit. -/
def blkD (c : Dev nD) (t : Fin cfg0.N) (xd : Vec F S1024x1 .f32) : Vec F S1024x1 .f32 := stepD (grid0.coords t) (iblk m c 0 t) (iblk m c 1 t) (iblk m c 2 t) (iblk m c 3 t) xd

set_option maxHeartbeats 8000000 in
/-- At a first column tile the three columns are one step from the reset values. -/
theorem cols_A (c : Dev nD) (t : Fin cfg0.N) (h0 : t.val % 4 = 0) :
    (outsAt0 m c t.val t.isLt).2 = (blkM m c t (k0_pay12 (F := F)), blkL m c t (k0_pay12 (F := F)) (k0_pay13 (F := F)), blkD m c t (k0_pay14 (F := F))) := by
  have h1 : ¬t.val % 4 = 3 := by omega
  rw [outsAt0_A m c t h0 h1]
  exact Prod.ext (sout0_A_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) (Prod.ext (sout0_A_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) (sout0_A_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)))

set_option maxHeartbeats 8000000 in
/-- At a middle column tile they are one step from what the point before left. -/
theorem cols_B (c : Dev nD) (t : Fin cfg0.N) (h0 : ¬t.val % 4 = 0) (h1 : ¬t.val % 4 = 3) :
    (outsAt0 m c t.val t.isLt).2 = (blkM m c t (outsAt0 m c (t.val - 1) (Nat.lt_of_le_of_lt (Nat.sub_le _ _) t.isLt)).2.1, blkL m c t (outsAt0 m c (t.val - 1) (Nat.lt_of_le_of_lt (Nat.sub_le _ _) t.isLt)).2.1 (outsAt0 m c (t.val - 1) (Nat.lt_of_le_of_lt (Nat.sub_le _ _) t.isLt)).2.2.1, blkD m c t (outsAt0 m c (t.val - 1) (Nat.lt_of_le_of_lt (Nat.sub_le _ _) t.isLt)).2.2.2) := by
  rw [outsAt0_B m c t h0 h1]
  exact Prod.ext (sout0_B_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (Prod.ext (sout0_B_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (sout0_B_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

set_option maxHeartbeats 8000000 in
/-- At a last column tile likewise, -/
theorem cols_C (c : Dev nD) (t : Fin cfg0.N) (h0 : ¬t.val % 4 = 0) (h1 : t.val % 4 = 3) :
    (outsAt0 m c t.val t.isLt).2 = (blkM m c t (outsAt0 m c (t.val - 1) (Nat.lt_of_le_of_lt (Nat.sub_le _ _) t.isLt)).2.1, blkL m c t (outsAt0 m c (t.val - 1) (Nat.lt_of_le_of_lt (Nat.sub_le _ _) t.isLt)).2.1 (outsAt0 m c (t.val - 1) (Nat.lt_of_le_of_lt (Nat.sub_le _ _) t.isLt)).2.2.1, blkD m c t (outsAt0 m c (t.val - 1) (Nat.lt_of_le_of_lt (Nat.sub_le _ _) t.isLt)).2.2.2) := by
  rw [outsAt0_C m c t h0 h1]
  exact Prod.ext (sout0_C_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (Prod.ext (sout0_C_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (sout0_C_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

set_option maxHeartbeats 8000000 in
/-- and the result block is formed from the three columns after that step. -/
theorem out_C (c : Dev nD) (t : Fin cfg0.N) (h0 : ¬t.val % 4 = 0) (h1 : t.val % 4 = 3) :
    (outsAt0 m c t.val t.isLt).1 = finOut (blkM m c t (outsAt0 m c (t.val - 1) (Nat.lt_of_le_of_lt (Nat.sub_le _ _) t.isLt)).2.1) (blkL m c t (outsAt0 m c (t.val - 1) (Nat.lt_of_le_of_lt (Nat.sub_le _ _) t.isLt)).2.1 (outsAt0 m c (t.val - 1) (Nat.lt_of_le_of_lt (Nat.sub_le _ _) t.isLt)).2.2.1) (blkD m c t (outsAt0 m c (t.val - 1) (Nat.lt_of_le_of_lt (Nat.sub_le _ _) t.isLt)).2.2.2) := by
  rw [outsAt0_C m c t h0 h1]
  exact out0_C_4_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Fr

end
-- ==== Proof.KernelIdealFrLaunch.lean ====
/-
  The run of the kernel's region. The buffer behind each batch is dealt in halves between the two windows that read
  it; the launch hands the three carried columns over at any contents and takes them back forgetting their contents;
  so every weakly fair execution terminates, the result array ends at what the write-backs of the proof data compute,
  and both batches end as launched.
-/
import proofs.«108332_j71305047049043_2_alg».proof.Proof.KernelIdealFr

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## How the two batches' buffers are dealt among the windows -/

/-- The windowed arrays, each as its buffer's points-to at the window's share. -/
theorem arrays_eq (c : Dev nD) :
    (dats m 0 c).arrays ((dats m 0 c).arrAt · 0)
      = bigSep Finset.univ fun w : Fin cfg0.W => ((((c.tc : Thread nD τ).loc (Pipeline.arrRef spec0 w)) ↦{(dats m 0 c).share w} (dats m 0 c).arrAt w 0) : sProp 𝕄) := by
  unfold Dat.arrays
  exact bigSep_congr fun w _ => by rw [(arr_whole0 w).set_eq_univ]

theorem share0_0 (c : Dev nD) : (dats m 0 c).share 0 = fullShare.left := rfl
theorem share0_1 (c : Dev nD) : (dats m 0 c).share 1 = fullShare.left := rfl
theorem share0_2 (c : Dev nD) : (dats m 0 c).share 2 = fullShare.right := rfl
theorem share0_3 (c : Dev nD) : (dats m 0 c).share 3 = fullShare.right := rfl
theorem share0_4 (c : Dev nD) : (dats m 0 c).share 4 = fullShare := rfl

/-- Each batch's buffer is dealt in halves between the row-tile window and the column-tile window that read it; the
    result's buffer goes whole to its one window. -/
theorem hsplit (c : Dev nD) : (Pipeline.arrBufs spec0 c (V m c) : sProp 𝕄) ⊢ (dats m 0 c).arrays ((dats m 0 c).arrAt · 0) := by
  rw [arrays_eq, bigSep_W0, share0_0, share0_1, share0_2, share0_3, share0_4]
  unfold Pipeline.arrBufs
  rw [Idealize.SL.BI.bigSep_eq_bigSepL_of_eq [main_arg0, main_arg1, main_v0] (by decide) (by decide)]
  simp only [Idealize.SL.BI.bigSepL_cons_cons, Idealize.SL.BI.bigSepL_singleton]
  refine (BIClass.sep_mono (Cert.Lib.SharedFrame.pointsTo_halves _ _) (BIClass.sep_mono (Cert.Lib.SharedFrame.pointsTo_halves _ _) .rfl)).trans ?_
  iintro ⟨⟨A0l, A0r⟩, ⟨A1l, A1r⟩, Av⟩
  isplitl [A0l]; · iexact A0l
  isplitl [A1l]; · iexact A1l
  isplitl [A0r]; · iexact A0r
  isplitl [A1r]; · iexact A1r
  iexact Av

/-! ## The run -/

set_option backward.isDefEq.respectTransparency.types false in
/-- From any memory with zero counters every weakly fair execution of the program terminates, the result array ends at
    what the write-backs of the proof data compute, and every other unscoped buffer ends as launched. -/
theorem run_main : θ_run defs (onTc (τ := τ) (main (F := F))) (s₀ m ρ) (Pipeline.FramePost cfgs (dats m) 0 (V m)) :=
  Cert.Lib.SharedTrack.θ_run_frame_shared_track cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- The frame: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans (A_eq m c 0)),
    ((h c).1 1).trans (((dats m 0 c).arrAt_in 1 rfl _).trans (A_eq m c 1))⟩) (run_main m ρ)

end Cert.KernelIdeal.Fr

end
-- ==== Proof.KernelIdealBlocks.lean ====
/-
  Where the blocks sit. Point `t` of the grid is half `t / 16`, row tile `t / 4 % 4`, column tile `t % 4`; the index
  maps are decided once over the 32 points. An entry of a window's block is the entry of its batch at the tile's row
  offset; every result row lies in the block written back by the last column-tile point of its row tile.
-/
import proofs.«108332_j71305047049043_2_alg».proof.Proof.KernelIdealFrLaunch
import Idealize.ShloMosaic.Lib.Pipeline.Value
import Idealize.ShloMosaic.Lib.ValueIdx

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the blocks sit

The 32 grid points are (half, row tile, column tile) in row-major order: point `t` is half `t / 16`, row tile
`t / 4 % 4`, column tile `t % 4`. The two row-tile windows are at block `t / 4 % 4` of their batches, the two
column-tile windows at block `t % 4`, and the result window at block `t / 4` of the 8192 result rows. -/

/-- The printed index maps and grid coordinates, decided once over the grid. -/
theorem idx_facts : ∀ t : Fin cfg0.N,
    win0_0.index t (0 : Fin 2) = t.val / 4 % 4 ∧ win0_0.index t (1 : Fin 2) = 0
    ∧ win0_1.index t (0 : Fin 2) = t.val / 4 % 4 ∧ win0_1.index t (1 : Fin 2) = 0
    ∧ win0_2.index t (0 : Fin 2) = t.val % 4 ∧ win0_2.index t (1 : Fin 2) = 0
    ∧ win0_3.index t (0 : Fin 2) = t.val % 4 ∧ win0_3.index t (1 : Fin 2) = 0
    ∧ win0_4.index t (0 : Fin 1) = t.val / 4
    ∧ (grid0.coords t 0).val = t.val / 16 ∧ (grid0.coords t 1).val = t.val / 4 % 4 ∧ (grid0.coords t 2).val = t.val % 4 :=
  (by decide +kernel : ∀ t : Fin grid0.N, _)

/-- Window 0's block at point `t` is rows `(t / 4 % 4) * 1024 …` of batch 0: entry (ρ, d) of the block is entry (tile * 1024 + ρ, d) of the array. -/
theorem iblk0_apply (c : Dev nD) (t : Fin cfg0.N) (ρ : Fin 1024) (d : Fin 256) :
    iblk m c 0 t (ix2 ρ d) = V m c main_arg0 (ix2 (⟨t.val / 4 % 4 * 1024 + ρ.val, by have := ρ.isLt; omega⟩ : Fin 4096) d) := by
  unfold iblk
  rw [View.read_apply]
  refine congrArg (V m c main_arg0) ?_
  obtain ⟨e00, e01, e10, e11, e20, e21, e30, e31, e4, -, -, -⟩ := idx_facts t
  funext a; apply Fin.ext
  match a with
  | ⟨0, _⟩ =>
    show win0_0.index t (0 : Fin 2) * 1024 + 1 * ρ.val = t.val / 4 % 4 * 1024 + ρ.val
    rw [e00]; omega
  | ⟨1, _⟩ =>
    show win0_0.index t (1 : Fin 2) * 256 + 1 * d.val = d.val
    rw [e01]; omega

/-- Window 1's block at point `t` is rows `(t / 4 % 4) * 1024 …` of batch 1: entry (ρ, d) of the block is entry (tile * 1024 + ρ, d) of the array. -/
theorem iblk1_apply (c : Dev nD) (t : Fin cfg0.N) (ρ : Fin 1024) (d : Fin 256) :
    iblk m c 1 t (ix2 ρ d) = V m c main_arg1 (ix2 (⟨t.val / 4 % 4 * 1024 + ρ.val, by have := ρ.isLt; omega⟩ : Fin 4096) d) := by
  unfold iblk
  rw [View.read_apply]
  refine congrArg (V m c main_arg1) ?_
  obtain ⟨e00, e01, e10, e11, e20, e21, e30, e31, e4, -, -, -⟩ := idx_facts t
  funext a; apply Fin.ext
  match a with
  | ⟨0, _⟩ =>
    show win0_1.index t (0 : Fin 2) * 1024 + 1 * ρ.val = t.val / 4 % 4 * 1024 + ρ.val
    rw [e10]; omega
  | ⟨1, _⟩ =>
    show win0_1.index t (1 : Fin 2) * 256 + 1 * d.val = d.val
    rw [e11]; omega

/-- Window 2's block at point `t` is rows `(t % 4) * 1024 …` of batch 0: entry (ρ, d) of the block is entry (tile * 1024 + ρ, d) of the array. -/
theorem iblk2_apply (c : Dev nD) (t : Fin cfg0.N) (ρ : Fin 1024) (d : Fin 256) :
    iblk m c 2 t (ix2 ρ d) = V m c main_arg0 (ix2 (⟨t.val % 4 * 1024 + ρ.val, by have := ρ.isLt; omega⟩ : Fin 4096) d) := by
  unfold iblk
  rw [View.read_apply]
  refine congrArg (V m c main_arg0) ?_
  obtain ⟨e00, e01, e10, e11, e20, e21, e30, e31, e4, -, -, -⟩ := idx_facts t
  funext a; apply Fin.ext
  match a with
  | ⟨0, _⟩ =>
    show win0_2.index t (0 : Fin 2) * 1024 + 1 * ρ.val = t.val % 4 * 1024 + ρ.val
    rw [e20]; omega
  | ⟨1, _⟩ =>
    show win0_2.index t (1 : Fin 2) * 256 + 1 * d.val = d.val
    rw [e21]; omega

/-- Window 3's block at point `t` is rows `(t % 4) * 1024 …` of batch 1: entry (ρ, d) of the block is entry (tile * 1024 + ρ, d) of the array. -/
theorem iblk3_apply (c : Dev nD) (t : Fin cfg0.N) (ρ : Fin 1024) (d : Fin 256) :
    iblk m c 3 t (ix2 ρ d) = V m c main_arg1 (ix2 (⟨t.val % 4 * 1024 + ρ.val, by have := ρ.isLt; omega⟩ : Fin 4096) d) := by
  unfold iblk
  rw [View.read_apply]
  refine congrArg (V m c main_arg1) ?_
  obtain ⟨e00, e01, e10, e11, e20, e21, e30, e31, e4, -, -, -⟩ := idx_facts t
  funext a; apply Fin.ext
  match a with
  | ⟨0, _⟩ =>
    show win0_3.index t (0 : Fin 2) * 1024 + 1 * ρ.val = t.val % 4 * 1024 + ρ.val
    rw [e30]; omega
  | ⟨1, _⟩ =>
    show win0_3.index t (1 : Fin 2) * 256 + 1 * d.val = d.val
    rw [e31]; omega

/-- A result row is in point `t`'s block iff it lies in the block's 1024 rows. -/
theorem mem_blk4 (t : Fin cfg0.N) (i : S8192.Idx) :
    i ∈ ((cfg0.win 4).blk t).view.set ↔ ∀ a : Fin 1, win0_4.index t a * S1024.size a ≤ (i a).val ∧ (i a).val < win0_4.index t a * S1024.size a + S1024.size a := by
  show i ∈ ((View.whole main_v0).slice (win0_4.rect t)).set ↔ _
  rw [View.set_slice_whole, Rect.mem_set_unit]
  exact Iff.rfl

/-- Every result row is written back by the last column-tile point of its row tile. -/
theorem cover4 (i : S8192.Idx) : ∃ t : Fin cfg0.N, (cfg0.win 4).flush t = true ∧ i ∈ ((cfg0.win 4).blk t).view.set := by
  have hi : (i 0).val < 8192 := (i 0).isLt
  have hN : cfg0.N = 32 := N_0
  refine ⟨⟨4 * ((i 0).val / 1024) + 3, by omega⟩, (flush0_4 _).mpr (by show (4 * ((i 0).val / 1024) + 3) % 4 = 3; omega), ?_⟩
  rw [mem_blk4]
  intro a
  obtain ⟨-, -, -, -, -, -, -, -, e4, -, -, -⟩ := idx_facts ⟨4 * ((i 0).val / 1024) + 3, by omega⟩
  match a with
  | ⟨0, _⟩ =>
    show win0_4.index _ (0 : Fin 1) * 1024 ≤ (i 0).val ∧ (i 0).val < win0_4.index _ (0 : Fin 1) * 1024 + 1024
    rw [e4]; dsimp only; omega

end Cert.KernelIdeal.Fr

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumnCast.lean ====
/-
  A one-column matrix `[a, 1]` viewed as a vector `[a]`, read at an index: entry `i` is the column's entry `(i, 0)`.
  (The inverse of the cast `[a] → [a, 1]`; what dropping the kept axis of a row reduction does.)
-/
import Idealize.ShloMosaic.Lib.Pipeline.Value
import Idealize.ShloMosaic.Lib.ValueIdx

namespace Cert.LibColumnCast

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnCast
-- ==== Proof.Spec.lean ====
/-
  The contrastive loss both programs compute, as a real number per output row.

  Two batches `a0 a1` of 4096 rows of 256 reals. Each row is divided by its Euclidean norm clamped below by `eps`
  (`unitRow`); the similarity of row `p` of `x` with row `q` of `y` is the inner product of the two unit rows times
  `ten` (`sim`). For a query row `p` of `x` with partner batch `y` the logits are the 4096 similarities with the rows
  of `y` and the 4095 similarities with the OTHER rows of `x` (the row's similarity with itself is masked out: its
  logit is `-∞`, whose exponential is `0`), the label is the similarity with row `p` of `y`, and the loss is
      log (Σ_q exp (sim x y p q) + Σ_{q ≠ p} exp (sim x x p q)) - sim x y p p.
  The log-sum-exp is written without a shift: over the reals `M + log Σ exp (x - M)` is the same number for every
  real `M`, so neither program's running or row maximum appears here.

  Output rows 0 … 4095 take `x = a0, y = a1`; rows 4096 … 8191 take `x = a1, y = a0`.
-/
import Idealize.ShloMosaic.PureOps.Ideal
import Idealize.ShloMosaic.Lib.ValueIdx

noncomputable section

namespace Cert.Spec

open Idealize.ShloMosaic Idealize.ShloMosaic.ValueIdx
open scoped BigOperators

/-- The shape of a batch. -/
abbrev SA : Shape := ⟨2, ![4096, 256]⟩
/-- The shape of the result. -/
abbrev SO : Shape := ⟨1, ![8192]⟩

/-- The Euclidean norm of row `p`, clamped below by `eps`. -/
def nrm (eps : ℝ) (a : SA.Idx → ℝ) (p : Fin 4096) : ℝ :=
  max (Real.sqrt (∑ d : Fin 256, a (ix2 p d) * a (ix2 p d))) eps

/-- Row `p` divided by its clamped norm, at column `d`. -/
def unitRow (eps : ℝ) (a : SA.Idx → ℝ) (p : Fin 4096) (d : Fin 256) : ℝ :=
  a (ix2 p d) / nrm eps a p

/-- The scaled cosine similarity of row `p` of `x` and row `q` of `y`. -/
def sim (eps ten : ℝ) (x y : SA.Idx → ℝ) (p q : Fin 4096) : ℝ :=
  (∑ d : Fin 256, unitRow eps x p d * unitRow eps y q d) * ten

/-- The sum of exponentials of a query row's logits: all partners, and every other row of its own batch. -/
def denom (eps ten : ℝ) (x y : SA.Idx → ℝ) (p : Fin 4096) : ℝ :=
  (∑ q : Fin 4096, Real.exp (sim eps ten x y p q)) + ∑ q ∈ (Finset.univ : Finset (Fin 4096)).erase p, Real.exp (sim eps ten x x p q)

/-- The loss of query row `p` of `x` against the partner batch `y`. -/
def loss (eps ten : ℝ) (x y : SA.Idx → ℝ) (p : Fin 4096) : ℝ :=
  Real.log (denom eps ten x y p) - sim eps ten x y p p

/-- The whole result: the first 4096 rows query `a0` against `a1`, the last 4096 query `a1` against `a0`. -/
def G (eps ten : ℝ) (a0 a1 : SA.Idx → ℝ) (r : Fin 8192) : ℝ :=
  if h : r.val < 4096 then loss eps ten a0 a1 ⟨r.val, h⟩
  else loss eps ten a1 a0 ⟨r.val - 4096, by have := r.isLt; omega⟩

/-- The result as an array of extended reals. -/
def Garr (eps ten : ℝ) (a0 a1 : SA.Idx → ℝ) : SO.Idx → EReal :=
  fun j => ((G eps ten a0 a1 (j 0) : ℝ) : EReal)

/-- A batch of reals as an array of extended reals. -/
def lift (a : SA.Idx → ℝ) : SA.Idx → EReal := fun j => ((a j : ℝ) : EReal)

/-- The clamp constant: the real that the word `0x322BCC77` denotes. -/
def epsR : ℝ := (Ideal.ofBits .f32 0x322BCC77#32).toReal

/-- The sum of exponentials is positive: every term is. -/
theorem denom_pos (eps ten : ℝ) (x y : SA.Idx → ℝ) (p : Fin 4096) : 0 < denom eps ten x y p := by
  unfold denom
  have h1 : 0 < ∑ q : Fin 4096, Real.exp (sim eps ten x y p q) :=
    Finset.sum_pos (fun q _ => Real.exp_pos _) ⟨p, Finset.mem_univ _⟩
  have h2 : 0 ≤ ∑ q ∈ (Finset.univ : Finset (Fin 4096)).erase p, Real.exp (sim eps ten x x p q) :=
    Finset.sum_nonneg (fun q _ => (Real.exp_pos _).le)
  linarith

end Cert.Spec

end
-- ==== Proof.LibRealSoftmax.lean ====
/-
  Real numbers inside the extended reals, for softmax-like kernels.

  * Finite sums and maxima of real numbers, computed in the extended reals, are real numbers (the maximum over a
    nonempty range, folded from `-∞`).
  * An extended real whose absolute value `max a (-a)` is below `+∞` is a real number; so is one that passes the
    entrywise test `|a| < +∞` of a finiteness precondition.
  * A softmax does not change when one number is subtracted from every logit: `exp (a - t) = exp a * exp (-t)`, and the
    common factor cancels between an entry and the total. Multiplying by the reciprocal of the total is dividing by it.
  * The single-precision words of 1, -1, 2, 64, `+∞` and `-∞`, as extended reals.
-/
import Idealize.ShloMosaic.PureOps.Ideal
import Idealize.ShloMosaic.PureOps.Ideal.Laws

noncomputable section

namespace Cert.LibRealSoftmax

open Idealize.ShloMosaic

/-! ## The constants, as real numbers -/

/-- The word `0x3F800000` is 1. -/
theorem word_one : Ideal.ofBits .f32 0x3F800000#32 = ((1 : ℝ) : EReal) := by
  simp [Ideal.ofBits, Ideal.ieee]
  norm_cast
  norm_num
/-- The word `0xBF800000` is -1. -/
theorem word_negOne : Ideal.ofBits .f32 0xBF800000#32 = ((-1 : ℝ) : EReal) := by
  simp [Ideal.ofBits, Ideal.ieee]
  norm_cast
  norm_num
/-- The word `0x40000000` is 2. -/
theorem word_two : Ideal.ofBits .f32 0x40000000#32 = ((2 : ℝ) : EReal) := by
  simp [Ideal.ofBits, Ideal.ieee]
  norm_cast
  norm_num
/-- The word `0x42800000` is 64. -/
theorem word_sixtyFour : Ideal.ofBits .f32 0x42800000#32 = ((64 : ℝ) : EReal) := by
  simp [Ideal.ofBits, Ideal.ieee]
  norm_cast
  norm_num
/-- The word `0xFF800000` is `-∞`. -/
theorem word_negInf : Ideal.ofBits .f32 0xFF800000#32 = (⊥ : EReal) := by
  simp [Ideal.ofBits, Ideal.ieee]
/-- The word `0x7F800000` is `+∞`. -/
theorem word_posInf : Ideal.ofBits .f32 0x7F800000#32 = (⊤ : EReal) := by
  simp [Ideal.ofBits, Ideal.ieee]

/-! ## Finite sums and maxima of real numbers, inside the extended reals -/

/-- A finite sum of real numbers, computed in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, compared in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many real numbers over a nonempty range, folded from `-∞`, is a real number. -/
theorem fold_max_real {ι : Type} (s : Finset ι) (f : ι → ℝ) (hs : s.Nonempty) :
    ∃ μ : ℝ, s.fold max (⊥ : EReal) (fun i => ((f i : ℝ) : EReal)) = (μ : EReal) := by
  classical
  have key : ∀ s : Finset ι, (s.fold max (⊥ : EReal) (fun i => ((f i : ℝ) : EReal)) = ⊥ ∧ s = ∅)
      ∨ ∃ μ : ℝ, s.fold max (⊥ : EReal) (fun i => ((f i : ℝ) : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h]; exact max_eq_left bot_le⟩
      · exact ⟨max (f a) μ, by rw [h, max_coe]⟩
  rcases key s with ⟨-, h⟩ | h
  · exact absurd h hs.ne_empty
  · exact h

/-! ## A finite entry is a real number -/

/-- An extended real with absolute value below `+∞` is a real number. -/
theorem real_of_abs_lt_top (a : EReal) (h : max a (-a) < ⊤) : ∃ r : ℝ, a = (r : EReal) := by
  by_cases ht : a = ⊤
  · subst ht; simp at h
  by_cases hb : a = ⊥
  · subst hb; simp at h
  exact ⟨a.toReal, (EReal.coe_toReal ht hb).symm⟩

/-- The entrywise test `|a| < +∞` of a finiteness precondition, passed: the entry is a real number. -/
theorem real_of_test (a : EReal)
    (h : Ideal.cmp .olt (max a (-a)) (Ideal.ofBits .f32 0x7F800000#32) = 1#1) : ∃ r : ℝ, a = (r : EReal) := by
  rw [word_posInf] at h
  refine real_of_abs_lt_top a ?_
  by_contra hn
  simp [Ideal.cmp, hn] at h

/-! ## Shift invariance of the softmax, on the reals -/

/-- Subtracting `μ` from every logit, or `δ + ν` from every logit, gives the same softmax; and multiplying by the
    reciprocal of the total is dividing by it. -/
theorem softmax_shift_real {N : ℕ} (a : Fin N → ℝ) (δ μ ν : ℝ) (j : Fin N) :
    Real.exp (a j - μ) * (1 / ∑ l, Real.exp (a l - μ)) = Real.exp (a j - δ - ν) / ∑ l, Real.exp (a l - δ - ν) := by
  have hS : 0 < ∑ l, Real.exp (a l) := Finset.sum_pos (fun l _ => Real.exp_pos _) ⟨j, Finset.mem_univ _⟩
  have h1 : ∀ t : ℝ, ∑ l, Real.exp (a l - t) = (∑ l, Real.exp (a l)) * Real.exp (-t) := by
    intro t
    rw [Finset.sum_mul]
    refine Finset.sum_congr rfl fun l _ => ?_
    rw [← Real.exp_add, sub_eq_add_neg]
  have h2 : ∀ l, a l - δ - ν = a l - (δ + ν) := fun l => by ring
  simp only [h2, h1]
  rw [sub_eq_add_neg (a j) μ, sub_eq_add_neg (a j) (δ + ν), Real.exp_add, Real.exp_add]
  have e1 : Real.exp (-μ) ≠ 0 := (Real.exp_pos _).ne'
  have e2 : Real.exp (-(δ + ν)) ≠ 0 := (Real.exp_pos _).ne'
  have e3 : (∑ l, Real.exp (a l)) ≠ 0 := hS.ne'
  field_simp

end Cert.LibRealSoftmax

end
-- ==== Proof.LibWords.lean ====
/-
  The single-precision words the two programs use, as extended reals.

  * `0x322BCC77` is the clamp constant of the row norms: the real `11258999 · 2⁻⁵⁰` (about `10⁻⁸`), positive.
  * `0x41200000` is `10`, the reciprocal of the temperature.
  * `0x3F800000` is `1`, `0xFF800000` is `-∞`, `0x00000000` is `0`.
-/
import Idealize.ShloMosaic.PureOps.Ideal
import Idealize.ShloMosaic.PureOps.Ideal.Laws
import proofs.«108332_j71305047049043_2_alg».proof.Proof.Spec
import proofs.«108332_j71305047049043_2_alg».proof.Proof.LibRealSoftmax

noncomputable section

namespace Cert.LibWords

open Idealize.ShloMosaic

/-- The word `0x322BCC77`, evaluated: significand `2²³ + 2870391 = 11258999`, exponent `100 - 127 - 23 = -50`. -/
theorem word_eps_val : Ideal.ofBits .f32 0x322BCC77#32 = ((11258999 * (2 : ℝ) ^ (-50 : ℤ) : ℝ) : EReal) := by
  simp [Ideal.ofBits, Ideal.ieee]

/-- The clamp constant is the real number `11258999 · 2⁻⁵⁰`. -/
theorem epsR_eq : Cert.Spec.epsR = 11258999 * (2 : ℝ) ^ (-50 : ℤ) := by
  unfold Cert.Spec.epsR
  rw [word_eps_val, EReal.toReal_coe]

/-- The word `0x322BCC77` is the clamp constant. -/
theorem word_eps : Ideal.ofBits .f32 0x322BCC77#32 = ((Cert.Spec.epsR : ℝ) : EReal) := by
  rw [epsR_eq, word_eps_val]

/-- The clamp constant is positive. -/
theorem epsR_pos : 0 < Cert.Spec.epsR := by
  rw [epsR_eq]
  positivity

/-- The word `0x41200000` is 10. -/
theorem word_ten : Ideal.ofBits .f32 0x41200000#32 = ((10 : ℝ) : EReal) := by
  simp [Ideal.ofBits, Ideal.ieee]
  norm_cast
  norm_num

/-- The word `0x3F800000` is 1. -/
theorem word_one : Ideal.ofBits .f32 0x3F800000#32 = ((1 : ℝ) : EReal) :=
  Cert.LibRealSoftmax.word_one

/-- The word `0xFF800000` is `-∞`. -/
theorem word_negInf : Ideal.ofBits .f32 0xFF800000#32 = (⊥ : EReal) :=
  Cert.LibRealSoftmax.word_negInf

/-- The word `0x7F800000` is `+∞`. -/
theorem word_posInf : Ideal.ofBits .f32 0x7F800000#32 = (⊤ : EReal) :=
  Cert.LibRealSoftmax.word_posInf

/-- The word `0x00000000` is 0. -/
theorem word_zero : Ideal.ofBits .f32 0x00000000#32 = (0 : EReal) :=
  Ideal.ofBits_zero_f32

end Cert.LibWords

end
-- ==== Proof.KerPayCols.lean ====
/-
  The kernel body's column updates, read at an index, on the extended reals.

  The body keeps three columns of 1024 entries, one per query row of the tile: the running shift, the running sum of
  exponentials and the running sum of the masked partner logits. At a grid point it is handed two 1024 × 1024 tiles
  of logits (the partner tile `P` and the own-batch tile `N`) and a mask tile, and rewrites the three columns. Read at
  row `ρ`, each new entry is a function of the old entries at `ρ` and of row `ρ` of the tiles:
    shift'  = max shift (max (max over j of P ρ j) (max over j of the masked N ρ j)),
    sum'    = (exp (shift - shift') * sum + Σ_j exp (P ρ j - shift')) + Σ_j exp (masked N ρ j - shift'),
    picked' = picked + Σ_j (if mask ρ j then P ρ j else 0),
  where the masked entry is `-∞` (the named constant of the mask fill) where the mask holds. A lane reduction is a
  sum or a fold of `max` from `-∞` over the 1024 lanes; the column forms `[1024] → [1024, 1]` and
  `[1024, 1] → [1024, 1024]` read the one entry of the row.
-/
import Idealize.ShloMosaic.PureOps.IdealRules
import proofs.«108332_j71305047049043_2_alg».proof.Proof.Gen.KernelIdeal.Skeleton
import proofs.«108332_j71305047049043_2_alg».proof.Proof.LibColumn
import proofs.«108332_j71305047049043_2_alg».proof.Proof.LibKeepdims
import proofs.«108332_j71305047049043_2_alg».proof.Proof.LibColumnCast
import proofs.«108332_j71305047049043_2_alg».proof.Proof.LibWords

noncomputable section

namespace Cert.KerPay

open Idealize.ShloMosaic Idealize.ShloMosaic.ValueIdx
open Cert.KernelIdeal Cert.KernelIdeal.Gen
open scoped BigOperators

/-! ## Constants -/

/-- The mask fill is `-∞`. -/
theorem neg_big :
    Named.named (F := Ideal) Cert.KernelIdeal.κ "neg_big" (φ := .f32) 0xFF333332#32 = (⊥ : EReal) :=
  IdealRules.named_const.ideal_named_scalar _ _ _ _ rfl

/-! ## Lane reductions with the kept axis, at row `ρ` -/

/-- A lane sum put back as a column, at row `ρ`: the sum over the lanes of the row. -/
theorem col_sum_apply {b : ℕ} (A : FVec Ideal ⟨2, ![1024, b]⟩ .f32)
    (hr : (⟨2, ![1024, b]⟩ : Shape).Reduces [1] S1024) (hφ : FKind.Formats .f32)
    (hacc : (0x00000000#32 : BitVec FTy.f32.bits) = FKind.add.neutral .f32 hφ) (hc : S1024.ShapeCasts S1024x1)
    (ρ : Fin 1024) (u : Fin 1) :
    shapeCast S1024x1 (multiReduction .add [1] S1024 A 0x00000000#32 hr hφ hacc) hc (ix2 ρ u)
      = ∑ j : Fin b, A (ix2 ρ j) :=
  (Cert.LibColumn.shapeCast_a_a1_apply _ hc ρ u).trans (Cert.LibKeepdims.sum_last2_apply A _ hr hφ hacc ρ)

/-- A lane maximum put back as a column, at row `ρ`: the fold of `max` from `-∞` over the lanes of the row. -/
theorem col_max_apply {b : ℕ} (A : FVec Ideal ⟨2, ![1024, b]⟩ .f32)
    (hr : (⟨2, ![1024, b]⟩ : Shape).Reduces [1] S1024) (hφ : FKind.Formats .f32)
    (hacc : (0xFF800000#32 : BitVec FTy.f32.bits) = FKind.maximumf.neutral .f32 hφ) (hc : S1024.ShapeCasts S1024x1)
    (ρ : Fin 1024) (u : Fin 1) :
    shapeCast S1024x1 (multiReduction .maximumf [1] S1024 A 0xFF800000#32 hr hφ hacc) hc (ix2 ρ u)
      = (Finset.univ : Finset (Fin b)).fold max ⊥ fun j : Fin b => A (ix2 ρ j) := by
  refine (Cert.LibColumn.shapeCast_a_a1_apply _ hc ρ u).trans ?_
  refine (Cert.LibKeepdims.max_last2_apply A _ hr hφ hacc ρ).trans ?_
  rw [Cert.LibWords.word_negInf]

/-! ## The masked own-batch tile -/

/-- The masked tile at `(ρ, j)`: `-∞` where the mask holds, the logit elsewhere. -/
theorem pay2_apply (v61 : FVec Ideal S1024x1024 .f32) (v72 : IVec S1024x1024 1) (ρ j : Fin 1024) :
    k0_pay2 v61 v72 (ix2 ρ j) = if v72 (ix2 ρ j) = 1#1 then ⊥ else v61 (ix2 ρ j) := by
  unfold k0_pay2
  show Scalar.select (v72 (ix2 ρ j))
    (Named.named (F := Ideal) Cert.KernelIdeal.κ "neg_big" (φ := .f32) 0xFF333332#32) (v61 (ix2 ρ j)) = _
  rw [neg_big]
  rfl

/-! ## The running shift -/

/-- The shift update over any two tiles `P`, `N` and any old column, at row `ρ`. -/
theorem shift_gen (P N : FVec Ideal S1024x1024 .f32) (xm : FVec Ideal S1024x1 .f32)
    (hr : S1024x1024.Reduces [1] S1024) (hφ : FKind.Formats .f32)
    (hacc : (0xFF800000#32 : BitVec FTy.f32.bits) = FKind.maximumf.neutral .f32 hφ) (hc : S1024.ShapeCasts S1024x1)
    (ρ : Fin 1024) :
    maximumf xm (maximumf (shapeCast S1024x1 (multiReduction .maximumf [1] S1024 P 0xFF800000#32 hr hφ hacc) hc)
        (shapeCast S1024x1 (multiReduction .maximumf [1] S1024 N 0xFF800000#32 hr hφ hacc) hc)) (ix2 ρ 0)
      = max (xm (ix2 ρ 0))
          (max ((Finset.univ : Finset (Fin 1024)).fold max ⊥ fun j : Fin 1024 => P (ix2 ρ j))
            ((Finset.univ : Finset (Fin 1024)).fold max ⊥ fun j : Fin 1024 => N (ix2 ρ j))) :=
  (maximumf_apply _ _ _).trans (congrArg (max (xm (ix2 ρ 0)))
    ((maximumf_apply _ _ _).trans
      (congrArg₂ max (col_max_apply P hr hφ hacc hc ρ 0) (col_max_apply N hr hφ hacc hc ρ 0))))

/-- The new shift at row `ρ`, with the masked tile still named. -/
theorem pay3_apply_aux (v57 v61 : FVec Ideal S1024x1024 .f32) (v72 : IVec S1024x1024 1)
    (xm : FVec Ideal S1024x1 .f32) (ρ : Fin 1024) :
    k0_pay3 v57 v61 v72 xm (ix2 ρ 0)
      = max (xm (ix2 ρ 0))
          (max ((Finset.univ : Finset (Fin 1024)).fold max ⊥ fun j : Fin 1024 => v57 (ix2 ρ j))
            ((Finset.univ : Finset (Fin 1024)).fold max ⊥ fun j : Fin 1024 => k0_pay2 v61 v72 (ix2 ρ j))) := by
  unfold k0_pay3
  exact shift_gen v57 (k0_pay2 v61 v72) xm _ _ _ _ ρ

/-- The new shift at row `ρ`. -/
theorem pay3_apply (v57 v61 : FVec Ideal S1024x1024 .f32) (v72 : IVec S1024x1024 1)
    (xm : FVec Ideal S1024x1 .f32) (ρ : Fin 1024) :
    k0_pay3 v57 v61 v72 xm (ix2 ρ 0)
      = max (xm (ix2 ρ 0))
          (max ((Finset.univ : Finset (Fin 1024)).fold max ⊥ fun j : Fin 1024 => v57 (ix2 ρ j))
            ((Finset.univ : Finset (Fin 1024)).fold max ⊥
              fun j : Fin 1024 => if v72 (ix2 ρ j) = 1#1 then ⊥ else v61 (ix2 ρ j))) := by
  rw [pay3_apply_aux]
  have h : (fun j : Fin 1024 => k0_pay2 v61 v72 (ix2 ρ j))
      = fun j : Fin 1024 => if v72 (ix2 ρ j) = 1#1 then (⊥ : EReal) else v61 (ix2 ρ j) :=
    funext fun j => pay2_apply v61 v72 ρ j
  rw [h]

/-- What is stored back as the shift column, at row `ρ`. -/
theorem pay5_apply (v57 v61 : FVec Ideal S1024x1024 .f32) (v72 : IVec S1024x1024 1)
    (xm : FVec Ideal S1024x1 .f32) (ρ : Fin 1024) :
    k0_pay5 v57 v61 v72 xm (ix2 ρ 0)
      = max (xm (ix2 ρ 0))
          (max ((Finset.univ : Finset (Fin 1024)).fold max ⊥ fun j : Fin 1024 => v57 (ix2 ρ j))
            ((Finset.univ : Finset (Fin 1024)).fold max ⊥
              fun j : Fin 1024 => if v72 (ix2 ρ j) = 1#1 then ⊥ else v61 (ix2 ρ j))) := by
  unfold k0_pay5
  exact (congrFun (shapeCast_self _ _) _).trans (pay3_apply v57 v61 v72 xm ρ)

/-- The shift column is stored as the new shift. -/
theorem pay5_eq_pay3 (v57 v61 : FVec Ideal S1024x1024 .f32) (v72 : IVec S1024x1024 1)
    (xm : FVec Ideal S1024x1 .f32) : k0_pay5 v57 v61 v72 xm = k0_pay3 v57 v61 v72 xm := by
  unfold k0_pay5
  exact shapeCast_self _ _

/-! ## The running sum of exponentials -/

/-- The lane sum of `exp (A - c)`, `c` a column spread over the lanes, at row `ρ`. -/
theorem col_sum_exp_sub (A : FVec Ideal S1024x1024 .f32) (c : FVec Ideal S1024x1 .f32)
    (hb : S1024x1.Broadcasts S1024x1024) (hr : S1024x1024.Reduces [1] S1024) (hφ : FKind.Formats .f32)
    (hacc : (0x00000000#32 : BitVec FTy.f32.bits) = FKind.add.neutral .f32 hφ) (hc : S1024.ShapeCasts S1024x1)
    (ρ : Fin 1024) :
    shapeCast S1024x1 (multiReduction .add [1] S1024 (exp (subf A (broadcastTo S1024x1024 c hb)))
        0x00000000#32 hr hφ hacc) hc (ix2 ρ 0)
      = ∑ j : Fin 1024, Ideal.exp (A (ix2 ρ j) - c (ix2 ρ 0)) := by
  refine (col_sum_apply _ hr hφ hacc hc ρ 0).trans (Finset.sum_congr rfl fun j _ => ?_)
  show Ideal.exp (A (ix2 ρ j) - broadcastTo S1024x1024 c hb (ix2 ρ j)) = _
  rw [Cert.LibColumn.broadcastTo_a1_ab_apply c hb ρ j]

/-- The old sum rescaled, at an index. -/
theorem rescale_apply (xm' M xl : FVec Ideal S1024x1 .f32) (i : S1024x1.Idx) :
    mulf (exp (subf xm' M)) xl i = Ideal.exp (xm' i - M i) * xl i := rfl

/-- The sum update over any two tiles `P`, `N`, any new shift column `M` and any old columns, at row `ρ`. -/
theorem sumexp_gen (P N : FVec Ideal S1024x1024 .f32) (M xm' xl : FVec Ideal S1024x1 .f32)
    (hb : S1024x1.Broadcasts S1024x1024) (hr : S1024x1024.Reduces [1] S1024) (hφ : FKind.Formats .f32)
    (hacc : (0x00000000#32 : BitVec FTy.f32.bits) = FKind.add.neutral .f32 hφ) (hc : S1024.ShapeCasts S1024x1)
    (hcs : S1024x1.ShapeCasts S1024x1) (ρ : Fin 1024) :
    shapeCast S1024x1
        (addf (addf (mulf (exp (subf xm' M)) xl)
            (shapeCast S1024x1 (multiReduction .add [1] S1024 (exp (subf P (broadcastTo S1024x1024 M hb)))
              0x00000000#32 hr hφ hacc) hc))
          (shapeCast S1024x1 (multiReduction .add [1] S1024 (exp (subf N (broadcastTo S1024x1024 M hb)))
            0x00000000#32 hr hφ hacc) hc)) hcs (ix2 ρ 0)
      = (Ideal.exp (xm' (ix2 ρ 0) - M (ix2 ρ 0)) * xl (ix2 ρ 0)
          + ∑ j : Fin 1024, Ideal.exp (P (ix2 ρ j) - M (ix2 ρ 0)))
        + ∑ j : Fin 1024, Ideal.exp (N (ix2 ρ j) - M (ix2 ρ 0)) :=
  (congrFun (shapeCast_self _ hcs) _).trans ((addf_apply _ _ _).trans
    (congrArg₂ (· + ·)
      ((addf_apply _ _ _).trans
        (congrArg₂ (· + ·) (rescale_apply xm' M xl _) (col_sum_exp_sub P M hb hr hφ hacc hc ρ)))
      (col_sum_exp_sub N M hb hr hφ hacc hc ρ)))

/-- The new sum of exponentials at row `ρ`: the old one rescaled, plus the two tiles' lane sums against the new
    shift `M`. -/
theorem pay4_apply (v57 v61 : FVec Ideal S1024x1024 .f32) (v72 : IVec S1024x1024 1)
    (xm xm' xl : FVec Ideal S1024x1 .f32) (ρ : Fin 1024) :
    k0_pay4 v57 v61 v72 xm xm' xl (ix2 ρ 0)
      = (Ideal.exp (xm' (ix2 ρ 0) - k0_pay3 v57 v61 v72 xm (ix2 ρ 0)) * xl (ix2 ρ 0)
          + ∑ j : Fin 1024, Ideal.exp (v57 (ix2 ρ j) - k0_pay3 v57 v61 v72 xm (ix2 ρ 0)))
        + ∑ j : Fin 1024, Ideal.exp ((if v72 (ix2 ρ j) = 1#1 then ⊥ else v61 (ix2 ρ j))
            - k0_pay3 v57 v61 v72 xm (ix2 ρ 0)) := by
  unfold k0_pay4
  refine (sumexp_gen v57 (k0_pay2 v61 v72) (k0_pay3 v57 v61 v72 xm) xm' xl _ _ _ _ _ _ ρ).trans ?_
  refine congrArg₂ (· + ·) rfl (Finset.sum_congr rfl fun j _ => ?_)
  rw [pay2_apply]

/-! ## The running sum of the masked partner logits -/

/-- The new picked sum at row `ρ`, over any partner tile `P` and mask tile `mk`. -/
theorem picked_apply (P : FVec Ideal S1024x1024 .f32) (mk : IVec S1024x1024 1) (xd : FVec Ideal S1024x1 .f32)
    (hr : S1024x1024.Reduces [1] S1024) (hφ : FKind.Formats .f32)
    (hacc : (0x00000000#32 : BitVec FTy.f32.bits) = FKind.add.neutral .f32 hφ) (hc : S1024.ShapeCasts S1024x1)
    (ρ : Fin 1024) :
    addf xd (shapeCast S1024x1 (multiReduction .add [1] S1024
        (select mk P (broadcast S1024x1024 (Scalar.ofBits (F := Ideal) .f32 0x00000000#32)))
        0x00000000#32 hr hφ hacc) hc) (ix2 ρ 0)
      = xd (ix2 ρ 0) + ∑ j : Fin 1024, (if mk (ix2 ρ j) = 1#1 then P (ix2 ρ j) else 0) := by
  refine (addf_apply _ _ _).trans (congrArg (xd (ix2 ρ 0) + ·) ?_)
  refine (col_sum_apply _ hr hφ hacc hc ρ 0).trans (Finset.sum_congr rfl fun j _ => ?_)
  show Scalar.select (mk (ix2 ρ j)) (P (ix2 ρ j)) (Ideal.ofBits .f32 0x00000000#32) = _
  rw [Ideal.ofBits_zero_f32]
  rfl

/-- What is stored back as the picked column, at row `ρ`. -/
theorem pay1_pay19_apply (arg0 arg1 arg2 : BitVec 32) (v10 v21 v32 v33 : FVec Ideal S1024x256 .f32)
    (v37 : FVec Ideal S1024x1 .f32) (cst : Ideal .f32) (xd : FVec Ideal S1024x1 .f32) (ρ : Fin 1024) :
    k0_pay1 (k0_pay19 arg0 arg1 arg2 v10 v21 v32 v33 v37 cst xd) (ix2 ρ 0)
      = xd (ix2 ρ 0) + ∑ j : Fin 1024,
          (if k0_pay18 arg1 arg2 (ix2 ρ j) = 1#1 then k0_pay16 arg0 v10 v21 v32 v33 v37 cst (ix2 ρ j) else 0) := by
  unfold k0_pay1 k0_pay19
  refine (congrFun (shapeCast_self _ _) _).trans ?_
  exact picked_apply (k0_pay16 arg0 v10 v21 v32 v33 v37 cst) (k0_pay18 arg1 arg2) xd _ _ _ _ ρ

/-! ## The resets and the result -/

/-- The shift column is reset to `-∞`. -/
theorem pay12_apply (i : S1024x1.Idx) : k0_pay12 (F := Ideal) i = (⊥ : EReal) := by
  unfold k0_pay12
  refine (congrFun (shapeCast_self _ _) _).trans ?_
  exact Cert.LibWords.word_negInf

/-- The sum column is reset to `0`. -/
theorem pay13_apply (i : S1024x1.Idx) : k0_pay13 (F := Ideal) i = (0 : EReal) := by
  unfold k0_pay13
  refine (congrFun (shapeCast_self _ _) _).trans ?_
  exact Ideal.ofBits_zero_f32

/-- The picked column is reset to `0`. -/
theorem pay14_apply (i : S1024x1.Idx) : k0_pay14 (F := Ideal) i = (0 : EReal) := by
  unfold k0_pay14
  refine (congrFun (shapeCast_self _ _) _).trans ?_
  exact Ideal.ofBits_zero_f32

/-- The result column at an index. -/
theorem result_apply (xm xl xd : FVec Ideal S1024x1 .f32) (i : S1024x1.Idx) :
    subf (addf xm (log xl)) xd i = (xm i + Ideal.log (xl i)) - xd i := rfl

/-- The result at row `ρ`: the shift plus the logarithm of the sum, minus the picked sum. -/
theorem pay6_apply (xm xl xd : FVec Ideal S1024x1 .f32) (ρ : Fin 1024) :
    k0_pay6 xm xl xd (ix1 ρ) = (xm (ix2 ρ 0) + Ideal.log (xl (ix2 ρ 0))) - xd (ix2 ρ 0) := by
  unfold k0_pay6
  exact (Cert.LibColumnCast.shapeCast_a1_a_apply _ _ ρ).trans (result_apply xm xl xd _)

end Cert.KerPay

end
-- ==== Proof.LibMaskedOnline.lean ====
/-
  A running log-sum-exp over tiles, with two streams per tile and masked entries, on the extended reals.

  A row's logits come tile by tile. Each tile brings two families of real logits, `pos` and `neg`, and a mask
  `hit`: a masked entry of the second family counts as `-∞` (its exponential is `0`). A running shift `m`, a
  running sum `l` of exponentials taken against the shift, and a running sum `d` of the first family's masked
  entries are updated at every tile; at the end `(m + log l) - d` is returned.

  Over the reals `μ + log Σ exp (x - μ)` is `log Σ exp x` for every real `μ`. So the running shift never has to be
  known to be the maximum: it is enough that after the first tile it is SOME real number `μ`, and that the running
  sum is `exp (-μ)` times the plain sum of exponentials seen so far. Before the first tile the shift is `-∞` and
  the sum `0`; the first rescaling factor is `exp (-∞) = 0`, and `0 * 0 = 0`.

  Everything is stated with the extended-real operations of the ideal float values: `max`, `-`, `*`, `+`,
  `Ideal.exp`, `Ideal.log`, a tile's maximum as `Finset.fold max ⊥`, sums as `∑`.
-/
import Idealize.ShloMosaic.PureOps.Ideal
import Idealize.ShloMosaic.PureOps.Ideal.Laws
import Mathlib.Analysis.SpecialFunctions.Log.Basic
import Mathlib.Algebra.BigOperators.Fin
import Mathlib.Data.Finset.Fold

noncomputable section

open Idealize.ShloMosaic
open scoped BigOperators

namespace Cert.LibMaskedOnline

/-! ## Finite sums of reals inside the extended reals -/

/-- A finite sum of real numbers, computed in the extended reals, is the real sum. -/
theorem sum_coe {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-! ## One tile -/

section Step

variable {κ : Type*} [Fintype κ]

/-- The second family with its masked entries at `-∞`. -/
def negm (neg : κ → ℝ) (hit : κ → Bool) (j : κ) : EReal :=
  if hit j then ⊥ else (neg j : EReal)

/-- The running sum of the first family's masked entries after a tile. -/
def stepD (d : EReal) (pos : κ → ℝ) (hit : κ → Bool) : EReal :=
  d + ∑ j, (if hit j then (pos j : EReal) else 0)

/-- The running shift after a tile: the old one against the maxima of the tile's two families (each a fold of
    `max` from `-∞`). -/
def stepM (m : EReal) (pos neg : κ → ℝ) (hit : κ → Bool) : EReal :=
  max m (max ((Finset.univ : Finset κ).fold max ⊥ fun j => (pos j : EReal))
    ((Finset.univ : Finset κ).fold max ⊥ (negm neg hit)))

/-- The running sum of exponentials after a tile: the old one rescaled by `exp (m - m')`, plus the two families'
    sums of `exp (x - m')`, `m'` the new shift. -/
def stepL (m l : EReal) (pos neg : κ → ℝ) (hit : κ → Bool) : EReal :=
  (Ideal.exp (m - stepM m pos neg hit) * l + ∑ j, Ideal.exp ((pos j : EReal) - stepM m pos neg hit))
    + ∑ j, Ideal.exp (negm neg hit j - stepM m pos neg hit)

/-- `negm`, spelt out. -/
theorem negm_def (neg : κ → ℝ) (hit : κ → Bool) (j : κ) :
    negm neg hit j = if hit j then ⊥ else (neg j : EReal) := rfl

/-- `stepD`, spelt out. -/
theorem stepD_def (d : EReal) (pos : κ → ℝ) (hit : κ → Bool) :
    stepD d pos hit = d + ∑ j, (if hit j then (pos j : EReal) else 0) := rfl

/-- `stepM`, spelt out. -/
theorem stepM_def (m : EReal) (pos neg : κ → ℝ) (hit : κ → Bool) :
    stepM m pos neg hit
      = max m (max ((Finset.univ : Finset κ).fold max ⊥ fun j => (pos j : EReal))
          ((Finset.univ : Finset κ).fold max ⊥ (negm neg hit))) := rfl

/-- `stepL`, spelt out in the new shift `stepM m pos neg hit`. -/
theorem stepL_def (m l : EReal) (pos neg : κ → ℝ) (hit : κ → Bool) :
    stepL m l pos neg hit
      = (Ideal.exp (m - stepM m pos neg hit) * l + ∑ j, Ideal.exp ((pos j : EReal) - stepM m pos neg hit))
          + ∑ j, Ideal.exp (negm neg hit j - stepM m pos neg hit) := rfl

/-- What a state `(m, l)` knows of the plain sum `S` of exponentials seen so far: before any tile nothing
    (`m = -∞`, `l = 0`, `S = 0`); afterwards the shift is a real `μ` and `l = exp (-μ) * S`. -/
def Rep (m l : EReal) (S : ℝ) : Prop :=
  (m = ⊥ ∧ l = 0 ∧ S = 0) ∨ ∃ μ : ℝ, m = (μ : EReal) ∧ l = ((Real.exp (-μ) * S : ℝ) : EReal)

/-- Rescaling to a new real shift `μ'`: the factor `exp (m - μ')` turns `l` into `exp (-μ') * S`. Before any tile
    the factor is `exp (-∞) = 0` and `l = 0`. -/
theorem Rep.rescale {m l : EReal} {S : ℝ} (h : Rep m l S) (μ' : ℝ) :
    Ideal.exp (m - (μ' : EReal)) * l = ((Real.exp (-μ') * S : ℝ) : EReal) := by
  rcases h with ⟨rfl, rfl, rfl⟩ | ⟨μ, rfl, rfl⟩
  · rw [mul_zero, mul_zero, EReal.coe_zero]
  · have e : Real.exp (μ - μ') * (Real.exp (-μ) * S) = Real.exp (-μ') * S := by
      rw [← mul_assoc, ← Real.exp_add]
      congr 2
      ring
    rw [← EReal.coe_sub, Ideal.exp_coe, ← EReal.coe_mul, e]

/-- A state's shift is never `+∞`. -/
theorem Rep.lt_top {m l : EReal} {S : ℝ} (h : Rep m l S) : m < ⊤ := by
  rcases h with ⟨rfl, -, -⟩ | ⟨μ, rfl, -⟩
  · exact bot_lt_top
  · exact EReal.coe_lt_top μ

/-- The first family's sum of exponentials against a real shift. -/
theorem sum_exp_pos_coe (pos : κ → ℝ) (μ' : ℝ) :
    ∑ j, Ideal.exp ((pos j : EReal) - (μ' : EReal))
      = ((Real.exp (-μ') * ∑ j, Real.exp (pos j) : ℝ) : EReal) := by
  rw [Finset.mul_sum, ← sum_coe]
  refine Finset.sum_congr rfl fun j _ => ?_
  rw [← EReal.coe_sub, Ideal.exp_coe, sub_eq_add_neg, Real.exp_add, mul_comm]

/-- The second family's sum of exponentials against a real shift: a masked entry is `-∞`, whose exponential
    is `0`. -/
theorem sum_exp_negm_coe (neg : κ → ℝ) (hit : κ → Bool) (μ' : ℝ) :
    ∑ j, Ideal.exp (negm neg hit j - (μ' : EReal))
      = ((Real.exp (-μ') * ∑ j, (if hit j then 0 else Real.exp (neg j)) : ℝ) : EReal) := by
  rw [Finset.mul_sum, ← sum_coe]
  refine Finset.sum_congr rfl fun j _ => ?_
  unfold negm
  by_cases h : hit j = true
  · rw [if_pos h, if_pos h, EReal.bot_sub, Ideal.exp_bot, mul_zero, EReal.coe_zero]
  · rw [if_neg h, if_neg h, ← EReal.coe_sub, Ideal.exp_coe, sub_eq_add_neg, Real.exp_add, mul_comm]

/-- The masked entries of the first family, summed. -/
theorem sum_hit_coe (pos : κ → ℝ) (hit : κ → Bool) :
    ∑ j, (if hit j then (pos j : EReal) else 0) = ((∑ j, (if hit j then pos j else 0) : ℝ) : EReal) := by
  rw [← sum_coe]
  refine Finset.sum_congr rfl fun j _ => ?_
  by_cases h : hit j = true
  · rw [if_pos h, if_pos h]
  · rw [if_neg h, if_neg h, EReal.coe_zero]

variable [Nonempty κ]

/-- After a tile the shift is a real number: it is at least one real logit of the first family, and nothing in
    sight is `+∞`. -/
theorem stepM_real (m : EReal) (hm : m < ⊤) (pos neg : κ → ℝ) (hit : κ → Bool) :
    ∃ μ' : ℝ, stepM m pos neg hit = (μ' : EReal) := by
  have h1 : stepM m pos neg hit ≠ ⊤ := by
    refine ne_of_lt (max_lt hm (max_lt ?_ ?_))
    · exact (Finset.fold_max_lt _).2 ⟨bot_lt_top, fun j _ => EReal.coe_lt_top _⟩
    · refine (Finset.fold_max_lt _).2 ⟨bot_lt_top, fun j _ => ?_⟩
      unfold negm
      by_cases h : hit j = true
      · rw [if_pos h]; exact bot_lt_top
      · rw [if_neg h]; exact EReal.coe_lt_top _
  have h2 : stepM m pos neg hit ≠ ⊥ := by
    obtain ⟨j⟩ := ‹Nonempty κ›
    refine ne_of_gt (lt_of_lt_of_le (EReal.bot_lt_coe (pos j)) ?_)
    exact le_max_of_le_right (le_max_of_le_left
      ((Finset.le_fold_max _).2 (Or.inr ⟨j, Finset.mem_univ _, le_rfl⟩)))
  exact ⟨_, (EReal.coe_toReal h1 h2).symm⟩

/-- One tile: the new state knows the old sum plus the tile's two sums of exponentials. -/
theorem step_rep {m l : EReal} {S : ℝ} (h : Rep m l S) (pos neg : κ → ℝ) (hit : κ → Bool) :
    Rep (stepM m pos neg hit) (stepL m l pos neg hit)
      (S + ((∑ j, Real.exp (pos j)) + ∑ j, (if hit j then 0 else Real.exp (neg j)))) := by
  obtain ⟨μ', hμ'⟩ := stepM_real m h.lt_top pos neg hit
  refine Or.inr ⟨μ', hμ', ?_⟩
  rw [stepL, hμ', h.rescale, sum_exp_pos_coe, sum_exp_negm_coe, ← EReal.coe_add, ← EReal.coe_add]
  congr 1
  ring

end Step

/-! ## The walk over the tiles -/

section Run

variable {κ : Type*} [Fintype κ]

/-- The running shift after the first `n` tiles (`-∞` before any). -/
def runM : (n : ℕ) → (Fin n → κ → ℝ) → (Fin n → κ → ℝ) → (Fin n → κ → Bool) → EReal
  | 0, _, _, _ => ⊥
  | n + 1, pos, neg, hit =>
    stepM (runM n (fun k => pos k.castSucc) (fun k => neg k.castSucc) fun k => hit k.castSucc)
      (pos (Fin.last n)) (neg (Fin.last n)) (hit (Fin.last n))

/-- The running sum of exponentials after the first `n` tiles (`0` before any). -/
def runL : (n : ℕ) → (Fin n → κ → ℝ) → (Fin n → κ → ℝ) → (Fin n → κ → Bool) → EReal
  | 0, _, _, _ => 0
  | n + 1, pos, neg, hit =>
    stepL (runM n (fun k => pos k.castSucc) (fun k => neg k.castSucc) fun k => hit k.castSucc)
      (runL n (fun k => pos k.castSucc) (fun k => neg k.castSucc) fun k => hit k.castSucc)
      (pos (Fin.last n)) (neg (Fin.last n)) (hit (Fin.last n))

/-- The running sum of the first family's masked entries after the first `n` tiles (`0` before any). -/
def runD : (n : ℕ) → (Fin n → κ → ℝ) → (Fin n → κ → Bool) → EReal
  | 0, _, _ => 0
  | n + 1, pos, hit =>
    stepD (runD n (fun k => pos k.castSucc) fun k => hit k.castSucc) (pos (Fin.last n)) (hit (Fin.last n))

/-- What the walk returns. -/
def runOut (n : ℕ) (pos neg : Fin n → κ → ℝ) (hit : Fin n → κ → Bool) : EReal :=
  (runM n pos neg hit + Ideal.log (runL n pos neg hit)) - runD n pos hit

theorem runM_zero (pos neg : Fin 0 → κ → ℝ) (hit : Fin 0 → κ → Bool) : runM 0 pos neg hit = ⊥ := rfl
theorem runL_zero (pos neg : Fin 0 → κ → ℝ) (hit : Fin 0 → κ → Bool) : runL 0 pos neg hit = 0 := rfl
theorem runD_zero (pos : Fin 0 → κ → ℝ) (hit : Fin 0 → κ → Bool) : runD 0 pos hit = 0 := rfl

/-- One more tile: the shift. -/
theorem runM_succ (n : ℕ) (pos neg : Fin (n + 1) → κ → ℝ) (hit : Fin (n + 1) → κ → Bool) :
    runM (n + 1) pos neg hit
      = stepM (runM n (fun k => pos k.castSucc) (fun k => neg k.castSucc) fun k => hit k.castSucc)
          (pos (Fin.last n)) (neg (Fin.last n)) (hit (Fin.last n)) := rfl

/-- One more tile: the sum of exponentials. -/
theorem runL_succ (n : ℕ) (pos neg : Fin (n + 1) → κ → ℝ) (hit : Fin (n + 1) → κ → Bool) :
    runL (n + 1) pos neg hit
      = stepL (runM n (fun k => pos k.castSucc) (fun k => neg k.castSucc) fun k => hit k.castSucc)
          (runL n (fun k => pos k.castSucc) (fun k => neg k.castSucc) fun k => hit k.castSucc)
          (pos (Fin.last n)) (neg (Fin.last n)) (hit (Fin.last n)) := rfl

/-- One more tile: the masked entries. -/
theorem runD_succ (n : ℕ) (pos : Fin (n + 1) → κ → ℝ) (hit : Fin (n + 1) → κ → Bool) :
    runD (n + 1) pos hit
      = stepD (runD n (fun k => pos k.castSucc) fun k => hit k.castSucc) (pos (Fin.last n))
          (hit (Fin.last n)) := rfl

/-- The masked entries seen so far, as a real sum. -/
theorem runD_coe (n : ℕ) (pos : Fin n → κ → ℝ) (hit : Fin n → κ → Bool) :
    runD n pos hit = ((∑ k, ∑ j, (if hit k j then pos k j else 0) : ℝ) : EReal) := by
  induction n with
  | zero => rw [runD_zero, Finset.univ_eq_empty, Finset.sum_empty, EReal.coe_zero]
  | succ n ih =>
    rw [runD_succ, ih, stepD, sum_hit_coe, ← EReal.coe_add, Fin.sum_univ_castSucc]

variable [Nonempty κ]

/-- After `n` tiles the state knows the plain sum of exponentials of every logit seen: both families, the
    second without its masked entries. -/
theorem run_rep (n : ℕ) (pos neg : Fin n → κ → ℝ) (hit : Fin n → κ → Bool) :
    Rep (runM n pos neg hit) (runL n pos neg hit)
      (∑ k, ((∑ j, Real.exp (pos k j)) + ∑ j, (if hit k j then 0 else Real.exp (neg k j)))) := by
  induction n with
  | zero => exact Or.inl ⟨rfl, rfl, by rw [Finset.univ_eq_empty, Finset.sum_empty]⟩
  | succ n ih =>
    rw [runM_succ, runL_succ, Fin.sum_univ_castSucc]
    exact step_rep (ih _ _ _) _ _ _

/-- THE LAW. After at least one tile the walk returns the logarithm of the plain sum of exponentials of all
    logits (the second family without its masked entries) minus the sum of the first family's masked entries. -/
theorem runOut_eq {n : ℕ} (hn : 0 < n) (pos neg : Fin n → κ → ℝ) (hit : Fin n → κ → Bool) :
    (runM n pos neg hit + Ideal.log (runL n pos neg hit)) - runD n pos hit
      = ((Real.log ((∑ k, ∑ j, Real.exp (pos k j)) + ∑ k, ∑ j, (if hit k j then 0 else Real.exp (neg k j)))
          - ∑ k, ∑ j, (if hit k j then pos k j else 0) : ℝ) : EReal) := by
  have hS : 0 < (∑ k, ∑ j, Real.exp (pos k j)) + ∑ k, ∑ j, (if hit k j then 0 else Real.exp (neg k j)) := by
    have h1 : 0 < ∑ k, ∑ j, Real.exp (pos k j) :=
      Finset.sum_pos (fun k _ => Finset.sum_pos (fun j _ => Real.exp_pos _) Finset.univ_nonempty)
        ⟨⟨0, hn⟩, Finset.mem_univ _⟩
    have h2 : 0 ≤ ∑ k, ∑ j, (if hit k j then 0 else Real.exp (neg k j)) :=
      Finset.sum_nonneg fun k _ => Finset.sum_nonneg fun j _ => by
        by_cases h : hit k j = true
        · rw [if_pos h]
        · rw [if_neg h]; exact (Real.exp_pos _).le
    linarith
  have hrep := run_rep n pos neg hit
  rw [Finset.sum_add_distrib] at hrep
  rcases hrep with ⟨-, -, h0⟩ | ⟨μ, hM, hL⟩
  · exact absurd h0 hS.ne'
  · rw [hM, hL, runD_coe, Ideal.log_coe, if_neg (not_le.2 (mul_pos (Real.exp_pos _) hS)),
      Real.log_mul (Real.exp_pos _).ne' hS.ne', Real.log_exp, ← EReal.coe_add, ← EReal.coe_sub]
    congr 1
    ring

/-- The same, for `runOut`. -/
theorem runOut_coe {n : ℕ} (hn : 0 < n) (pos neg : Fin n → κ → ℝ) (hit : Fin n → κ → Bool) :
    runOut n pos neg hit
      = ((Real.log ((∑ k, ∑ j, Real.exp (pos k j)) + ∑ k, ∑ j, (if hit k j then 0 else Real.exp (neg k j)))
          - ∑ k, ∑ j, (if hit k j then pos k j else 0) : ℝ) : EReal) :=
  runOut_eq hn pos neg hit

/-! ## Four tiles, spelt out -/

/-- The shift after four tiles, tile `0` first. -/
theorem runM_four (pos neg : Fin 4 → κ → ℝ) (hit : Fin 4 → κ → Bool) :
    runM 4 pos neg hit
      = stepM (stepM (stepM (stepM ⊥ (pos 0) (neg 0) (hit 0)) (pos 1) (neg 1) (hit 1)) (pos 2) (neg 2) (hit 2))
          (pos 3) (neg 3) (hit 3) := rfl

/-- The sum of exponentials after four tiles, tile `0` first. -/
theorem runL_four (pos neg : Fin 4 → κ → ℝ) (hit : Fin 4 → κ → Bool) :
    runL 4 pos neg hit
      = stepL (stepM (stepM (stepM ⊥ (pos 0) (neg 0) (hit 0)) (pos 1) (neg 1) (hit 1)) (pos 2) (neg 2) (hit 2))
          (stepL (stepM (stepM ⊥ (pos 0) (neg 0) (hit 0)) (pos 1) (neg 1) (hit 1))
            (stepL (stepM ⊥ (pos 0) (neg 0) (hit 0)) (stepL ⊥ 0 (pos 0) (neg 0) (hit 0))
              (pos 1) (neg 1) (hit 1))
            (pos 2) (neg 2) (hit 2))
          (pos 3) (neg 3) (hit 3) := rfl

/-- The masked entries after four tiles, tile `0` first. -/
theorem runD_four (pos : Fin 4 → κ → ℝ) (hit : Fin 4 → κ → Bool) :
    runD 4 pos hit
      = stepD (stepD (stepD (stepD 0 (pos 0) (hit 0)) (pos 1) (hit 1)) (pos 2) (hit 2)) (pos 3) (hit 3) := rfl

end Run

end Cert.LibMaskedOnline

end
-- ==== Proof.KernelIdealEntryCols.lean ====
/-
  One column tile's step on the three carried columns, from what the tiles hold.

  At row r of a tile the partner logits are real numbers pos j, the own-batch logits real numbers neg j, and the mask holds
  at the lanes where hit j is true. Then the new shift, the new sum of exponentials and the new sum of masked partner logits
  at row r are the masked running log-sum-exp's three step functions of the old entries at row r.
-/
import proofs.«108332_j71305047049043_2_alg».proof.Proof.KernelIdealCols
import proofs.«108332_j71305047049043_2_alg».proof.Proof.KerPayCols
import proofs.«108332_j71305047049043_2_alg».proof.Proof.LibMaskedOnline

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx
open scoped BigOperators

/-- The own-batch tile with its masked lanes at minus infinity, at row r. -/
theorem masked_row (N : FVec Ideal S1024x1024 .f32) (mk : IVec S1024x1024 1) (r : Fin 1024) (neg : Fin 1024 → ℝ)
    (hit : Fin 1024 → Bool) (hN : ∀ j, N (ix2 r j) = ((neg j : ℝ) : EReal)) (hK : ∀ j, mk (ix2 r j) = 1#1 ↔ hit j = true)
    (j : Fin 1024) :
    (if mk (ix2 r j) = 1#1 then (⊥ : EReal) else N (ix2 r j)) = Cert.LibMaskedOnline.negm neg hit j := by
  rw [Cert.LibMaskedOnline.negm_def, hN j]
  exact if_congr (hK j) rfl rfl

/-- The new shift at row r. -/
theorem colM_of_tiles (P N : FVec Ideal S1024x1024 .f32) (mk : IVec S1024x1024 1) (xm : FVec Ideal S1024x1 .f32)
    (r : Fin 1024) (pos neg : Fin 1024 → ℝ) (hit : Fin 1024 → Bool)
    (hP : ∀ j, P (ix2 r j) = ((pos j : ℝ) : EReal)) (hN : ∀ j, N (ix2 r j) = ((neg j : ℝ) : EReal))
    (hK : ∀ j, mk (ix2 r j) = 1#1 ↔ hit j = true) :
    k0_pay5 P N mk xm (ix2 r 0) = Cert.LibMaskedOnline.stepM (xm (ix2 r 0)) pos neg hit := by
  rw [Cert.KerPay.pay5_apply, Cert.LibMaskedOnline.stepM_def]
  have e1 : (fun j : Fin 1024 => P (ix2 r j)) = fun j => ((pos j : ℝ) : EReal) := funext hP
  have e2 : (fun j : Fin 1024 => if mk (ix2 r j) = 1#1 then (⊥ : EReal) else N (ix2 r j))
      = Cert.LibMaskedOnline.negm neg hit := funext (masked_row N mk r neg hit hN hK)
  rw [e1, e2]

/-- The new sum of exponentials at row r. -/
theorem colL_of_tiles (P N : FVec Ideal S1024x1024 .f32) (mk : IVec S1024x1024 1) (xm xl : FVec Ideal S1024x1 .f32)
    (r : Fin 1024) (pos neg : Fin 1024 → ℝ) (hit : Fin 1024 → Bool)
    (hP : ∀ j, P (ix2 r j) = ((pos j : ℝ) : EReal)) (hN : ∀ j, N (ix2 r j) = ((neg j : ℝ) : EReal))
    (hK : ∀ j, mk (ix2 r j) = 1#1 ↔ hit j = true) :
    k0_pay4 P N mk xm xm xl (ix2 r 0)
      = Cert.LibMaskedOnline.stepL (xm (ix2 r 0)) (xl (ix2 r 0)) pos neg hit := by
  have hM : k0_pay3 P N mk xm (ix2 r 0) = Cert.LibMaskedOnline.stepM (xm (ix2 r 0)) pos neg hit := by
    rw [← Cert.KerPay.pay5_eq_pay3]
    exact colM_of_tiles P N mk xm r pos neg hit hP hN hK
  rw [Cert.KerPay.pay4_apply, hM, Cert.LibMaskedOnline.stepL_def]
  refine congrArg₂ (· + ·) (congrArg₂ (· + ·) rfl (Finset.sum_congr rfl fun j _ => ?_))
    (Finset.sum_congr rfl fun j _ => ?_)
  · rw [hP j]
  · rw [masked_row N mk r neg hit hN hK j]

/-- The new shift at row r, as the body forms it from the four blocks. -/
theorem stepM_of_tiles (i : grid0.Coords) (x0 x1 x2 x3 : Vec Ideal S1024x256 .f32) (xm : Vec Ideal S1024x1 .f32)
    (r : Fin 1024) (pos neg : Fin 1024 → ℝ) (hit : Fin 1024 → Bool)
    (hP : ∀ j, vPos i x0 x1 x2 x3 (ix2 r j) = ((pos j : ℝ) : EReal))
    (hN : ∀ j, vNeg i x0 x1 x2 x3 (ix2 r j) = ((neg j : ℝ) : EReal))
    (hK : ∀ j, vMask i (ix2 r j) = 1#1 ↔ hit j = true) :
    stepM i x0 x1 x2 x3 xm (ix2 r 0) = Cert.LibMaskedOnline.stepM (xm (ix2 r 0)) pos neg hit :=
  colM_of_tiles (vPos i x0 x1 x2 x3) (vNeg i x0 x1 x2 x3) (vMask i) xm r pos neg hit hP hN hK

/-- The new sum of exponentials at row r, as the body forms it from the four blocks. -/
theorem stepL_of_tiles (i : grid0.Coords) (x0 x1 x2 x3 : Vec Ideal S1024x256 .f32) (xm xl : Vec Ideal S1024x1 .f32)
    (r : Fin 1024) (pos neg : Fin 1024 → ℝ) (hit : Fin 1024 → Bool)
    (hP : ∀ j, vPos i x0 x1 x2 x3 (ix2 r j) = ((pos j : ℝ) : EReal))
    (hN : ∀ j, vNeg i x0 x1 x2 x3 (ix2 r j) = ((neg j : ℝ) : EReal))
    (hK : ∀ j, vMask i (ix2 r j) = 1#1 ↔ hit j = true) :
    stepL i x0 x1 x2 x3 xm xl (ix2 r 0)
      = Cert.LibMaskedOnline.stepL (xm (ix2 r 0)) (xl (ix2 r 0)) pos neg hit :=
  colL_of_tiles (vPos i x0 x1 x2 x3) (vNeg i x0 x1 x2 x3) (vMask i) xm xl r pos neg hit hP hN hK

/-- The new sum of masked partner logits at row r, as the body forms it from the four blocks. -/
theorem stepD_of_tiles (i : grid0.Coords) (x0 x1 x2 x3 : Vec Ideal S1024x256 .f32) (xd : Vec Ideal S1024x1 .f32)
    (r : Fin 1024) (pos : Fin 1024 → ℝ) (hit : Fin 1024 → Bool)
    (hP : ∀ j, vPos i x0 x1 x2 x3 (ix2 r j) = ((pos j : ℝ) : EReal))
    (hK : ∀ j, vMask i (ix2 r j) = 1#1 ↔ hit j = true) :
    stepD i x0 x1 x2 x3 xd (ix2 r 0) = Cert.LibMaskedOnline.stepD (xd (ix2 r 0)) pos hit := by
  unfold stepD
  rw [Cert.KerPay.pay1_pay19_apply, Cert.LibMaskedOnline.stepD_def]
  refine congrArg₂ (· + ·) rfl (Finset.sum_congr rfl fun j _ => ?_)
  exact if_congr (hK j) (hP j) rfl

end Cert.KernelIdeal.Fr

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.KerMath.lean ====
/-
  The kernel's row normalisation and similarity, on real rows, as extended reals.

  The kernel scales a row by the reciprocal of its clamped norm, `x * (1 / max (sqrt (Σ x²)) eps)`, takes inner
  products of scaled rows lane by lane, and multiplies by `10`. On real entries every step stays real: a sum of
  squares is nonnegative, so its square root is the real one; the clamp makes the norm positive, so the division is
  the real one.
-/
import proofs.«108332_j71305047049043_2_alg».proof.Proof.Spec
import proofs.«108332_j71305047049043_2_alg».proof.Proof.LibWords

noncomputable section

namespace Cert.KerMath

open Idealize.ShloMosaic Idealize.ShloMosaic.ValueIdx
open Cert.Spec
open scoped BigOperators

/-! ## Division by a positive real -/

/-- The reciprocal of a nonzero real. -/
theorem one_div_coe {n : ℝ} (hn : n ≠ 0) : Ideal.div 1 (n : EReal) = ((1 / n : ℝ) : EReal) := by
  rw [Ideal.div_coe hn, one_mul]

/-- The reciprocal of a nonzero real, with the numerator the word of `1`. -/
theorem word_one_div_coe {n : ℝ} (hn : n ≠ 0) :
    Ideal.div (Ideal.ofBits .f32 0x3F800000#32) (n : EReal) = ((1 / n : ℝ) : EReal) := by
  rw [Cert.LibWords.word_one, EReal.coe_one, one_div_coe hn]

/-- A real times the reciprocal of a nonzero real is the real quotient. -/
theorem mul_one_div_coe (a : ℝ) {n : ℝ} (hn : n ≠ 0) :
    (a : EReal) * Ideal.div 1 (n : EReal) = ((a / n : ℝ) : EReal) := by
  rw [one_div_coe hn, ← EReal.coe_mul, mul_one_div]

/-- The same with the numerator the word of `1`. -/
theorem mul_word_one_div_coe (a : ℝ) {n : ℝ} (hn : n ≠ 0) :
    (a : EReal) * Ideal.div (Ideal.ofBits .f32 0x3F800000#32) (n : EReal) = ((a / n : ℝ) : EReal) := by
  rw [word_one_div_coe hn, ← EReal.coe_mul, mul_one_div]

/-- A real divided by a nonzero real is the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-! ## The clamped norm -/

/-- A lane sum of products of real entries is the real sum. -/
theorem sum_mul_coe {ι : Type} [Fintype ι] (u v : ι → ℝ) :
    ∑ d, ((u d : ℝ) : EReal) * ((v d : ℝ) : EReal) = ((∑ d, u d * v d : ℝ) : EReal) := by
  rw [← Cert.LibRealSoftmax.sum_coe]
  exact Finset.sum_congr rfl fun d _ => (EReal.coe_mul _ _).symm

/-- The square root of a sum of squares of real entries is the real square root. -/
theorem sqrt_sum_sq_coe {ι : Type} [Fintype ι] (x : ι → ℝ) :
    Ideal.sqrt (∑ d, ((x d : ℝ) : EReal) * ((x d : ℝ) : EReal)) = ((Real.sqrt (∑ d, x d * x d) : ℝ) : EReal) := by
  rw [sum_mul_coe, Ideal.sqrt_coe,
    if_neg (not_lt.2 (Finset.sum_nonneg fun d _ => mul_self_nonneg (x d)))]

/-- The clamped norm of a real row is the real clamped norm. -/
theorem clamped_norm_coe {ι : Type} [Fintype ι] (x : ι → ℝ) :
    max (Ideal.sqrt (∑ d, ((x d : ℝ) : EReal) * ((x d : ℝ) : EReal))) (Ideal.ofBits .f32 0x322BCC77#32)
      = ((max (Real.sqrt (∑ d, x d * x d)) epsR : ℝ) : EReal) := by
  rw [sqrt_sum_sq_coe, Cert.LibWords.word_eps, Cert.LibRealSoftmax.max_coe]

/-- The real clamped norm is positive. -/
theorem clamped_norm_pos {ι : Type} [Fintype ι] (x : ι → ℝ) :
    0 < max (Real.sqrt (∑ d, x d * x d)) epsR :=
  lt_max_of_lt_right Cert.LibWords.epsR_pos

/-- The specification's clamped norm (at the clamp constant) is positive. -/
theorem nrm_pos (a : SA.Idx → ℝ) (p : Fin 4096) : 0 < nrm epsR a p :=
  lt_max_of_lt_right Cert.LibWords.epsR_pos

/-- The kernel's clamped norm of row `p` of a real matrix is the specification's. -/
theorem clamped_norm_row (a : SA.Idx → ℝ) (p : Fin 4096) :
    max (Ideal.sqrt (∑ d : Fin 256, ((a (ix2 p d) : ℝ) : EReal) * ((a (ix2 p d) : ℝ) : EReal)))
        (Ideal.ofBits .f32 0x322BCC77#32)
      = ((nrm epsR a p : ℝ) : EReal) :=
  clamped_norm_coe fun d => a (ix2 p d)

/-- The kernel's scaled entry `x * (1 / max (sqrt (Σ x²)) eps)` of row `p` of a real matrix is the specification's
    unit row. -/
theorem unit_row_kernel (a : SA.Idx → ℝ) (p : Fin 4096) (d : Fin 256) :
    ((a (ix2 p d) : ℝ) : EReal)
        * Ideal.div (Ideal.ofBits .f32 0x3F800000#32)
            (max (Ideal.sqrt (∑ d' : Fin 256, ((a (ix2 p d') : ℝ) : EReal) * ((a (ix2 p d') : ℝ) : EReal)))
              (Ideal.ofBits .f32 0x322BCC77#32))
      = ((unitRow epsR a p d : ℝ) : EReal) := by
  rw [clamped_norm_row, mul_word_one_div_coe _ (nrm_pos a p).ne']
  rfl

/-! ## The similarity -/

/-- A lane sum of products of real entries, times the word of `10`. -/
theorem dot_mul_ten_coe {ι : Type} [Fintype ι] (u v : ι → ℝ) :
    (∑ d, ((u d : ℝ) : EReal) * ((v d : ℝ) : EReal)) * Ideal.ofBits .f32 0x41200000#32
      = (((∑ d, u d * v d) * 10 : ℝ) : EReal) := by
  rw [sum_mul_coe, Cert.LibWords.word_ten, ← EReal.coe_mul]

/-- The inner product of two unit rows times the word of `10` is the specification's similarity. -/
theorem sim_kernel (x y : SA.Idx → ℝ) (p q : Fin 4096) :
    (∑ d : Fin 256, ((unitRow epsR x p d : ℝ) : EReal) * ((unitRow epsR y q d : ℝ) : EReal))
        * Ideal.ofBits .f32 0x41200000#32
      = ((sim epsR 10 x y p q : ℝ) : EReal) :=
  dot_mul_ten_coe (fun d => unitRow epsR x p d) fun d => unitRow epsR y q d

end Cert.KerMath

end
-- ==== Proof.KerPayTiles.lean ====
/-
  The kernel body's unit rows and logit tiles, read at an index, on the extended reals.

  Each of the four loaded blocks of 1024 rows of 256 entries is scaled row by row by the reciprocal of the row's
  clamped norm: entry `(ρ, d)` becomes `x ρ d * (1 / max (sqrt (Σ_d' (x ρ d')²)) eps)`. On a block of real entries this
  is the real quotient by the positive clamped norm. A logit tile is the product of one scaled block with the
  transpose of another, times `10`: entry `(ρ, j)` is `(Σ_k a ρ k * b j k) * 10`, rows of `a` against rows of `b`
  (rounding the operands to a narrower format changes nothing on exact values, and the accumulator starts at zero).
  Which scaled blocks play `a` and `b` is chosen by the first grid coordinate.
-/
import proofs.«108332_j71305047049043_2_alg».proof.Proof.Gen.KernelIdeal.Skeleton
import proofs.«108332_j71305047049043_2_alg».proof.Proof.LibColumn
import proofs.«108332_j71305047049043_2_alg».proof.Proof.LibKeepdims
import proofs.«108332_j71305047049043_2_alg».proof.Proof.LibPlainDot
import proofs.«108332_j71305047049043_2_alg».proof.Proof.LibWords
import proofs.«108332_j71305047049043_2_alg».proof.Proof.KerMath

noncomputable section

namespace Cert.KerPay

open Idealize.ShloMosaic Idealize.ShloMosaic.ValueIdx
open Cert.KernelIdeal Cert.KernelIdeal.Gen
open scoped BigOperators

/-! ## Pointwise operations at an index, over any operands -/

theorem sqrt_apply' (x : FVec Ideal S1024x1 .f32) (i : S1024x1.Idx) : sqrt x i = Ideal.sqrt (x i) := rfl

/-- The clamp at an index. -/
theorem clamp_apply (s : FVec Ideal S1024x1 .f32) (e : Ideal .f32) (i : S1024x1.Idx) :
    maximumf s (broadcast S1024x1 e) i = max (s i) e := rfl

/-- The reciprocal column at an index. -/
theorem recip_apply (n : FVec Ideal S1024x1 .f32) (i : S1024x1.Idx) :
    divf (broadcast S1024x1 (Scalar.ofBits (F := Ideal) .f32 0x3F800000#32)) n i
      = Ideal.div (Ideal.ofBits .f32 0x3F800000#32) (n i) := rfl

/-! ## The scaled rows, over any block -/

/-- A lane sum over the 256 entries of a row, put back as a column, at row `ρ`. -/
theorem row_sum_apply (A : FVec Ideal S1024x256 .f32)
    (hr : S1024x256.Reduces [1] S1024) (hφ : FKind.Formats .f32)
    (hacc : (0x00000000#32 : BitVec FTy.f32.bits) = FKind.add.neutral .f32 hφ) (hc : S1024.ShapeCasts S1024x1)
    (ρ : Fin 1024) (u : Fin 1) :
    shapeCast S1024x1 (multiReduction .add [1] S1024 A 0x00000000#32 hr hφ hacc) hc (ix2 ρ u)
      = ∑ d : Fin 256, A (ix2 ρ d) :=
  (Cert.LibColumn.shapeCast_a_a1_apply _ hc ρ u).trans (Cert.LibKeepdims.sum_last2_apply A _ hr hφ hacc ρ)

/-- The square root of a row's sum of squares, as a column, at row `ρ`. -/
theorem sqnorm_gen (x : FVec Ideal S1024x256 .f32)
    (hr : S1024x256.Reduces [1] S1024) (hφ : FKind.Formats .f32)
    (hacc : (0x00000000#32 : BitVec FTy.f32.bits) = FKind.add.neutral .f32 hφ) (hc : S1024.ShapeCasts S1024x1)
    (ρ : Fin 1024) :
    sqrt (shapeCast S1024x1 (multiReduction .add [1] S1024 (mulf x x) 0x00000000#32 hr hφ hacc) hc) (ix2 ρ 0)
      = Ideal.sqrt (∑ d' : Fin 256, x (ix2 ρ d') * x (ix2 ρ d')) :=
  (sqrt_apply' _ _).trans (congrArg Ideal.sqrt
    ((row_sum_apply (mulf x x) hr hφ hacc hc ρ 0).trans (Finset.sum_congr rfl fun d' _ => mulf_apply x x _)))

/-- A block scaled by the reciprocal of a column spread over the lanes, at `(ρ, d)`. -/
theorem scale_gen (x : FVec Ideal S1024x256 .f32) (n : FVec Ideal S1024x1 .f32)
    (hb : S1024x1.Broadcasts S1024x256) (ρ : Fin 1024) (d : Fin 256) :
    mulf x (broadcastTo S1024x256
        (divf (broadcast S1024x1 (Scalar.ofBits (F := Ideal) .f32 0x3F800000#32)) n) hb) (ix2 ρ d)
      = x (ix2 ρ d) * Ideal.div (Ideal.ofBits .f32 0x3F800000#32) (n (ix2 ρ 0)) :=
  (mulf_apply _ _ _).trans (congrArg (x (ix2 ρ d) * ·)
    ((Cert.LibColumn.broadcastTo_a1_ab_apply _ hb ρ d).trans (recip_apply n _)))

/-- The scaled block at `(ρ, d)`: the entry times the reciprocal of the row's clamped norm. -/
theorem unit_gen (x : FVec Ideal S1024x256 .f32)
    (hr : S1024x256.Reduces [1] S1024) (hφ : FKind.Formats .f32)
    (hacc : (0x00000000#32 : BitVec FTy.f32.bits) = FKind.add.neutral .f32 hφ) (hc : S1024.ShapeCasts S1024x1)
    (hb : S1024x1.Broadcasts S1024x256) (ρ : Fin 1024) (d : Fin 256) :
    mulf x (broadcastTo S1024x256
        (divf (broadcast S1024x1 (Scalar.ofBits (F := Ideal) .f32 0x3F800000#32))
          (maximumf (sqrt (shapeCast S1024x1 (multiReduction .add [1] S1024 (mulf x x) 0x00000000#32 hr hφ hacc) hc))
            (broadcast S1024x1 (Scalar.ofBits (F := Ideal) .f32 0x322BCC77#32)))) hb) (ix2 ρ d)
      = x (ix2 ρ d) * Ideal.div (Ideal.ofBits .f32 0x3F800000#32)
          (max (Ideal.sqrt (∑ d' : Fin 256, x (ix2 ρ d') * x (ix2 ρ d'))) (Ideal.ofBits .f32 0x322BCC77#32)) :=
  (scale_gen x _ hb ρ d).trans
    (congrArg (fun t => x (ix2 ρ d) * Ideal.div (Ideal.ofBits .f32 0x3F800000#32) t)
      ((clamp_apply _ _ _).trans
        (congrArg (fun t => max t (Ideal.ofBits .f32 0x322BCC77#32)) (sqnorm_gen x hr hφ hacc hc ρ))))

/-! ## The four scaled blocks of the body -/

theorem pay7_apply (x : FVec Ideal S1024x256 .f32) (ρ : Fin 1024) (d : Fin 256) :
    k0_pay7 x (ix2 ρ d)
      = x (ix2 ρ d) * Ideal.div (Ideal.ofBits .f32 0x3F800000#32)
          (max (Ideal.sqrt (∑ d' : Fin 256, x (ix2 ρ d') * x (ix2 ρ d'))) (Ideal.ofBits .f32 0x322BCC77#32)) := by
  unfold k0_pay7
  exact unit_gen x _ _ _ _ _ ρ d

theorem pay8_apply (x : FVec Ideal S1024x256 .f32) (ρ : Fin 1024) (d : Fin 256) :
    k0_pay8 x (ix2 ρ d)
      = x (ix2 ρ d) * Ideal.div (Ideal.ofBits .f32 0x3F800000#32)
          (max (Ideal.sqrt (∑ d' : Fin 256, x (ix2 ρ d') * x (ix2 ρ d'))) (Ideal.ofBits .f32 0x322BCC77#32)) := by
  unfold k0_pay8
  exact unit_gen x _ _ _ _ _ ρ d

theorem pay9_apply (x : FVec Ideal S1024x256 .f32) (ρ : Fin 1024) (d : Fin 256) :
    k0_pay9 x (ix2 ρ d)
      = x (ix2 ρ d) * Ideal.div (Ideal.ofBits .f32 0x3F800000#32)
          (max (Ideal.sqrt (∑ d' : Fin 256, x (ix2 ρ d') * x (ix2 ρ d'))) (Ideal.ofBits .f32 0x322BCC77#32)) := by
  unfold k0_pay9
  exact unit_gen x _ _ _ _ _ ρ d

/-- The fourth block's norm column (before the clamp), at row `ρ`. -/
theorem pay10_apply (x : FVec Ideal S1024x256 .f32) (ρ : Fin 1024) :
    k0_pay10 (F := Ideal) x (ix2 ρ 0) = Ideal.sqrt (∑ d' : Fin 256, x (ix2 ρ d') * x (ix2 ρ d')) := by
  unfold k0_pay10
  exact sqnorm_gen x _ _ _ _ ρ

/-- The fourth block scaled, from any norm column and clamp constant. -/
theorem pay11_apply (x : FVec Ideal S1024x256 .f32) (v37 : FVec Ideal S1024x1 .f32) (cst : Ideal .f32)
    (ρ : Fin 1024) (d : Fin 256) :
    k0_pay11 x v37 cst (ix2 ρ d)
      = x (ix2 ρ d) * Ideal.div (Ideal.ofBits .f32 0x3F800000#32) (max (v37 (ix2 ρ 0)) cst) := by
  unfold k0_pay11
  exact (scale_gen x _ _ ρ d).trans
    (congrArg (fun t => x (ix2 ρ d) * Ideal.div (Ideal.ofBits .f32 0x3F800000#32) t) (clamp_apply v37 cst _))

/-- The fourth block scaled, with the norm column and the clamp constant the body passes. -/
theorem pay11_pay10_apply (x : FVec Ideal S1024x256 .f32) (ρ : Fin 1024) (d : Fin 256) :
    k0_pay11 (F := Ideal) x (k0_pay10 (F := Ideal) x) (Scalar.ofBits (F := Ideal) .f32 0x322BCC77#32) (ix2 ρ d)
      = x (ix2 ρ d) * Ideal.div (Ideal.ofBits .f32 0x3F800000#32)
          (max (Ideal.sqrt (∑ d' : Fin 256, x (ix2 ρ d') * x (ix2 ρ d'))) (Ideal.ofBits .f32 0x322BCC77#32)) :=
  (pay11_apply x (k0_pay10 x) _ ρ d).trans
    (congrArg (fun t => x (ix2 ρ d) * Ideal.div (Ideal.ofBits .f32 0x3F800000#32)
        (max t (Ideal.ofBits .f32 0x322BCC77#32))) (pay10_apply x ρ))

/-! ## Real blocks -/

/-- The unit row of a real block: entry `(ρ, d)` divided by the row's clamped norm. -/
def unitR (xr : S1024x256.Idx → ℝ) (ρ : Fin 1024) (d : Fin 256) : ℝ :=
  xr (ix2 ρ d) / max (Real.sqrt (∑ d' : Fin 256, xr (ix2 ρ d') * xr (ix2 ρ d'))) Cert.Spec.epsR

theorem unitR_def (xr : S1024x256.Idx → ℝ) (ρ : Fin 1024) (d : Fin 256) :
    unitR xr ρ d
      = xr (ix2 ρ d) / max (Real.sqrt (∑ d' : Fin 256, xr (ix2 ρ d') * xr (ix2 ρ d'))) Cert.Spec.epsR := rfl

/-- The scaled entry of a real block is the real unit row. -/
theorem unit_form_real (xr : S1024x256.Idx → ℝ) (ρ : Fin 1024) (d : Fin 256) :
    ((xr (ix2 ρ d) : ℝ) : EReal) * Ideal.div (Ideal.ofBits .f32 0x3F800000#32)
        (max (Ideal.sqrt (∑ d' : Fin 256, ((xr (ix2 ρ d') : ℝ) : EReal) * ((xr (ix2 ρ d') : ℝ) : EReal)))
          (Ideal.ofBits .f32 0x322BCC77#32))
      = ((unitR xr ρ d : ℝ) : EReal) := by
  rw [Cert.KerMath.clamped_norm_coe (fun d' : Fin 256 => xr (ix2 ρ d')),
    Cert.KerMath.mul_word_one_div_coe _ (Cert.KerMath.clamped_norm_pos (fun d' : Fin 256 => xr (ix2 ρ d'))).ne']
  rfl

theorem pay7_real (xr : S1024x256.Idx → ℝ) (ρ : Fin 1024) (d : Fin 256) :
    k0_pay7 (F := Ideal) (fun i => ((xr i : ℝ) : EReal)) (ix2 ρ d) = ((unitR xr ρ d : ℝ) : EReal) :=
  (pay7_apply _ ρ d).trans (unit_form_real xr ρ d)

theorem pay8_real (xr : S1024x256.Idx → ℝ) (ρ : Fin 1024) (d : Fin 256) :
    k0_pay8 (F := Ideal) (fun i => ((xr i : ℝ) : EReal)) (ix2 ρ d) = ((unitR xr ρ d : ℝ) : EReal) :=
  (pay8_apply _ ρ d).trans (unit_form_real xr ρ d)

theorem pay9_real (xr : S1024x256.Idx → ℝ) (ρ : Fin 1024) (d : Fin 256) :
    k0_pay9 (F := Ideal) (fun i => ((xr i : ℝ) : EReal)) (ix2 ρ d) = ((unitR xr ρ d : ℝ) : EReal) :=
  (pay9_apply _ ρ d).trans (unit_form_real xr ρ d)

theorem pay11_pay10_real (xr : S1024x256.Idx → ℝ) (ρ : Fin 1024) (d : Fin 256) :
    k0_pay11 (F := Ideal) (fun i => ((xr i : ℝ) : EReal)) (k0_pay10 (F := Ideal) fun i => ((xr i : ℝ) : EReal))
        (Scalar.ofBits (F := Ideal) .f32 0x322BCC77#32) (ix2 ρ d)
      = ((unitR xr ρ d : ℝ) : EReal) :=
  (pay11_pay10_apply _ ρ d).trans (unit_form_real xr ρ d)

/-! ## The logit tiles -/

/-- Rows of `a` against rows of `b`, times the word of `10`: the product of `a` with the transpose of `b`, both
    narrowed, into a zero accumulator, scaled. -/
theorem tile_gen (a b : FVec Ideal S1024x256 .f32) (hb16 : FTy.bits .bf16 < FTy.bits .f32)
    (ht : S1024x256.Transposes [1, 0] S256x1024) (ρ j : Fin 1024) :
    mulf (matmul dot_S1024x256_S256x1024_S1024x1024_1_0_0_1_n_n none (truncf .bf16 a hb16)
        (transpose S256x1024 [1, 0] (truncf .bf16 b hb16) ht) (constant S1024x1024 .f32 0x00000000#32))
      (broadcast S1024x1024 (Scalar.ofBits (F := Ideal) .f32 0x41200000#32)) (ix2 ρ j)
      = (∑ k : Fin 256, a (ix2 ρ k) * b (ix2 j k)) * Ideal.ofBits .f32 0x41200000#32 := by
  refine (mulf_apply _ _ _).trans (congrArg (· * Ideal.ofBits .f32 0x41200000#32) ?_)
  refine (Ideal.matmul_constant_zero_apply _ none _ _ (ix2 ρ j)).trans ?_
  refine (Cert.LibPlainDot.plain_sum _ rfl rfl rfl rfl rfl rfl _ _ ρ j).trans ?_
  exact Finset.sum_congr rfl fun k _ => congrArg (a (ix2 ρ k) * ·)
    (transpose_apply [1, 0] _ ht (ix2 k j) (ix2 j k) (fun bb => match bb with | ⟨0, _⟩ => rfl | ⟨1, _⟩ => rfl))

/-- The partner tile at `(ρ, j)`, the choice of blocks still as a select on the first grid coordinate. -/
theorem pay16_apply (arg0 : BitVec 32) (v10 v21 v32 v33 : FVec Ideal S1024x256 .f32) (v37 : FVec Ideal S1024x1 .f32)
    (cst : Ideal .f32) (ρ j : Fin 1024) :
    k0_pay16 arg0 v10 v21 v32 v33 v37 cst (ix2 ρ j)
      = (∑ k : Fin 256, (Scalar.select (Scalar.cmpi .eq arg0 0#32) v10 v21) (ix2 ρ k)
            * (Scalar.select (Scalar.cmpi .eq arg0 0#32) (k0_pay11 v33 v37 cst) v32) (ix2 j k))
          * Ideal.ofBits .f32 0x41200000#32 := by
  unfold k0_pay16 k0_pay15
  exact tile_gen _ _ _ _ ρ j

/-- The own-batch tile at `(ρ, j)`, likewise. -/
theorem pay17_apply (arg0 : BitVec 32) (v10 v21 v32 v33 : FVec Ideal S1024x256 .f32) (v37 : FVec Ideal S1024x1 .f32)
    (cst : Ideal .f32) (ρ j : Fin 1024) :
    k0_pay17 arg0 v10 v21 v32 v33 v37 cst (ix2 ρ j)
      = (∑ k : Fin 256, (Scalar.select (Scalar.cmpi .eq arg0 0#32) v10 v21) (ix2 ρ k)
            * (Scalar.select (Scalar.cmpi .eq arg0 0#32) v32 (k0_pay11 v33 v37 cst)) (ix2 j k))
          * Ideal.ofBits .f32 0x41200000#32 := by
  unfold k0_pay17 k0_pay15
  exact tile_gen _ _ _ _ ρ j

/-- The first grid coordinate `0` compares equal to zero. -/
theorem cmp_s0 : Scalar.cmpi .eq (BitVec.ofNat 32 0) 0#32 = 1#1 := by decide

/-- The first grid coordinate `1` does not. -/
theorem cmp_s1 : Scalar.cmpi .eq (BitVec.ofNat 32 1) 0#32 = 0#1 := by decide

variable (v10 v21 v32 v33 : FVec Ideal S1024x256 .f32) (v37 : FVec Ideal S1024x1 .f32) (cst : Ideal .f32)
  (ρ j : Fin 1024)

/-- First half (grid coordinate 0): the first row block against the fourth (column) block. -/
theorem pay16_s0 (s : ℕ) (hs : s = 0) :
    k0_pay16 (BitVec.ofNat 32 s) v10 v21 v32 v33 v37 cst (ix2 ρ j)
      = (∑ k : Fin 256, v10 (ix2 ρ k) * k0_pay11 v33 v37 cst (ix2 j k)) * Ideal.ofBits .f32 0x41200000#32 := by
  subst hs
  rw [pay16_apply, cmp_s0, select_one, select_one]

/-- Second half (grid coordinate 1): the second row block against the third (column) block. -/
theorem pay16_s1 (s : ℕ) (hs : s = 1) :
    k0_pay16 (BitVec.ofNat 32 s) v10 v21 v32 v33 v37 cst (ix2 ρ j)
      = (∑ k : Fin 256, v21 (ix2 ρ k) * v32 (ix2 j k)) * Ideal.ofBits .f32 0x41200000#32 := by
  subst hs
  rw [pay16_apply, cmp_s1, select_zero, select_zero]

/-- First half: the first row block against the third (column) block. -/
theorem pay17_s0 (s : ℕ) (hs : s = 0) :
    k0_pay17 (BitVec.ofNat 32 s) v10 v21 v32 v33 v37 cst (ix2 ρ j)
      = (∑ k : Fin 256, v10 (ix2 ρ k) * v32 (ix2 j k)) * Ideal.ofBits .f32 0x41200000#32 := by
  subst hs
  rw [pay17_apply, cmp_s0, select_one, select_one]

/-- Second half: the second row block against the fourth (column) block. -/
theorem pay17_s1 (s : ℕ) (hs : s = 1) :
    k0_pay17 (BitVec.ofNat 32 s) v10 v21 v32 v33 v37 cst (ix2 ρ j)
      = (∑ k : Fin 256, v21 (ix2 ρ k) * k0_pay11 v33 v37 cst (ix2 j k)) * Ideal.ofBits .f32 0x41200000#32 := by
  subst hs
  rw [pay17_apply, cmp_s1, select_zero, select_zero]

/-! ## The logit tiles of real blocks

The four loaded blocks `x0 … x3` have real entries `r0 … r3`. Then each logit is the real inner product of two unit rows
times `10`. -/

section RealTiles

variable (x0 x1 x2 x3 : FVec Ideal S1024x256 .f32) (r0 r1 r2 r3 : S1024x256.Idx → ℝ)

/-- The inner product of two real unit rows times the word of `10`. -/
theorem dot_unit_ten (ra rb : S1024x256.Idx → ℝ) (ρ j : Fin 1024) :
    (∑ k : Fin 256, ((unitR ra ρ k : ℝ) : EReal) * ((unitR rb j k : ℝ) : EReal)) * Ideal.ofBits .f32 0x41200000#32
      = (((∑ k : Fin 256, unitR ra ρ k * unitR rb j k) * 10 : ℝ) : EReal) :=
  Cert.KerMath.dot_mul_ten_coe (fun k => unitR ra ρ k) fun k => unitR rb j k

/-- First half, partner tile: unit rows of the first block against unit rows of the fourth. -/
theorem pay16_real_s0 (h0 : ∀ i, x0 i = ((r0 i : ℝ) : EReal)) (h3 : ∀ i, x3 i = ((r3 i : ℝ) : EReal))
    (s : ℕ) (hs : s = 0) (ρ j : Fin 1024) :
    k0_pay16 (BitVec.ofNat 32 s) (k0_pay7 x0) (k0_pay8 x1) (k0_pay9 x2) x3 (k0_pay10 x3)
        (Scalar.ofBits (F := Ideal) .f32 0x322BCC77#32) (ix2 ρ j)
      = (((∑ k : Fin 256, unitR r0 ρ k * unitR r3 j k) * 10 : ℝ) : EReal) := by
  obtain rfl : x0 = fun i => ((r0 i : ℝ) : EReal) := funext h0
  obtain rfl : x3 = fun i => ((r3 i : ℝ) : EReal) := funext h3
  rw [pay16_s0 _ _ _ _ _ _ ρ j s hs]
  refine Eq.trans ?_ (dot_unit_ten r0 r3 ρ j)
  refine congrArg (· * Ideal.ofBits .f32 0x41200000#32) (Finset.sum_congr rfl fun k _ => ?_)
  rw [pay7_real, pay11_pay10_real]

/-- Second half, partner tile: unit rows of the second block against unit rows of the third. -/
theorem pay16_real_s1 (h1 : ∀ i, x1 i = ((r1 i : ℝ) : EReal)) (h2 : ∀ i, x2 i = ((r2 i : ℝ) : EReal))
    (s : ℕ) (hs : s = 1) (ρ j : Fin 1024) :
    k0_pay16 (BitVec.ofNat 32 s) (k0_pay7 x0) (k0_pay8 x1) (k0_pay9 x2) x3 (k0_pay10 x3)
        (Scalar.ofBits (F := Ideal) .f32 0x322BCC77#32) (ix2 ρ j)
      = (((∑ k : Fin 256, unitR r1 ρ k * unitR r2 j k) * 10 : ℝ) : EReal) := by
  obtain rfl : x1 = fun i => ((r1 i : ℝ) : EReal) := funext h1
  obtain rfl : x2 = fun i => ((r2 i : ℝ) : EReal) := funext h2
  rw [pay16_s1 _ _ _ _ _ _ ρ j s hs]
  refine Eq.trans ?_ (dot_unit_ten r1 r2 ρ j)
  refine congrArg (· * Ideal.ofBits .f32 0x41200000#32) (Finset.sum_congr rfl fun k _ => ?_)
  rw [pay8_real, pay9_real]

/-- First half, own-batch tile: unit rows of the first block against unit rows of the third. -/
theorem pay17_real_s0 (h0 : ∀ i, x0 i = ((r0 i : ℝ) : EReal)) (h2 : ∀ i, x2 i = ((r2 i : ℝ) : EReal))
    (s : ℕ) (hs : s = 0) (ρ j : Fin 1024) :
    k0_pay17 (BitVec.ofNat 32 s) (k0_pay7 x0) (k0_pay8 x1) (k0_pay9 x2) x3 (k0_pay10 x3)
        (Scalar.ofBits (F := Ideal) .f32 0x322BCC77#32) (ix2 ρ j)
      = (((∑ k : Fin 256, unitR r0 ρ k * unitR r2 j k) * 10 : ℝ) : EReal) := by
  obtain rfl : x0 = fun i => ((r0 i : ℝ) : EReal) := funext h0
  obtain rfl : x2 = fun i => ((r2 i : ℝ) : EReal) := funext h2
  rw [pay17_s0 _ _ _ _ _ _ ρ j s hs]
  refine Eq.trans ?_ (dot_unit_ten r0 r2 ρ j)
  refine congrArg (· * Ideal.ofBits .f32 0x41200000#32) (Finset.sum_congr rfl fun k _ => ?_)
  rw [pay7_real, pay9_real]

/-- Second half, own-batch tile: unit rows of the second block against unit rows of the fourth. -/
theorem pay17_real_s1 (h1 : ∀ i, x1 i = ((r1 i : ℝ) : EReal)) (h3 : ∀ i, x3 i = ((r3 i : ℝ) : EReal))
    (s : ℕ) (hs : s = 1) (ρ j : Fin 1024) :
    k0_pay17 (BitVec.ofNat 32 s) (k0_pay7 x0) (k0_pay8 x1) (k0_pay9 x2) x3 (k0_pay10 x3)
        (Scalar.ofBits (F := Ideal) .f32 0x322BCC77#32) (ix2 ρ j)
      = (((∑ k : Fin 256, unitR r1 ρ k * unitR r3 j k) * 10 : ℝ) : EReal) := by
  obtain rfl : x1 = fun i => ((r1 i : ℝ) : EReal) := funext h1
  obtain rfl : x3 = fun i => ((r3 i : ℝ) : EReal) := funext h3
  rw [pay17_s1 _ _ _ _ _ _ ρ j s hs]
  refine Eq.trans ?_ (dot_unit_ten r1 r3 ρ j)
  refine congrArg (· * Ideal.ofBits .f32 0x41200000#32) (Finset.sum_congr rfl fun k _ => ?_)
  rw [pay8_real, pay11_pay10_real]

end RealTiles

end Cert.KerPay

end
-- ==== Proof.KerPayMask.lean ====
/-
  The kernel body's mask tile, read at an index.

  At a grid point with row tile b and column tile k the body numbers the tile's rows b * 1024 + ρ and its columns
  k * 1024 + j, as 32-bit words, and compares them: the mask holds at (ρ, j) exactly when the row's number in its batch is
  the column's number in its batch. All the numbers are below 4096, so the words compare as the numbers do.
-/
import Idealize.ShloMosaic.Lib.Pipeline.Value
import Idealize.ShloMosaic.Lib.ValueIdx
import Idealize.ShloMosaic.Lib.ValueLayout
import proofs.«108332_j71305047049043_2_alg».proof.Proof.Gen.KernelIdeal.Skeleton
import proofs.«108332_j71305047049043_2_alg».proof.Proof.LibColumn

noncomputable section

namespace Cert.KerPay

open Idealize.ShloMosaic Idealize.ShloMosaic.ValueIdx
open Cert.KernelIdeal Cert.KernelIdeal.Gen

/-- A tile number times 1024 plus a lane number, as words. -/
theorem word_tile_lane (b : ℕ) (ρ : Fin 1024) :
    IntOp.addi (Scalar.muli (BitVec.ofNat 32 b) 1024#32) (BitVec.ofNat 32 ρ.val) = BitVec.ofNat 32 (b * 1024 + ρ.val) := by
  show BitVec.ofNat 32 b * BitVec.ofNat 32 1024 + BitVec.ofNat 32 ρ.val = _
  rw [BitVec.ofNat_add, BitVec.ofNat_mul]

/-- The mask at (ρ, j): the word 1 where row b * 1024 + ρ and column k * 1024 + j have the same number, else 0. -/
theorem pay18_apply (b k : ℕ) (hb : b < 4) (hk : k < 4) (ρ j : Fin 1024) :
    k0_pay18 (BitVec.ofNat 32 b) (BitVec.ofNat 32 k) (ix2 ρ j)
      = if b * 1024 + ρ.val = k * 1024 + j.val then 1#1 else 0#1 := by
  unfold k0_pay18
  show IntOp.cmpi .eq
      (broadcastTo S1024x1024 (addi (broadcast S1024x1 (Scalar.muli (BitVec.ofNat 32 b) 1024#32))
        (iota .tc S1024x1 32 [0] iota_S1024x1_d0_w32)) broadcasts_S1024x1_S1024x1024 (ix2 ρ j))
      (broadcastTo S1024x1024 (addi (broadcast S1x1024 (Scalar.muli (BitVec.ofNat 32 k) 1024#32))
        (iota .tc S1x1024 32 [1] iota_S1x1024_d1_w32)) broadcasts_S1x1024_S1024x1024 (ix2 ρ j)) = _
  rw [Cert.LibColumn.broadcastTo_a1_ab_apply, broadcastTo_1b_ab_apply]
  show IntOp.cmpi .eq
      (IntOp.addi (Scalar.muli (BitVec.ofNat 32 b) 1024#32) (iota .tc S1024x1 32 [0] iota_S1024x1_d0_w32 (ix2 ρ (0 : Fin 1))))
      (IntOp.addi (Scalar.muli (BitVec.ofNat 32 k) 1024#32) (iota .tc S1x1024 32 [1] iota_S1x1024_d1_w32 (ix2 (0 : Fin 1) j))) = _
  rw [iota_single_apply, iota_single_apply]
  show IntOp.cmpi .eq (IntOp.addi (Scalar.muli (BitVec.ofNat 32 b) 1024#32) (BitVec.ofNat 32 ρ.val))
      (IntOp.addi (Scalar.muli (BitVec.ofNat 32 k) 1024#32) (BitVec.ofNat 32 j.val)) = _
  rw [word_tile_lane, word_tile_lane]
  have hρ := ρ.isLt
  have hj := j.isLt
  have h := Cert.LibColumn.cmpi_eq_ofNat (n := 4096) (by norm_num)
    (⟨b * 1024 + ρ.val, by omega⟩ : Fin 4096) (⟨k * 1024 + j.val, by omega⟩ : Fin 4096)
  refine h.trans ?_
  by_cases e : b * 1024 + ρ.val = k * 1024 + j.val
  · rw [if_pos e, if_pos (Fin.ext e)]
  · rw [if_neg e, if_neg (fun h' => e (congrArg Fin.val h'))]

/-- The mask holds at (ρ, j) exactly when the two numbers agree. -/
theorem pay18_eq_one_iff (b k : ℕ) (hb : b < 4) (hk : k < 4) (ρ j : Fin 1024) :
    k0_pay18 (BitVec.ofNat 32 b) (BitVec.ofNat 32 k) (ix2 ρ j) = 1#1 ↔ b * 1024 + ρ.val = k * 1024 + j.val := by
  rw [pay18_apply b k hb hk ρ j]
  by_cases e : b * 1024 + ρ.val = k * 1024 + j.val
  · rw [if_pos e]; exact ⟨fun _ => e, fun _ => rfl⟩
  · rw [if_neg e]; exact ⟨fun h => absurd h (by decide), fun h => absurd h e⟩

end Cert.KerPay

end
-- ==== Proof.LibTiles4096.lean ====
/-
  A row of 4096 logits walked as four tiles of 1024 lanes, with one lane masked.

  Lane `j` of tile `k` is position `k * 1024 + j` of the row. For a fixed position `p` the mask `hit p k j` says that
  lane `j` of tile `k` IS position `p`. A sum over the tiles of the sums over the lanes is the sum over the row; the
  masked lanes pick out the one term at `p`; the unmasked lanes give the sum over the row without `p`.
-/
import Mathlib.Algebra.BigOperators.Fin
import Mathlib.Algebra.BigOperators.Group.Finset.Basic
import Mathlib.Logic.Equiv.Fin.Basic
import Mathlib.Analysis.SpecialFunctions.Log.Basic

open scoped BigOperators

namespace Cert.LibTiles

/-- Lane `j` of tile `k`, as a position of the row. -/
def at4 (k : Fin 4) (j : Fin 1024) : Fin 4096 :=
  ⟨k.val * 1024 + j.val, by have := k.isLt; have := j.isLt; omega⟩

@[simp] theorem at4_val (k : Fin 4) (j : Fin 1024) : (at4 k j).val = k.val * 1024 + j.val := rfl

/-- The mask of position `p`: lane `j` of tile `k` is position `p`. -/
def hit (p : Fin 4096) (k : Fin 4) (j : Fin 1024) : Bool :=
  decide (k.val * 1024 + j.val = p.val)

theorem hit_def (p : Fin 4096) (k : Fin 4) (j : Fin 1024) :
    hit p k j = decide (k.val * 1024 + j.val = p.val) := rfl

/-- The mask holds exactly at the lane that is position `p`. -/
theorem hit_iff (p : Fin 4096) (k : Fin 4) (j : Fin 1024) : hit p k j = true ↔ at4 k j = p := by
  rw [hit, decide_eq_true_iff]
  exact ⟨fun h => Fin.ext h, fun h => congrArg Fin.val h⟩

/-- A choice by the mask is the choice by "this lane is position `p`". -/
theorem ite_hit {α : Type*} (p : Fin 4096) (k : Fin 4) (j : Fin 1024) (a b : α) :
    (if hit p k j then a else b) = if at4 k j = p then a else b := by
  by_cases h : at4 k j = p
  · rw [if_pos h, if_pos ((hit_iff p k j).2 h)]
  · rw [if_neg h, if_neg fun h' => h ((hit_iff p k j).1 h')]

/-- The sum over the four tiles of the sums over the 1024 lanes is the sum over the row. -/
theorem sum_all {M : Type*} [AddCommMonoid M] (g : Fin 4096 → M) :
    ∑ k : Fin 4, ∑ j : Fin 1024, g (at4 k j) = ∑ q : Fin 4096, g q := by
  have e : ∑ x : Fin 4 × Fin 1024, g (finProdFinEquiv x) = ∑ q : Fin 4096, g q :=
    (finProdFinEquiv (m := 4) (n := 1024)).sum_comp g
  rw [← e, Fintype.sum_prod_type]
  refine Finset.sum_congr rfl fun k _ => Finset.sum_congr rfl fun j _ => congrArg g (Fin.ext ?_)
  rw [finProdFinEquiv_apply_val, at4_val]
  show k.val * 1024 + j.val = j.val + 1024 * k.val
  omega

/-- The masked lanes pick out the term at `p`. -/
theorem sum_hit (p : Fin 4096) (g : Fin 4096 → ℝ) :
    ∑ k : Fin 4, ∑ j : Fin 1024, (if hit p k j then g (at4 k j) else 0) = g p := by
  have h : ∀ k j, (if hit p k j then g (at4 k j) else 0)
      = (fun q : Fin 4096 => if q = p then g q else 0) (at4 k j) := fun k j => ite_hit p k j _ _
  simp only [h]
  rw [sum_all fun q : Fin 4096 => if q = p then g q else 0, Finset.sum_ite_eq' Finset.univ p g,
    if_pos (Finset.mem_univ p)]

/-- A sum over the row that skips position `p`. -/
theorem sum_skip (p : Fin 4096) (g : Fin 4096 → ℝ) :
    ∑ q : Fin 4096, (if q = p then 0 else g q) = ∑ q ∈ (Finset.univ : Finset (Fin 4096)).erase p, g q := by
  rw [← Finset.sum_erase (Finset.univ : Finset (Fin 4096)) (a := p)
    (f := fun q => if q = p then 0 else g q) (if_pos rfl)]
  exact Finset.sum_congr rfl fun q hq => if_neg (Finset.ne_of_mem_erase hq)

/-- The unmasked lanes give the sum over the row without `p`. -/
theorem sum_not_hit (p : Fin 4096) (g : Fin 4096 → ℝ) :
    ∑ k : Fin 4, ∑ j : Fin 1024, (if hit p k j then 0 else g (at4 k j))
      = ∑ q ∈ (Finset.univ : Finset (Fin 4096)).erase p, g q := by
  have h : ∀ k j, (if hit p k j then 0 else g (at4 k j))
      = (fun q : Fin 4096 => if q = p then 0 else g q) (at4 k j) := fun k j => ite_hit p k j _ _
  simp only [h]
  rw [sum_all fun q : Fin 4096 => if q = p then 0 else g q, sum_skip]

/-- The tiled form of a row's loss is the plain one: with first-family logits `P` and second-family logits `N`
    given on the row, the logarithm of all exponentials (the second family without position `p`) minus the
    first family's logit at `p`. -/
theorem loss_tiles (p : Fin 4096) (P N : Fin 4096 → ℝ) :
    Real.log ((∑ k : Fin 4, ∑ j : Fin 1024, Real.exp (P (at4 k j)))
        + ∑ k : Fin 4, ∑ j : Fin 1024, (if hit p k j then 0 else Real.exp (N (at4 k j))))
      - ∑ k : Fin 4, ∑ j : Fin 1024, (if hit p k j then P (at4 k j) else 0)
      = Real.log ((∑ q : Fin 4096, Real.exp (P q))
          + ∑ q ∈ (Finset.univ : Finset (Fin 4096)).erase p, Real.exp (N q)) - P p := by
  rw [sum_all fun q => Real.exp (P q), sum_not_hit p fun q => Real.exp (N q), sum_hit p P]

end Cert.LibTiles
-- ==== Proof.TiledLoss.lean ====
/-
  The four-tile walk of a query row returns the row's loss.

  Row `p` of `x` is queried against the partner batch `y`. Its 4096 partner logits `sim x y p q` and its 4096 own-batch
  logits `sim x x p q` come as four tiles of 1024 lanes; in the own-batch family the lane that is position `p`
  itself is masked. The walk's result `(m + log l) - d` is the logarithm of all the exponentials (without the
  masked one) minus the partner logit at `p`: the loss of the specification.
-/
import proofs.«108332_j71305047049043_2_alg».proof.Proof.Spec
import proofs.«108332_j71305047049043_2_alg».proof.Proof.LibMaskedOnline
import proofs.«108332_j71305047049043_2_alg».proof.Proof.LibTiles4096

noncomputable section

namespace Cert.TiledLoss

open Idealize.ShloMosaic
open Cert.Spec Cert.LibTiles Cert.LibMaskedOnline
open scoped BigOperators

/-- The partner logits of query row `p`, by tile and lane. -/
def posT (eps ten : ℝ) (x y : SA.Idx → ℝ) (p : Fin 4096) (k : Fin 4) (j : Fin 1024) : ℝ :=
  sim eps ten x y p (at4 k j)

/-- The own-batch logits of query row `p`, by tile and lane. -/
def negT (eps ten : ℝ) (x : SA.Idx → ℝ) (p : Fin 4096) (k : Fin 4) (j : Fin 1024) : ℝ :=
  sim eps ten x x p (at4 k j)

theorem posT_def (eps ten : ℝ) (x y : SA.Idx → ℝ) (p : Fin 4096) (k : Fin 4) (j : Fin 1024) :
    posT eps ten x y p k j = sim eps ten x y p (at4 k j) := rfl

theorem negT_def (eps ten : ℝ) (x : SA.Idx → ℝ) (p : Fin 4096) (k : Fin 4) (j : Fin 1024) :
    negT eps ten x p k j = sim eps ten x x p (at4 k j) := rfl

/-- The four-tile walk over the logits of query row `p`, the lane at position `p` masked, returns the loss of
    row `p`. -/
theorem walk_eq_loss (eps ten : ℝ) (x y : SA.Idx → ℝ) (p : Fin 4096) :
    (runM 4 (posT eps ten x y p) (negT eps ten x p) (hit p)
        + Ideal.log (runL 4 (posT eps ten x y p) (negT eps ten x p) (hit p)))
      - runD 4 (posT eps ten x y p) (hit p)
      = ((loss eps ten x y p : ℝ) : EReal) := by
  rw [runOut_eq (by norm_num : 0 < 4), loss, denom]
  exact congrArg _ (loss_tiles p (fun q => sim eps ten x y p q) (fun q => sim eps ten x x p q))

end Cert.TiledLoss

end
-- ==== Proof.KernelIdealEntryStep.lean ====
/-
  One grid point's step on the three carried columns, in the specification's terms.

  At point t (half t / 16, row tile t / 4 % 4, column tile t % 4) the body's four blocks are 1024 rows each of the two
  batches: the row tile of each batch and the column tile of each batch. On batches of real numbers the scaled blocks
  are the specification's unit rows, so the partner tile at (r, j) is the similarity of query row p = row tile * 1024 + r
  with row column tile * 1024 + j of the partner batch, the own-batch tile the similarity with that row of the query's own
  batch, and the mask holds where that row is p itself. The first half queries the first batch against the second, the
  second half the second against the first.
-/
import proofs.«108332_j71305047049043_2_alg».proof.Proof.KernelIdealCols
import proofs.«108332_j71305047049043_2_alg».proof.Proof.KernelIdealBlocks
import proofs.«108332_j71305047049043_2_alg».proof.Proof.KernelIdealEntryCols
import proofs.«108332_j71305047049043_2_alg».proof.Proof.KerPayTiles
import proofs.«108332_j71305047049043_2_alg».proof.Proof.KerPayMask
import proofs.«108332_j71305047049043_2_alg».proof.Proof.KerMath
import proofs.«108332_j71305047049043_2_alg».proof.Proof.TiledLoss
import proofs.«108332_j71305047049043_2_alg».proof.Proof.Spec
import proofs.«108332_j71305047049043_2_alg».proof.Proof.LibMaskedOnline
import proofs.«108332_j71305047049043_2_alg».proof.Proof.LibTiles4096

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx
open Cert.Spec Cert.LibTiles Cert.TiledLoss
open scoped BigOperators

variable (m : (ℓ : Loc nD τ sig) → Buf (Elt Ideal) ℓ)

/-- Rows b * 1024 … b * 1024 + 1023 of a batch, as a block of real numbers. -/
def rowsOf (a : SA.Idx → ℝ) (b : ℕ) (hb : b < 4) : S1024x256.Idx → ℝ :=
  fun i => a (ix2 (⟨b * 1024 + (i 0).val, by have := idx2_lt0 i; omega⟩ : Fin 4096) (i 1))

/-- The unit row of such a block is the batch's unit row. -/
theorem unitR_rowsOf (a : SA.Idx → ℝ) (b : ℕ) (hb : b < 4) (ρ : Fin 1024) (d : Fin 256) :
    Cert.KerPay.unitR (rowsOf a b hb) ρ d
      = unitRow epsR a (⟨b * 1024 + ρ.val, by have := ρ.isLt; omega⟩ : Fin 4096) d := rfl

/-- The inner product of two blocks' unit rows times the word of ten is the similarity of the two batches' rows. -/
theorem dot_rows (x y : SA.Idx → ℝ) (b kk : ℕ) (hb : b < 4) (hkk : kk < 4) (ρ j : Fin 1024) :
    (∑ d : Fin 256, ((Cert.KerPay.unitR (rowsOf x b hb) ρ d : ℝ) : EReal)
        * ((Cert.KerPay.unitR (rowsOf y kk hkk) j d : ℝ) : EReal)) * Ideal.ofBits .f32 0x41200000#32
      = ((sim epsR 10 x y (⟨b * 1024 + ρ.val, by have := ρ.isLt; omega⟩ : Fin 4096)
          (⟨kk * 1024 + j.val, by have := j.isLt; omega⟩ : Fin 4096) : ℝ) : EReal) :=
  Cert.KerMath.sim_kernel x y _ _

/-- The two logit tiles of a point of the first half. -/
theorem tiles_s0 (i : grid0.Coords) (hs : (i 0).val = 0) (a0 a1 : SA.Idx → ℝ) (b kk : ℕ) (hb : b < 4) (hkk : kk < 4)
    (x0 x1 x2 x3 : Vec Ideal S1024x256 .f32)
    (hx0 : x0 = fun i => ((rowsOf a0 b hb i : ℝ) : EReal)) (hx2 : x2 = fun i => ((rowsOf a0 kk hkk i : ℝ) : EReal))
    (hx3 : x3 = fun i => ((rowsOf a1 kk hkk i : ℝ) : EReal)) (ρ j : Fin 1024) :
    vPos i x0 x1 x2 x3 (ix2 ρ j)
        = ((sim epsR 10 a0 a1 (⟨b * 1024 + ρ.val, by have := ρ.isLt; omega⟩ : Fin 4096)
            (⟨kk * 1024 + j.val, by have := j.isLt; omega⟩ : Fin 4096) : ℝ) : EReal)
      ∧ vNeg i x0 x1 x2 x3 (ix2 ρ j)
        = ((sim epsR 10 a0 a0 (⟨b * 1024 + ρ.val, by have := ρ.isLt; omega⟩ : Fin 4096)
            (⟨kk * 1024 + j.val, by have := j.isLt; omega⟩ : Fin 4096) : ℝ) : EReal) := by
  subst hx0 hx2 hx3
  constructor
  · unfold vPos
    refine (Cert.KerPay.pay16_s0 _ _ _ _ _ _ ρ j (i 0).val hs).trans ?_
    refine (congrArg (· * Ideal.ofBits .f32 0x41200000#32) (Finset.sum_congr rfl fun d _ => ?_)).trans
      (dot_rows a0 a1 b kk hb hkk ρ j)
    rw [Cert.KerPay.pay7_real, Cert.KerPay.pay11_pay10_real]
  · unfold vNeg
    refine (Cert.KerPay.pay17_s0 _ _ _ _ _ _ ρ j (i 0).val hs).trans ?_
    refine (congrArg (· * Ideal.ofBits .f32 0x41200000#32) (Finset.sum_congr rfl fun d _ => ?_)).trans
      (dot_rows a0 a0 b kk hb hkk ρ j)
    rw [Cert.KerPay.pay7_real, Cert.KerPay.pay9_real]

/-- The two logit tiles of a point of the second half. -/
theorem tiles_s1 (i : grid0.Coords) (hs : (i 0).val = 1) (a0 a1 : SA.Idx → ℝ) (b kk : ℕ) (hb : b < 4) (hkk : kk < 4)
    (x0 x1 x2 x3 : Vec Ideal S1024x256 .f32)
    (hx1 : x1 = fun i => ((rowsOf a1 b hb i : ℝ) : EReal)) (hx2 : x2 = fun i => ((rowsOf a0 kk hkk i : ℝ) : EReal))
    (hx3 : x3 = fun i => ((rowsOf a1 kk hkk i : ℝ) : EReal)) (ρ j : Fin 1024) :
    vPos i x0 x1 x2 x3 (ix2 ρ j)
        = ((sim epsR 10 a1 a0 (⟨b * 1024 + ρ.val, by have := ρ.isLt; omega⟩ : Fin 4096)
            (⟨kk * 1024 + j.val, by have := j.isLt; omega⟩ : Fin 4096) : ℝ) : EReal)
      ∧ vNeg i x0 x1 x2 x3 (ix2 ρ j)
        = ((sim epsR 10 a1 a1 (⟨b * 1024 + ρ.val, by have := ρ.isLt; omega⟩ : Fin 4096)
            (⟨kk * 1024 + j.val, by have := j.isLt; omega⟩ : Fin 4096) : ℝ) : EReal) := by
  subst hx1 hx2 hx3
  constructor
  · unfold vPos
    refine (Cert.KerPay.pay16_s1 _ _ _ _ _ _ ρ j (i 0).val hs).trans ?_
    refine (congrArg (· * Ideal.ofBits .f32 0x41200000#32) (Finset.sum_congr rfl fun d _ => ?_)).trans
      (dot_rows a1 a0 b kk hb hkk ρ j)
    rw [Cert.KerPay.pay8_real, Cert.KerPay.pay9_real]
  · unfold vNeg
    refine (Cert.KerPay.pay17_s1 _ _ _ _ _ _ ρ j (i 0).val hs).trans ?_
    refine (congrArg (· * Ideal.ofBits .f32 0x41200000#32) (Finset.sum_congr rfl fun d _ => ?_)).trans
      (dot_rows a1 a1 b kk hb hkk ρ j)
    rw [Cert.KerPay.pay8_real, Cert.KerPay.pay11_pay10_real]

/-- The mask of a point at (r, j), in the tiling's terms: lane j of the column tile is the query row's position. -/
theorem mask_at (i : grid0.Coords) (b kk : ℕ) (hb : b < 4) (hkk : kk < 4) (h1 : (i 1).val = b) (h2 : (i 2).val = kk)
    (p : Fin 4096) (k : Fin 4) (r j : Fin 1024) (hp : p.val = b * 1024 + r.val) (hk : k.val = kk) :
    vMask i (ix2 r j) = 1#1 ↔ hit p k j = true := by
  unfold vMask
  rw [h1, h2, Cert.KerPay.pay18_eq_one_iff b kk hb hkk r j, hit_def, decide_eq_true_iff, hk, hp]
  exact eq_comm

set_option maxHeartbeats 8000000 in
/-- What the three tiles of point t hold at row r. -/
theorem tiles_at (a0 a1 X Y : SA.Idx → ℝ) (c : Dev nD) (h0 : V m c main_arg0 = lift a0) (h1 : V m c main_arg1 = lift a1)
    (t : Fin cfg0.N) (p : Fin 4096) (k : Fin 4) (r : Fin 1024) (hp : p.val = t.val / 4 % 4 * 1024 + r.val)
    (hk : k.val = t.val % 4) (hXY : (t.val / 16 = 0 ∧ X = a0 ∧ Y = a1) ∨ (t.val / 16 = 1 ∧ X = a1 ∧ Y = a0)) :
    (∀ j, vPos (grid0.coords t) (iblk m c 0 t) (iblk m c 1 t) (iblk m c 2 t) (iblk m c 3 t) (ix2 r j)
        = ((posT epsR 10 X Y p k j : ℝ) : EReal))
      ∧ (∀ j, vNeg (grid0.coords t) (iblk m c 0 t) (iblk m c 1 t) (iblk m c 2 t) (iblk m c 3 t) (ix2 r j)
        = ((negT epsR 10 X p k j : ℝ) : EReal))
      ∧ ∀ j, vMask (grid0.coords t) (ix2 r j) = 1#1 ↔ hit p k j = true := by
  have hN : cfg0.N = 32 := N_0
  have ht : t.val < 32 := by have := t.isLt; omega
  obtain ⟨-, -, -, -, -, -, -, -, -, c0, c1, c2⟩ := idx_facts t
  have hb : t.val / 4 % 4 < 4 := by omega
  have hkk : t.val % 4 < 4 := by omega
  have hx0 : iblk m c 0 t = fun i => ((rowsOf a0 (t.val / 4 % 4) hb i : ℝ) : EReal) := funext fun i => by
    obtain ⟨ρ, d, rfl⟩ : ∃ (ρ : Fin 1024) (d : Fin 256), i = ix2 ρ d := ⟨i 0, i 1, eq_ix2 i⟩
    exact (iblk0_apply m c t ρ d).trans (by rw [h0]; rfl)
  have hx1 : iblk m c 1 t = fun i => ((rowsOf a1 (t.val / 4 % 4) hb i : ℝ) : EReal) := funext fun i => by
    obtain ⟨ρ, d, rfl⟩ : ∃ (ρ : Fin 1024) (d : Fin 256), i = ix2 ρ d := ⟨i 0, i 1, eq_ix2 i⟩
    exact (iblk1_apply m c t ρ d).trans (by rw [h1]; rfl)
  have hx2 : iblk m c 2 t = fun i => ((rowsOf a0 (t.val % 4) hkk i : ℝ) : EReal) := funext fun i => by
    obtain ⟨ρ, d, rfl⟩ : ∃ (ρ : Fin 1024) (d : Fin 256), i = ix2 ρ d := ⟨i 0, i 1, eq_ix2 i⟩
    exact (iblk2_apply m c t ρ d).trans (by rw [h0]; rfl)
  have hx3 : iblk m c 3 t = fun i => ((rowsOf a1 (t.val % 4) hkk i : ℝ) : EReal) := funext fun i => by
    obtain ⟨ρ, d, rfl⟩ : ∃ (ρ : Fin 1024) (d : Fin 256), i = ix2 ρ d := ⟨i 0, i 1, eq_ix2 i⟩
    exact (iblk3_apply m c t ρ d).trans (by rw [h1]; rfl)
  have hq : ∀ j : Fin 1024, at4 k j = (⟨t.val % 4 * 1024 + j.val, by have := j.isLt; omega⟩ : Fin 4096) := fun j =>
    Fin.ext (by rw [at4_val, hk])
  have hp' : p = (⟨t.val / 4 % 4 * 1024 + r.val, by have := r.isLt; omega⟩ : Fin 4096) := Fin.ext hp
  have hmask : ∀ j, vMask (grid0.coords t) (ix2 r j) = 1#1 ↔ hit p k j = true := fun j =>
    mask_at (grid0.coords t) (t.val / 4 % 4) (t.val % 4) hb hkk c1 c2 p k r j hp hk
  rcases hXY with ⟨hs, hX, hY⟩ | ⟨hs, hX, hY⟩
  · rw [hX, hY]
    have T := fun j => tiles_s0 (grid0.coords t) (c0.trans hs) a0 a1 (t.val / 4 % 4) (t.val % 4) hb hkk
      (iblk m c 0 t) (iblk m c 1 t) (iblk m c 2 t) (iblk m c 3 t) hx0 hx2 hx3 r j
    refine ⟨fun j => ?_, fun j => ?_, hmask⟩
    · rw [posT_def, hq j, hp']; exact (T j).1
    · rw [negT_def, hq j, hp']; exact (T j).2
  · rw [hX, hY]
    have T := fun j => tiles_s1 (grid0.coords t) (c0.trans hs) a0 a1 (t.val / 4 % 4) (t.val % 4) hb hkk
      (iblk m c 0 t) (iblk m c 1 t) (iblk m c 2 t) (iblk m c 3 t) hx1 hx2 hx3 r j
    refine ⟨fun j => ?_, fun j => ?_, hmask⟩
    · rw [posT_def, hq j, hp']; exact (T j).1
    · rw [negT_def, hq j, hp']; exact (T j).2

set_option maxHeartbeats 8000000 in
/-- One column tile's step on the running shift, at row r of the tile: the shift against the row's partner logits and its
    own-batch logits, the row's own position masked. -/
theorem blkM_apply (a0 a1 X Y : SA.Idx → ℝ) (c : Dev nD) (h0 : V m c main_arg0 = lift a0) (h1 : V m c main_arg1 = lift a1)
    (t : Fin cfg0.N) (p : Fin 4096) (k : Fin 4) (r : Fin 1024) (hp : p.val = t.val / 4 % 4 * 1024 + r.val)
    (hk : k.val = t.val % 4) (hXY : (t.val / 16 = 0 ∧ X = a0 ∧ Y = a1) ∨ (t.val / 16 = 1 ∧ X = a1 ∧ Y = a0))
    (xm : Vec Ideal S1024x1 .f32) :
    blkM m c t xm (ix2 r 0) = Cert.LibMaskedOnline.stepM (xm (ix2 r 0)) (posT epsR 10 X Y p k) (negT epsR 10 X p k) (hit p k) := by
  obtain ⟨hP, hN', hK⟩ := tiles_at m a0 a1 X Y c h0 h1 t p k r hp hk hXY
  unfold blkM
  exact stepM_of_tiles (grid0.coords t) (iblk m c 0 t) (iblk m c 1 t) (iblk m c 2 t) (iblk m c 3 t) xm r
    (posT epsR 10 X Y p k) (negT epsR 10 X p k) (hit p k) hP hN' hK

set_option maxHeartbeats 8000000 in
/-- The same step on the running sum of exponentials. -/
theorem blkL_apply (a0 a1 X Y : SA.Idx → ℝ) (c : Dev nD) (h0 : V m c main_arg0 = lift a0) (h1 : V m c main_arg1 = lift a1)
    (t : Fin cfg0.N) (p : Fin 4096) (k : Fin 4) (r : Fin 1024) (hp : p.val = t.val / 4 % 4 * 1024 + r.val)
    (hk : k.val = t.val % 4) (hXY : (t.val / 16 = 0 ∧ X = a0 ∧ Y = a1) ∨ (t.val / 16 = 1 ∧ X = a1 ∧ Y = a0))
    (xm xl : Vec Ideal S1024x1 .f32) :
    blkL m c t xm xl (ix2 r 0)
      = Cert.LibMaskedOnline.stepL (xm (ix2 r 0)) (xl (ix2 r 0)) (posT epsR 10 X Y p k) (negT epsR 10 X p k) (hit p k) := by
  obtain ⟨hP, hN', hK⟩ := tiles_at m a0 a1 X Y c h0 h1 t p k r hp hk hXY
  unfold blkL
  exact stepL_of_tiles (grid0.coords t) (iblk m c 0 t) (iblk m c 1 t) (iblk m c 2 t) (iblk m c 3 t) xm xl r
    (posT epsR 10 X Y p k) (negT epsR 10 X p k) (hit p k) hP hN' hK

set_option maxHeartbeats 8000000 in
/-- The same step on the running sum of the masked partner logits. -/
theorem blkD_apply (a0 a1 X Y : SA.Idx → ℝ) (c : Dev nD) (h0 : V m c main_arg0 = lift a0) (h1 : V m c main_arg1 = lift a1)
    (t : Fin cfg0.N) (p : Fin 4096) (k : Fin 4) (r : Fin 1024) (hp : p.val = t.val / 4 % 4 * 1024 + r.val)
    (hk : k.val = t.val % 4) (hXY : (t.val / 16 = 0 ∧ X = a0 ∧ Y = a1) ∨ (t.val / 16 = 1 ∧ X = a1 ∧ Y = a0))
    (xd : Vec Ideal S1024x1 .f32) :
    blkD m c t xd (ix2 r 0) = Cert.LibMaskedOnline.stepD (xd (ix2 r 0)) (posT epsR 10 X Y p k) (hit p k) := by
  obtain ⟨hP, hN', hK⟩ := tiles_at m a0 a1 X Y c h0 h1 t p k r hp hk hXY
  unfold blkD
  exact stepD_of_tiles (grid0.coords t) (iblk m c 0 t) (iblk m c 1 t) (iblk m c 2 t) (iblk m c 3 t) xd r
    (posT epsR 10 X Y p k) (hit p k) hP hK

end Cert.KernelIdeal.Fr

end
-- ==== Proof.KernelIdealEntry.lean ====
/-
  A result block of the kernel is the specification.

  The result rows of a row tile are written at the tile's last column tile. The three carried columns there are four
  steps from their reset values, one per column tile, so at row r they are the four-tile walk over the row's logits; the
  walk returns the row's loss. The first sixteen grid points query the first batch against the second (result rows below
  4096), the last sixteen the second against the first.
-/
import proofs.«108332_j71305047049043_2_alg».proof.Proof.KernelIdealCols
import proofs.«108332_j71305047049043_2_alg».proof.Proof.KernelIdealEntryStep
import proofs.«108332_j71305047049043_2_alg».proof.Proof.KerPayCols
import proofs.«108332_j71305047049043_2_alg».proof.Proof.TiledLoss
import proofs.«108332_j71305047049043_2_alg».proof.Proof.Spec
import proofs.«108332_j71305047049043_2_alg».proof.Proof.LibMaskedOnline
import proofs.«108332_j71305047049043_2_alg».proof.Proof.LibTiles4096

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window BodyObligation cellOf)
open Idealize.ShloMosaic.ValueIdx
open Cert.Spec Cert.LibTiles Cert.TiledLoss
open scoped BigOperators

variable (m : (ℓ : Loc nD τ sig) → Buf (Elt Ideal) ℓ)

set_option maxHeartbeats 8000000 in
/-- The result block of a row tile, at row r: the four column tiles' steps, from the reset columns, are the four-tile walk
    over the row's logits, whose result is the row's loss. -/
theorem entry_core (a0 a1 X Y : SA.Idx → ℝ) (c : Dev nD) (h0 : V m c main_arg0 = lift a0) (h1 : V m c main_arg1 = lift a1)
    (t : Fin cfg0.N) (h3 : t.val % 4 = 3) (r : Fin 1024) (p : Fin 4096) (hp : p.val = t.val / 4 % 4 * 1024 + r.val)
    (hXY : (t.val / 16 = 0 ∧ X = a0 ∧ Y = a1) ∨ (t.val / 16 = 1 ∧ X = a1 ∧ Y = a0)) :
    (outsAt0 m c t.val t.isLt).1 (ix1 r) = ((loss epsR 10 X Y p : ℝ) : EReal) := by
  have hN : cfg0.N = 32 := N_0
  have ht : t.val < 32 := by have := t.isLt; omega
  have l2 : t.val - 1 < cfg0.N := by omega
  have l1 : t.val - 1 - 1 < cfg0.N := by omega
  have l0 : t.val - 1 - 1 - 1 < cfg0.N := by omega
  have q : ∀ n : ℕ, n / 16 = t.val / 16 → ((n / 16 = 0 ∧ X = a0 ∧ Y = a1) ∨ (n / 16 = 1 ∧ X = a1 ∧ Y = a0)) :=
    fun n hn => by rw [hn]; exact hXY
  have e0 := cols_A m c (⟨t.val - 1 - 1 - 1, l0⟩ : Fin cfg0.N) (by show (t.val - 1 - 1 - 1) % 4 = 0; omega)
  have e1 := cols_B m c (⟨t.val - 1 - 1, l1⟩ : Fin cfg0.N) (by show ¬ (t.val - 1 - 1) % 4 = 0; omega) (by show ¬ (t.val - 1 - 1) % 4 = 3; omega)
  have e2 := cols_B m c (⟨t.val - 1, l2⟩ : Fin cfg0.N) (by show ¬ (t.val - 1) % 4 = 0; omega) (by show ¬ (t.val - 1) % 4 = 3; omega)
  have e3 := out_C m c t (by omega) h3
  have hM0 : (outsAt0 m c (t.val - 1 - 1 - 1) l0).2.1 (ix2 r 0) = (Cert.LibMaskedOnline.stepM ⊥ (posT epsR 10 X Y p 0) (negT epsR 10 X p 0) (hit p 0)) :=
    (congrFun (congrArg (fun s => s.1) e0) (ix2 r 0)).trans
      ((blkM_apply m a0 a1 X Y c h0 h1 (⟨t.val - 1 - 1 - 1, l0⟩ : Fin cfg0.N) p 0 r (by show p.val = (t.val - 1 - 1 - 1) / 4 % 4 * 1024 + r.val; omega) (by show ((0 : Fin 4)).val = (t.val - 1 - 1 - 1) % 4; omega) (q (t.val - 1 - 1 - 1) (by omega)) (k0_pay12 (F := Ideal))).trans (by rw [Cert.KerPay.pay12_apply]))
  have hL0 : (outsAt0 m c (t.val - 1 - 1 - 1) l0).2.2.1 (ix2 r 0) = (Cert.LibMaskedOnline.stepL ⊥ 0 (posT epsR 10 X Y p 0) (negT epsR 10 X p 0) (hit p 0)) :=
    (congrFun (congrArg (fun s => s.2.1) e0) (ix2 r 0)).trans
      ((blkL_apply m a0 a1 X Y c h0 h1 (⟨t.val - 1 - 1 - 1, l0⟩ : Fin cfg0.N) p 0 r (by show p.val = (t.val - 1 - 1 - 1) / 4 % 4 * 1024 + r.val; omega) (by show ((0 : Fin 4)).val = (t.val - 1 - 1 - 1) % 4; omega) (q (t.val - 1 - 1 - 1) (by omega)) (k0_pay12 (F := Ideal)) (k0_pay13 (F := Ideal))).trans
        (by rw [Cert.KerPay.pay12_apply, Cert.KerPay.pay13_apply]))
  have hD0 : (outsAt0 m c (t.val - 1 - 1 - 1) l0).2.2.2 (ix2 r 0) = (Cert.LibMaskedOnline.stepD 0 (posT epsR 10 X Y p 0) (hit p 0)) :=
    (congrFun (congrArg (fun s => s.2.2) e0) (ix2 r 0)).trans
      ((blkD_apply m a0 a1 X Y c h0 h1 (⟨t.val - 1 - 1 - 1, l0⟩ : Fin cfg0.N) p 0 r (by show p.val = (t.val - 1 - 1 - 1) / 4 % 4 * 1024 + r.val; omega) (by show ((0 : Fin 4)).val = (t.val - 1 - 1 - 1) % 4; omega) (q (t.val - 1 - 1 - 1) (by omega)) (k0_pay14 (F := Ideal))).trans (by rw [Cert.KerPay.pay14_apply]))
  have hM1 : (outsAt0 m c (t.val - 1 - 1) l1).2.1 (ix2 r 0) = (Cert.LibMaskedOnline.stepM (Cert.LibMaskedOnline.stepM ⊥ (posT epsR 10 X Y p 0) (negT epsR 10 X p 0) (hit p 0)) (posT epsR 10 X Y p 1) (negT epsR 10 X p 1) (hit p 1)) :=
    (congrFun (congrArg (fun s => s.1) e1) (ix2 r 0)).trans
      ((blkM_apply m a0 a1 X Y c h0 h1 (⟨t.val - 1 - 1, l1⟩ : Fin cfg0.N) p 1 r (by show p.val = (t.val - 1 - 1) / 4 % 4 * 1024 + r.val; omega) (by show ((1 : Fin 4)).val = (t.val - 1 - 1) % 4; omega) (q (t.val - 1 - 1) (by omega)) (outsAt0 m c (t.val - 1 - 1 - 1) l0).2.1).trans (by rw [hM0]))
  have hL1 : (outsAt0 m c (t.val - 1 - 1) l1).2.2.1 (ix2 r 0) = (Cert.LibMaskedOnline.stepL (Cert.LibMaskedOnline.stepM ⊥ (posT epsR 10 X Y p 0) (negT epsR 10 X p 0) (hit p 0)) (Cert.LibMaskedOnline.stepL ⊥ 0 (posT epsR 10 X Y p 0) (negT epsR 10 X p 0) (hit p 0)) (posT epsR 10 X Y p 1) (negT epsR 10 X p 1) (hit p 1)) :=
    (congrFun (congrArg (fun s => s.2.1) e1) (ix2 r 0)).trans
      ((blkL_apply m a0 a1 X Y c h0 h1 (⟨t.val - 1 - 1, l1⟩ : Fin cfg0.N) p 1 r (by show p.val = (t.val - 1 - 1) / 4 % 4 * 1024 + r.val; omega) (by show ((1 : Fin 4)).val = (t.val - 1 - 1) % 4; omega) (q (t.val - 1 - 1) (by omega)) (outsAt0 m c (t.val - 1 - 1 - 1) l0).2.1 (outsAt0 m c (t.val - 1 - 1 - 1) l0).2.2.1).trans (by rw [hM0, hL0]))
  have hD1 : (outsAt0 m c (t.val - 1 - 1) l1).2.2.2 (ix2 r 0) = (Cert.LibMaskedOnline.stepD (Cert.LibMaskedOnline.stepD 0 (posT epsR 10 X Y p 0) (hit p 0)) (posT epsR 10 X Y p 1) (hit p 1)) :=
    (congrFun (congrArg (fun s => s.2.2) e1) (ix2 r 0)).trans
      ((blkD_apply m a0 a1 X Y c h0 h1 (⟨t.val - 1 - 1, l1⟩ : Fin cfg0.N) p 1 r (by show p.val = (t.val - 1 - 1) / 4 % 4 * 1024 + r.val; omega) (by show ((1 : Fin 4)).val = (t.val - 1 - 1) % 4; omega) (q (t.val - 1 - 1) (by omega)) (outsAt0 m c (t.val - 1 - 1 - 1) l0).2.2.2).trans (by rw [hD0]))
  have hM2 : (outsAt0 m c (t.val - 1) l2).2.1 (ix2 r 0) = (Cert.LibMaskedOnline.stepM (Cert.LibMaskedOnline.stepM (Cert.LibMaskedOnline.stepM ⊥ (posT epsR 10 X Y p 0) (negT epsR 10 X p 0) (hit p 0)) (posT epsR 10 X Y p 1) (negT epsR 10 X p 1) (hit p 1)) (posT epsR 10 X Y p 2) (negT epsR 10 X p 2) (hit p 2)) :=
    (congrFun (congrArg (fun s => s.1) e2) (ix2 r 0)).trans
      ((blkM_apply m a0 a1 X Y c h0 h1 (⟨t.val - 1, l2⟩ : Fin cfg0.N) p 2 r (by show p.val = (t.val - 1) / 4 % 4 * 1024 + r.val; omega) (by show ((2 : Fin 4)).val = (t.val - 1) % 4; omega) (q (t.val - 1) (by omega)) (outsAt0 m c (t.val - 1 - 1) l1).2.1).trans (by rw [hM1]))
  have hL2 : (outsAt0 m c (t.val - 1) l2).2.2.1 (ix2 r 0) = (Cert.LibMaskedOnline.stepL (Cert.LibMaskedOnline.stepM (Cert.LibMaskedOnline.stepM ⊥ (posT epsR 10 X Y p 0) (negT epsR 10 X p 0) (hit p 0)) (posT epsR 10 X Y p 1) (negT epsR 10 X p 1) (hit p 1)) (Cert.LibMaskedOnline.stepL (Cert.LibMaskedOnline.stepM ⊥ (posT epsR 10 X Y p 0) (negT epsR 10 X p 0) (hit p 0)) (Cert.LibMaskedOnline.stepL ⊥ 0 (posT epsR 10 X Y p 0) (negT epsR 10 X p 0) (hit p 0)) (posT epsR 10 X Y p 1) (negT epsR 10 X p 1) (hit p 1)) (posT epsR 10 X Y p 2) (negT epsR 10 X p 2) (hit p 2)) :=
    (congrFun (congrArg (fun s => s.2.1) e2) (ix2 r 0)).trans
      ((blkL_apply m a0 a1 X Y c h0 h1 (⟨t.val - 1, l2⟩ : Fin cfg0.N) p 2 r (by show p.val = (t.val - 1) / 4 % 4 * 1024 + r.val; omega) (by show ((2 : Fin 4)).val = (t.val - 1) % 4; omega) (q (t.val - 1) (by omega)) (outsAt0 m c (t.val - 1 - 1) l1).2.1 (outsAt0 m c (t.val - 1 - 1) l1).2.2.1).trans (by rw [hM1, hL1]))
  have hD2 : (outsAt0 m c (t.val - 1) l2).2.2.2 (ix2 r 0) = (Cert.LibMaskedOnline.stepD (Cert.LibMaskedOnline.stepD (Cert.LibMaskedOnline.stepD 0 (posT epsR 10 X Y p 0) (hit p 0)) (posT epsR 10 X Y p 1) (hit p 1)) (posT epsR 10 X Y p 2) (hit p 2)) :=
    (congrFun (congrArg (fun s => s.2.2) e2) (ix2 r 0)).trans
      ((blkD_apply m a0 a1 X Y c h0 h1 (⟨t.val - 1, l2⟩ : Fin cfg0.N) p 2 r (by show p.val = (t.val - 1) / 4 % 4 * 1024 + r.val; omega) (by show ((2 : Fin 4)).val = (t.val - 1) % 4; omega) (q (t.val - 1) (by omega)) (outsAt0 m c (t.val - 1 - 1) l1).2.2.2).trans (by rw [hD1]))
  have hM3 : blkM m c t (outsAt0 m c (t.val - 1) l2).2.1 (ix2 r 0) = (Cert.LibMaskedOnline.stepM (Cert.LibMaskedOnline.stepM (Cert.LibMaskedOnline.stepM (Cert.LibMaskedOnline.stepM ⊥ (posT epsR 10 X Y p 0) (negT epsR 10 X p 0) (hit p 0)) (posT epsR 10 X Y p 1) (negT epsR 10 X p 1) (hit p 1)) (posT epsR 10 X Y p 2) (negT epsR 10 X p 2) (hit p 2)) (posT epsR 10 X Y p 3) (negT epsR 10 X p 3) (hit p 3)) :=
    (blkM_apply m a0 a1 X Y c h0 h1 t p 3 r (by show p.val = t.val / 4 % 4 * 1024 + r.val; omega) (by show ((3 : Fin 4)).val = t.val % 4; omega) (q t.val (by omega)) (outsAt0 m c (t.val - 1) l2).2.1).trans (by rw [hM2])
  have hL3 : blkL m c t (outsAt0 m c (t.val - 1) l2).2.1 (outsAt0 m c (t.val - 1) l2).2.2.1 (ix2 r 0) = (Cert.LibMaskedOnline.stepL (Cert.LibMaskedOnline.stepM (Cert.LibMaskedOnline.stepM (Cert.LibMaskedOnline.stepM ⊥ (posT epsR 10 X Y p 0) (negT epsR 10 X p 0) (hit p 0)) (posT epsR 10 X Y p 1) (negT epsR 10 X p 1) (hit p 1)) (posT epsR 10 X Y p 2) (negT epsR 10 X p 2) (hit p 2)) (Cert.LibMaskedOnline.stepL (Cert.LibMaskedOnline.stepM (Cert.LibMaskedOnline.stepM ⊥ (posT epsR 10 X Y p 0) (negT epsR 10 X p 0) (hit p 0)) (posT epsR 10 X Y p 1) (negT epsR 10 X p 1) (hit p 1)) (Cert.LibMaskedOnline.stepL (Cert.LibMaskedOnline.stepM ⊥ (posT epsR 10 X Y p 0) (negT epsR 10 X p 0) (hit p 0)) (Cert.LibMaskedOnline.stepL ⊥ 0 (posT epsR 10 X Y p 0) (negT epsR 10 X p 0) (hit p 0)) (posT epsR 10 X Y p 1) (negT epsR 10 X p 1) (hit p 1)) (posT epsR 10 X Y p 2) (negT epsR 10 X p 2) (hit p 2)) (posT epsR 10 X Y p 3) (negT epsR 10 X p 3) (hit p 3)) :=
    (blkL_apply m a0 a1 X Y c h0 h1 t p 3 r (by show p.val = t.val / 4 % 4 * 1024 + r.val; omega) (by show ((3 : Fin 4)).val = t.val % 4; omega) (q t.val (by omega)) (outsAt0 m c (t.val - 1) l2).2.1 (outsAt0 m c (t.val - 1) l2).2.2.1).trans (by rw [hM2, hL2])
  have hD3 : blkD m c t (outsAt0 m c (t.val - 1) l2).2.2.2 (ix2 r 0) = (Cert.LibMaskedOnline.stepD (Cert.LibMaskedOnline.stepD (Cert.LibMaskedOnline.stepD (Cert.LibMaskedOnline.stepD 0 (posT epsR 10 X Y p 0) (hit p 0)) (posT epsR 10 X Y p 1) (hit p 1)) (posT epsR 10 X Y p 2) (hit p 2)) (posT epsR 10 X Y p 3) (hit p 3)) :=
    (blkD_apply m a0 a1 X Y c h0 h1 t p 3 r (by show p.val = t.val / 4 % 4 * 1024 + r.val; omega) (by show ((3 : Fin 4)).val = t.val % 4; omega) (q t.val (by omega)) (outsAt0 m c (t.val - 1) l2).2.2.2).trans (by rw [hD2])
  have hout : (outsAt0 m c t.val t.isLt).1 (ix1 r)
      = (blkM m c t (outsAt0 m c (t.val - 1) l2).2.1 (ix2 r 0) + Ideal.log (blkL m c t (outsAt0 m c (t.val - 1) l2).2.1 (outsAt0 m c (t.val - 1) l2).2.2.1 (ix2 r 0)))
        - blkD m c t (outsAt0 m c (t.val - 1) l2).2.2.2 (ix2 r 0) :=
    (congrFun e3 (ix1 r)).trans (Cert.KerPay.pay6_apply _ _ _ r)
  rw [hout, hM3, hL3, hD3]
  have W := walk_eq_loss epsR 10 X Y p
  rw [Cert.LibMaskedOnline.runM_four, Cert.LibMaskedOnline.runL_four, Cert.LibMaskedOnline.runD_four] at W
  exact W

/-- Row t / 4 * 1024 + r of the result, written at the last column tile t of its row tile, is the specification's. -/
theorem entry_out (a0 a1 : SA.Idx → ℝ) (c : Dev nD) (h0 : V m c main_arg0 = lift a0) (h1 : V m c main_arg1 = lift a1)
    (t : Fin cfg0.N) (h3 : t.val % 4 = 3) (r : Fin 1024) :
    (outsAt0 m c t.val t.isLt).1 (ix1 r)
      = ((G epsR 10 a0 a1 ⟨t.val / 4 * 1024 + r.val, by have := t.isLt; have : cfg0.N = 32 := N_0; have := r.isLt; omega⟩ : ℝ) : EReal) := by
  have hN : cfg0.N = 32 := N_0
  have ht : t.val < 32 := by have := t.isLt; omega
  have hr := r.isLt
  by_cases hs : t.val / 16 = 0
  · have hlt : t.val / 4 * 1024 + r.val < 4096 := by omega
    rw [entry_core m a0 a1 a0 a1 c h0 h1 t h3 r ⟨t.val / 4 * 1024 + r.val, hlt⟩
      (by show t.val / 4 * 1024 + r.val = t.val / 4 % 4 * 1024 + r.val; omega) (Or.inl ⟨hs, rfl, rfl⟩)]
    unfold G
    rw [dif_pos (show (⟨t.val / 4 * 1024 + r.val, _⟩ : Fin 8192).val < 4096 from hlt)]
  · have hge : ¬ t.val / 4 * 1024 + r.val < 4096 := by omega
    have hlt : t.val / 4 * 1024 + r.val - 4096 < 4096 := by omega
    rw [entry_core m a0 a1 a1 a0 c h0 h1 t h3 r ⟨t.val / 4 * 1024 + r.val - 4096, hlt⟩
      (by show t.val / 4 * 1024 + r.val - 4096 = t.val / 4 % 4 * 1024 + r.val; omega) (Or.inr ⟨by omega, rfl, rfl⟩)]
    unfold G
    rw [dif_neg (show ¬ (⟨t.val / 4 * 1024 + r.val, _⟩ : Fin 8192).val < 4096 from hge)]

end Cert.KernelIdeal.Fr

end
-- ==== Proof.KernelIdealValue.lean ====
/-
  The result array of the idealized kernel. The block a last column-tile point writes back is, entry by entry, the loss
  of the specification at the block's rows; the eight blocks fill the 8192 result rows; so after the run the result
  array is the specification's result, and both batches are as launched.
-/
import proofs.«108332_j71305047049043_2_alg».proof.Proof.KernelIdealCols
import proofs.«108332_j71305047049043_2_alg».proof.Proof.KernelIdealBlocks
import proofs.«108332_j71305047049043_2_alg».proof.Proof.KernelIdealEntry
import proofs.«108332_j71305047049043_2_alg».proof.Proof.Spec
import proofs.«108332_j71305047049043_2_alg».proof.Proof.LibWords

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The result array after the run

Each block of 1024 result rows is written back once, by the last column-tile point of its row tile, from the three
carried columns; entry by entry that block is the loss of the specification. The eight blocks fill the array. -/

variable (m : (ℓ : Loc nD τ sig) → Buf (Elt Ideal) ℓ) (ρ : Dev nD → PrngReg)
variable (a0 a1 : Cert.Spec.SA.Idx → ℝ)

/-- What point `t` writes back is block `t / 4` of the specification's result. -/
theorem flushed4_eq (c : Dev nD) (h0 : V m c main_arg0 = Cert.Spec.lift a0) (h1 : V m c main_arg1 = Cert.Spec.lift a1)
    (t : Fin cfg0.N) (hf : (cfg0.win 4).flush t = true) :
    (dats m 0 c).flushed 4 t = ((cfg0.win 4).blk t).view.read (Elt Ideal) (Cert.Spec.Garr Cert.Spec.epsR 10 a0 a1) := by
  have h3 : t.val % 4 = 3 := (flush0_4 t).mp hf
  have hN : t.val < 32 := lt_of_lt_of_eq t.isLt (show cfg0.N = 32 from N_0)
  show (cfg0.win 4).cut (grid0.coords t) ((dats m 0 c).after 4 t) = _
  rw [after0_4]
  funext j
  obtain ⟨r, rfl⟩ : ∃ r : Fin 1024, j = ix1 r := ⟨j 0, eq_ix1 j⟩
  rw [View.read_apply]
  refine (entry_out m a0 a1 c h0 h1 t h3 r).trans ?_
  unfold Cert.Spec.Garr
  refine congrArg (fun q : Fin 8192 => ((Cert.Spec.G Cert.Spec.epsR 10 a0 a1 q : ℝ) : EReal)) ?_
  apply Fin.ext
  obtain ⟨-, -, -, -, -, -, -, -, e4, -, -, -⟩ := idx_facts t
  show t.val / 4 * 1024 + r.val = win0_4.index t (0 : Fin 1) * 1024 + 1 * r.val
  rw [e4]; omega

/-- The result array ends holding the specification's result. -/
theorem final4 (c : Dev nD) (h0 : V m c main_arg0 = Cert.Spec.lift a0) (h1 : V m c main_arg1 = Cert.Spec.lift a1) :
    (dats m 0 c).arrAt 4 cfg0.N = Cert.Spec.Garr Cert.Spec.epsR 10 a0 a1 :=
  (dats m 0 c).arrAt_eq_of_cover 4 _ (fun t hf => flushed4_eq m a0 a1 c h0 h1 t hf) cover4

/-- The run, read: the result array at the specification's result, both batches as launched. -/
theorem run (b0 b1 : Dev nD → Cert.Spec.SA.Idx → ℝ)
    (h0 : ∀ c : Dev nD, m ((c.tc : Thread nD τ).loc main_arg0) = Cert.Spec.lift (b0 c)) (h1 : ∀ c : Dev nD, m ((c.tc : Thread nD τ).loc main_arg1) = Cert.Spec.lift (b1 c)) :
    θ_run defs (onTc (τ := τ) (main (F := Ideal))) ⟨m, fun _ => 0, ρ⟩ fun r => ∀ c : Dev nD,
      r.2.mem ((c.tc : Thread nD τ).loc main_v0) = Cert.Spec.Garr Cert.Spec.epsR 10 (b0 c) (b1 c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 4).trans (final4 m (b0 c) (b1 c) c (h0 c) (h1 c)),
      ((h c).1 0).trans (((dats m 0 c).arrAt_in 0 rfl _).trans (A_eq m c 0)),
      ((h c).1 1).trans (((dats m 0 c).arrAt_in 1 rfl _).trans (A_eq m c 1))⟩) (run_main m ρ)

end Cert.KernelIdeal.Fr

end
-- ==== Proof.LibWriteOnce.lean ====
/-
  A straight line of host operations in which every buffer is written at most once.

  When each operation of a list writes exactly one buffer, no buffer is written by two of them, and every operand of an
  operation is either never written or written earlier in the list, the fold of the operations' results over any starting
  contents is a fixed point at every written buffer: what the line leaves in an operation's result buffer is the operation's
  function of what the line leaves in its operands' buffers, and a buffer the line never writes holds what it held. Stated
  per kind of operation (no operand, one, two, n, three, four), with the side conditions `reference ∉ the buffers written from
  position k on`, which are decided on literal lists. This reads a long straight-line program one operation at a time, with
  no term ever holding the whole composition.
-/
import Idealize.ShloMosaic.Lib.StableHlo.Run

noncomputable section

/-! ## A straight line of operations in which every buffer is written at most once

Every operation of the reference's @main writes one buffer, no buffer is written twice, and every operand is written before
it is read. Then what the line leaves in an operation's result buffer is the operation's function of what the line leaves in
its operands' buffers, and a buffer the line never writes holds what it held. -/

namespace Cert.RefSSA

open Idealize.ShloMosaic Idealize.ShloMosaic.StableHlo

variable {τ : Topo} {sig : RefSig} {Val : EltTy → Type}

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Position by position, the operation writes exactly the listed reference. -/
abbrev Writes (l : List (HloOp τ sig Val)) (wl : List (Ref sig .tc)) : Prop :=
  List.Forall₂ (fun op r => op.writes = {Proc.devRef (τ := τ) .tc r}) l wl

theorem writes_mem {l : List (HloOp τ sig Val)} {wl : List (Ref sig .tc)} (h : Writes l wl) {op : HloOp τ sig Val} (hop : op ∈ l) :
    ∃ r ∈ wl, op.writes = {Proc.devRef (τ := τ) .tc r} := by
  induction h with
  | nil => cases hop
  | @cons o r l' wl' hw _ ih =>
    rcases List.mem_cons.mp hop with rfl | hop
    · exact ⟨r, List.mem_cons.mpr (Or.inl rfl), hw⟩
    · obtain ⟨r', hr', e⟩ := ih hop
      exact ⟨r', List.mem_cons.mpr (Or.inr hr'), e⟩

/-- A reference that is not listed keeps its contents. -/
theorem after_keep {l : List (HloOp τ sig Val)} {wl : List (Ref sig .tc)} (h : Writes l wl) {r : Ref sig .tc} (hr : r ∉ wl)
    (V : Valuation τ sig Val) : after l V (Proc.devRef .tc r) = V (Proc.devRef .tc r) := by
  refine after_of_forall_not_mem l V fun op hop hb => ?_
  obtain ⟨r', hr', e⟩ := writes_mem h hop
  rw [e, Finset.mem_singleton] at hb
  exact hr (by rw [Proc.devRef_injective _ hb]; exact hr')

theorem after_take_drop (l : List (HloOp τ sig Val)) (k : ℕ) (V : Valuation τ sig Val) :
    after l V = after (l.drop k) (after (l.take k) V) := by
  rw [← after_app, List.take_append_drop]

theorem after_at {l : List (HloOp τ sig Val)} {k : ℕ} {op : HloOp τ sig Val} (hop : l[k]? = some op) (V : Valuation τ sig Val) :
    after l V = after (l.drop (k + 1)) (op.result (after (l.take k) V)) := by
  obtain ⟨hk, e⟩ := List.getElem?_eq_some_iff.mp hop
  rw [after_take_drop l k V, List.drop_eq_getElem_cons hk, e, after_cons]

section
variable {l : List (HloOp τ sig Val)} {wl : List (Ref sig .tc)} (h : Writes l wl) (V : Valuation τ sig Val) (k : ℕ)
include h

/-- An operand not written from position k on holds, at the end, what it held before position k. -/
theorem operand_eq {a : Ref sig .tc} (ha : a ∉ wl.drop k) :
    after l V (Proc.devRef .tc a) = after (l.take k) V (Proc.devRef .tc a) := by
  rw [after_take_drop l k V]
  exact after_keep (List.forall₂_drop k h) ha _

/-- The result of the operation at position k, not written afterwards, holds at the end what that operation left. -/
theorem result_eq {op : HloOp τ sig Val} (hop : l[k]? = some op) {y : Ref sig .tc} (hy : y ∉ wl.drop (k + 1)) :
    after l V (Proc.devRef .tc y) = op.result (after (l.take k) V) (Proc.devRef .tc y) := by
  rw [after_at hop V]
  exact after_keep (List.forall₂_drop (k + 1) h) hy _

theorem ssa_nullary {y : Ref sig .tc} {v : y.ty.Contents Val} {hy}
    (hop : l[k]? = some (nullary y v hy)) (hy' : y ∉ wl.drop (k + 1)) :
    after l V (Proc.devRef .tc y) = v := by
  rw [result_eq h V k hop hy', nullary_result]

theorem ssa_unary {x y : Ref sig .tc} {f : x.ty.Contents Val → y.ty.Contents Val} {hx hy}
    (hop : l[k]? = some (unary x y f hx hy)) (hy' : y ∉ wl.drop (k + 1)) (hx' : x ∉ wl.drop k)
    (vx : x.ty.Contents Val) (ex : after l V (Proc.devRef .tc x) = vx) :
    after l V (Proc.devRef .tc y) = f vx := by
  rw [result_eq h V k hop hy', unary_result, ← operand_eq h V k hx', ex]

theorem ssa_binary {a b y : Ref sig .tc} {f : a.ty.Contents Val → b.ty.Contents Val → y.ty.Contents Val} {ha hb hy}
    (hop : l[k]? = some (binary a b y f ha hb hy)) (hy' : y ∉ wl.drop (k + 1)) (ha' : a ∉ wl.drop k) (hb' : b ∉ wl.drop k)
    (va : a.ty.Contents Val) (vb : b.ty.Contents Val)
    (ea : after l V (Proc.devRef .tc a) = va) (eb : after l V (Proc.devRef .tc b) = vb) :
    after l V (Proc.devRef .tc y) = f va vb := by
  rw [result_eq h V k hop hy', binary_result, ← operand_eq h V k ha', ← operand_eq h V k hb', ea, eb]

theorem ssa_nary {n : ℕ} {xs : Fin n → Ref sig .tc} {y : Ref sig .tc}
    {f : ((i : Fin n) → (xs i).ty.Contents Val) → y.ty.Contents Val} {hxs hy}
    (hop : l[k]? = some (nary xs y f hxs hy)) (hy' : y ∉ wl.drop (k + 1)) (hx' : ∀ i, xs i ∉ wl.drop k)
    (vs : (i : Fin n) → (xs i).ty.Contents Val) (es : ∀ i, after l V (Proc.devRef .tc (xs i)) = vs i) :
    after l V (Proc.devRef .tc y) = f vs := by
  rw [result_eq h V k hop hy', nary_result]
  exact congrArg f (funext fun i => by rw [← operand_eq h V k (hx' i), es i])

theorem ssa_nary4 {x0 x1 x2 x3 y : Ref sig .tc}
    {f : ((i : Fin 4) → ((![x0, x1, x2, x3] : Fin 4 → Ref sig .tc) i).ty.Contents Val) → y.ty.Contents Val} {hxs hy}
    (hop : l[k]? = some (nary ![x0, x1, x2, x3] y f hxs hy)) (hy' : y ∉ wl.drop (k + 1))
    (h0 : x0 ∉ wl.drop k) (h1 : x1 ∉ wl.drop k) (h2 : x2 ∉ wl.drop k) (h3 : x3 ∉ wl.drop k)
    (v0 : x0.ty.Contents Val) (v1 : x1.ty.Contents Val) (v2 : x2.ty.Contents Val) (v3 : x3.ty.Contents Val)
    (e0 : after l V (Proc.devRef .tc x0) = v0) (e1 : after l V (Proc.devRef .tc x1) = v1)
    (e2 : after l V (Proc.devRef .tc x2) = v2) (e3 : after l V (Proc.devRef .tc x3) = v3) :
    after l V (Proc.devRef .tc y) = f (Fin.cons v0 (Fin.cons v1 (Fin.cons v2 (Fin.cons v3 (fun i => i.elim0))))) :=
  ssa_nary h V k hop hy' (fun i => by fin_cases i; exacts [h0, h1, h2, h3]) _ (fun i => by fin_cases i; exacts [e0, e1, e2, e3])

theorem ssa_nary3 {x0 x1 x2 y : Ref sig .tc}
    {f : ((i : Fin 3) → ((![x0, x1, x2] : Fin 3 → Ref sig .tc) i).ty.Contents Val) → y.ty.Contents Val} {hxs hy}
    (hop : l[k]? = some (nary ![x0, x1, x2] y f hxs hy)) (hy' : y ∉ wl.drop (k + 1))
    (h0 : x0 ∉ wl.drop k) (h1 : x1 ∉ wl.drop k) (h2 : x2 ∉ wl.drop k)
    (v0 : x0.ty.Contents Val) (v1 : x1.ty.Contents Val) (v2 : x2.ty.Contents Val)
    (e0 : after l V (Proc.devRef .tc x0) = v0) (e1 : after l V (Proc.devRef .tc x1) = v1)
    (e2 : after l V (Proc.devRef .tc x2) = v2) :
    after l V (Proc.devRef .tc y) = f (Fin.cons v0 (Fin.cons v1 (Fin.cons v2 (fun i => i.elim0)))) :=
  ssa_nary h V k hop hy' (fun i => by fin_cases i; exacts [h0, h1, h2]) _ (fun i => by fin_cases i; exacts [e0, e1, e2])

end

end Cert.RefSSA

end
-- ==== Proof.LibWriteOnce2.lean ====
/-
  Two more kinds of operation in a straight line of host operations in which every buffer is written at most once.

  As for the operations of no, one, two or n operands: when every operation of the line writes exactly one buffer, no
  buffer is written twice and every operand is written before it is read, what the line leaves in the result buffer of
  an operation of three operands is the operation's function of what the line leaves in the three operands' buffers;
  and what it leaves in the result buffer of a reshape is the operand's contents, as the line leaves them, read in
  row-major order at the result's shape.
-/
import proofs.«108332_j71305047049043_2_alg».proof.Proof.LibWriteOnce

noncomputable section

namespace Cert.RefSSA

open Idealize.ShloMosaic Idealize.ShloMosaic.StableHlo

variable {τ : Topo} {sig : RefSig} {Val : EltTy → Type}

section
variable {l : List (HloOp τ sig Val)} {wl : List (Ref sig .tc)} (h : Writes l wl) (V : Valuation τ sig Val) (k : ℕ)
include h

/-- An operation of three operands at position `k`: its result buffer ends at its function of the three operands'
    final contents. -/
theorem ssa_ternary {c a b y : Ref sig .tc}
    {f : c.ty.Contents Val → a.ty.Contents Val → b.ty.Contents Val → y.ty.Contents Val} {hc ha hb hy}
    (hop : l[k]? = some (ternary c a b y f hc ha hb hy)) (hy' : y ∉ wl.drop (k + 1))
    (hc' : c ∉ wl.drop k) (ha' : a ∉ wl.drop k) (hb' : b ∉ wl.drop k)
    (vc : c.ty.Contents Val) (va : a.ty.Contents Val) (vb : b.ty.Contents Val)
    (ec : after l V (Proc.devRef .tc c) = vc) (ea : after l V (Proc.devRef .tc a) = va)
    (eb : after l V (Proc.devRef .tc b) = vb) :
    after l V (Proc.devRef .tc y) = f vc va vb := by
  rw [result_eq h V k hop hy', ternary_result, ← operand_eq h V k hc', ← operand_eq h V k ha',
    ← operand_eq h V k hb', ec, ea, eb]

/-- A reshape at position `k`: its result buffer ends at the operand's final contents, read in row-major order at the
    result's shape. -/
theorem ssa_reshape {x y : Ref sig .tc} {he : x.ty.elt = y.ty.elt} {hn : x.ty.shape.ShapeCasts y.ty.shape} {hx hy}
    (hop : l[k]? = some (reshape x y he hn hx hy)) (hy' : y ∉ wl.drop (k + 1)) (hx' : x ∉ wl.drop k)
    (vx : x.ty.Contents Val) (ex : after l V (Proc.devRef .tc x) = vx) :
    after l V (Proc.devRef .tc y) = fun i => he ▸ shapeCast y.ty.shape vx hn i := by
  rw [result_eq h V k hop hy', reshape_result, ← operand_eq h V k hx', ex]

end

end Cert.RefSSA

end
-- ==== Proof.RefStages.lean ====
/-
  The reference, one host operation at a time. Its program is a straight line of 94 operations in which every buffer is
  written exactly once and every operand is written before it is read. So what the line leaves in an operation's
  buffer is the operation's function of what it leaves in its operands' buffers, and the two argument buffers keep
  their contents; reading the line in order, the buffer of each operation ends at the corresponding stage of the chain
  of stages — each a function of the two argument arrays — and the result buffer at the last stage.
-/
import proofs.«108332_j71305047049043_2_alg».proof.Proof.RefRunP
import proofs.«108332_j71305047049043_2_alg».proof.Proof.RefReadP
import proofs.«108332_j71305047049043_2_alg».proof.Proof.LibWriteOnce2

set_option maxRecDepth 16384

noncomputable section

namespace Cert.RefStages

open Cert.ReferenceIdeal Cert.ReferenceIdeal.Gen Cert.ReferenceIdeal.ValueP Cert.ReferenceIdeal.ReadP Cert.RefSSA
open Idealize.ShloMosaic Idealize.ShloMosaic.TcCoe Idealize.SL.Sem Idealize.ShloMosaic.StableHlo

variable {F : FTy → Type} [FloatOps F]

/-- The buffers the 94 operations write, in order. -/
def wl : List (Ref sig .tc) :=
  [main_call0_v0, main_call0_cst, main_call0_v1, main_call0_v2, main_v0, main_cst, main_v1, main_v2, main_v3, main_v4, main_call1_v0, main_call1_cst, main_call1_v1, main_call1_v2, main_v5, main_cst_0, main_v6, main_v7, main_v8, main_v9, main_v10, main_v11, main_cst_1, main_v12, main_v13, main_v14, main_v15, main_cst_2, main_v16, main_v17, main_v18, main_v19, main_cst_3, main_v20, main_v21, main_v22, main_v23, main_c, main_v24, main_v25, main_v26, main_cst_4, main_call2_v0, main_call2_v1, main_v27, main_cst_5, main_call3_v0, main_call3_v1, main_v28, main_v29, main_v30, main_v31, main_v32, main_v33, main_call4_cst, main_call4_v0, main_call4_cst_0, main_call4_v1, main_call4_v2, main_call4_v3, main_call4_v4, main_call4_v5, main_call4_v6, main_call4_cst_1, main_call4_v7, main_call4_v8, main_call4_v9, main_call4_v10, main_v34, main_v35, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v36, main_v37, main_v38]

/-- Position by position, each operation writes exactly the listed buffer. -/
theorem hW : Writes (ops (F := F)) wl := by
  unfold Writes wl
  repeat (first | exact List.Forall₂.nil | refine List.Forall₂.cons rfl ?_)

variable (V : Valuation τ sig (Elt F))

/-- The two argument buffers are written by no operation. -/
theorem keep0 : after (ops (F := F)) V (Proc.devRef .tc main_arg0) = V (Proc.devRef .tc main_arg0) := after_keep hW (by decide) V
theorem keep1 : after (ops (F := F)) V (Proc.devRef .tc main_arg1) = V (Proc.devRef .tc main_arg1) := after_keep hW (by decide) V

/-! ## The stages, in program order -/

theorem st_main_call0_v0 : after (ops (F := F)) V (Proc.devRef .tc main_call0_v0) = val_main_call0_v0 (F := F) (V (Proc.devRef .tc main_arg0)) :=
  (ssa_binary hW V 0 (show (ops (F := F))[0]? = some (binary main_arg0 main_arg0 main_call0_v0 ((mulf) : (⟨S4096x256, .f32⟩ : BufTy).Contents (Elt F) → (⟨S4096x256, .f32⟩ : BufTy).Contents (Elt F) → (⟨S4096x256, .f32⟩ : BufTy).Contents (Elt F))) from rfl) (by decide) (by decide) (by decide) _ _ (keep0 V) (keep0 V)).trans rfl

theorem st_main_call0_cst : after (ops (F := F)) V (Proc.devRef .tc main_call0_cst) = val_main_call0_cst (F := F) :=
  (ssa_nullary hW V 1 (show (ops (F := F))[1]? = some (nullary main_call0_cst ((constant S_ .f32 0x00000000#32) : (⟨S_, .f32⟩ : BufTy).Contents (Elt F))) from rfl) (by decide)).trans rfl

theorem st_main_call0_v1 : after (ops (F := F)) V (Proc.devRef .tc main_call0_v1) = val_main_call0_v1 (F := F) (V (Proc.devRef .tc main_arg0)) :=
  (ssa_binary hW V 2 (show (ops (F := F))[2]? = some (binary main_call0_v0 main_call0_cst main_call0_v1 (((fun x v => Host.reduceAdd x v reducesTo_S4096x256_S4096_d1 h_S_)) : (⟨S4096x256, .f32⟩ : BufTy).Contents (Elt F) → (⟨S_, .f32⟩ : BufTy).Contents (Elt F) → (⟨S4096, .f32⟩ : BufTy).Contents (Elt F))) from rfl) (by decide) (by decide) (by decide) _ _ (st_main_call0_v0 V) (st_main_call0_cst V)).trans rfl

theorem st_main_call0_v2 : after (ops (F := F)) V (Proc.devRef .tc main_call0_v2) = val_main_call0_v2 (F := F) (V (Proc.devRef .tc main_arg0)) :=
  (ssa_unary hW V 3 (show (ops (F := F))[3]? = some (unary main_call0_v1 main_call0_v2 (((broadcastInDim S4096x1 ![0] bcast_S4096_S4096x1_0)) : (⟨S4096, .f32⟩ : BufTy).Contents (Elt F) → (⟨S4096x1, .f32⟩ : BufTy).Contents (Elt F))) from rfl) (by decide) (by decide) _ (st_main_call0_v1 V)).trans rfl

theorem st_main_v0 : after (ops (F := F)) V (Proc.devRef .tc main_v0) = val_main_v0 (F := F) (V (Proc.devRef .tc main_arg0)) :=
  (ssa_unary hW V 4 (show (ops (F := F))[4]? = some (unary main_call0_v2 main_v0 ((Host.sqrt) : (⟨S4096x1, .f32⟩ : BufTy).Contents (Elt F) → (⟨S4096x1, .f32⟩ : BufTy).Contents (Elt F))) from rfl) (by decide) (by decide) _ (st_main_call0_v2 V)).trans rfl

theorem st_main_cst : after (ops (F := F)) V (Proc.devRef .tc main_cst) = val_main_cst (F := F) :=
  (ssa_nullary hW V 5 rfl (by decide)).trans rfl

theorem st_main_v1 : after (ops (F := F)) V (Proc.devRef .tc main_v1) = val_main_v1 (F := F) :=
  (ssa_unary hW V 6 rfl (by decide) (by decide) _ (st_main_cst V)).trans rfl

theorem st_main_v2 : after (ops (F := F)) V (Proc.devRef .tc main_v2) = val_main_v2 (F := F) (V (Proc.devRef .tc main_arg0)) :=
  (ssa_binary hW V 7 rfl (by decide) (by decide) (by decide) _ _ (st_main_v0 V) (st_main_v1 V)).trans rfl

theorem st_main_v3 : after (ops (F := F)) V (Proc.devRef .tc main_v3) = val_main_v3 (F := F) (V (Proc.devRef .tc main_arg0)) :=
  (ssa_unary hW V 8 rfl (by decide) (by decide) _ (st_main_v2 V)).trans rfl

theorem st_main_v4 : after (ops (F := F)) V (Proc.devRef .tc main_v4) = val_main_v4 (F := F) (V (Proc.devRef .tc main_arg0)) :=
  (ssa_binary hW V 9 rfl (by decide) (by decide) (by decide) _ _ (keep0 V) (st_main_v3 V)).trans rfl

theorem st_main_call1_v0 : after (ops (F := F)) V (Proc.devRef .tc main_call1_v0) = val_main_call1_v0 (F := F) (V (Proc.devRef .tc main_arg1)) :=
  (ssa_binary hW V 10 (show (ops (F := F))[10]? = some (binary main_arg1 main_arg1 main_call1_v0 ((mulf) : (⟨S4096x256, .f32⟩ : BufTy).Contents (Elt F) → (⟨S4096x256, .f32⟩ : BufTy).Contents (Elt F) → (⟨S4096x256, .f32⟩ : BufTy).Contents (Elt F))) from rfl) (by decide) (by decide) (by decide) _ _ (keep1 V) (keep1 V)).trans rfl

theorem st_main_call1_cst : after (ops (F := F)) V (Proc.devRef .tc main_call1_cst) = val_main_call1_cst (F := F) :=
  (ssa_nullary hW V 11 (show (ops (F := F))[11]? = some (nullary main_call1_cst ((constant S_ .f32 0x00000000#32) : (⟨S_, .f32⟩ : BufTy).Contents (Elt F))) from rfl) (by decide)).trans rfl

theorem st_main_call1_v1 : after (ops (F := F)) V (Proc.devRef .tc main_call1_v1) = val_main_call1_v1 (F := F) (V (Proc.devRef .tc main_arg1)) :=
  (ssa_binary hW V 12 (show (ops (F := F))[12]? = some (binary main_call1_v0 main_call1_cst main_call1_v1 (((fun x v => Host.reduceAdd x v reducesTo_S4096x256_S4096_d1 h_S_)) : (⟨S4096x256, .f32⟩ : BufTy).Contents (Elt F) → (⟨S_, .f32⟩ : BufTy).Contents (Elt F) → (⟨S4096, .f32⟩ : BufTy).Contents (Elt F))) from rfl) (by decide) (by decide) (by decide) _ _ (st_main_call1_v0 V) (st_main_call1_cst V)).trans rfl

theorem st_main_call1_v2 : after (ops (F := F)) V (Proc.devRef .tc main_call1_v2) = val_main_call1_v2 (F := F) (V (Proc.devRef .tc main_arg1)) :=
  (ssa_unary hW V 13 (show (ops (F := F))[13]? = some (unary main_call1_v1 main_call1_v2 (((broadcastInDim S4096x1 ![0] bcast_S4096_S4096x1_0)) : (⟨S4096, .f32⟩ : BufTy).Contents (Elt F) → (⟨S4096x1, .f32⟩ : BufTy).Contents (Elt F))) from rfl) (by decide) (by decide) _ (st_main_call1_v1 V)).trans rfl

theorem st_main_v5 : after (ops (F := F)) V (Proc.devRef .tc main_v5) = val_main_v5 (F := F) (V (Proc.devRef .tc main_arg1)) :=
  (ssa_unary hW V 14 (show (ops (F := F))[14]? = some (unary main_call1_v2 main_v5 ((Host.sqrt) : (⟨S4096x1, .f32⟩ : BufTy).Contents (Elt F) → (⟨S4096x1, .f32⟩ : BufTy).Contents (Elt F))) from rfl) (by decide) (by decide) _ (st_main_call1_v2 V)).trans rfl

theorem st_main_cst_0 : after (ops (F := F)) V (Proc.devRef .tc main_cst_0) = val_main_cst_0 (F := F) :=
  (ssa_nullary hW V 15 rfl (by decide)).trans rfl

theorem st_main_v6 : after (ops (F := F)) V (Proc.devRef .tc main_v6) = val_main_v6 (F := F) :=
  (ssa_unary hW V 16 rfl (by decide) (by decide) _ (st_main_cst_0 V)).trans rfl

theorem st_main_v7 : after (ops (F := F)) V (Proc.devRef .tc main_v7) = val_main_v7 (F := F) (V (Proc.devRef .tc main_arg1)) :=
  (ssa_binary hW V 17 rfl (by decide) (by decide) (by decide) _ _ (st_main_v5 V) (st_main_v6 V)).trans rfl

theorem st_main_v8 : after (ops (F := F)) V (Proc.devRef .tc main_v8) = val_main_v8 (F := F) (V (Proc.devRef .tc main_arg1)) :=
  (ssa_unary hW V 18 rfl (by decide) (by decide) _ (st_main_v7 V)).trans rfl

theorem st_main_v9 : after (ops (F := F)) V (Proc.devRef .tc main_v9) = val_main_v9 (F := F) (V (Proc.devRef .tc main_arg1)) :=
  (ssa_binary hW V 19 rfl (by decide) (by decide) (by decide) _ _ (keep1 V) (st_main_v8 V)).trans rfl

theorem st_main_v10 : after (ops (F := F)) V (Proc.devRef .tc main_v10) = val_main_v10 (F := F) (V (Proc.devRef .tc main_arg0)) :=
  (ssa_unary hW V 20 rfl (by decide) (by decide) _ (st_main_v4 V)).trans rfl

theorem st_main_v11 : after (ops (F := F)) V (Proc.devRef .tc main_v11) = val_main_v11 (F := F) (V (Proc.devRef .tc main_arg0)) :=
  (ssa_binary hW V 21 rfl (by decide) (by decide) (by decide) _ _ (st_main_v4 V) (st_main_v10 V)).trans rfl

theorem st_main_cst_1 : after (ops (F := F)) V (Proc.devRef .tc main_cst_1) = val_main_cst_1 (F := F) :=
  (ssa_nullary hW V 22 rfl (by decide)).trans rfl

theorem st_main_v12 : after (ops (F := F)) V (Proc.devRef .tc main_v12) = val_main_v12 (F := F) :=
  (ssa_unary hW V 23 rfl (by decide) (by decide) _ (st_main_cst_1 V)).trans rfl

theorem st_main_v13 : after (ops (F := F)) V (Proc.devRef .tc main_v13) = val_main_v13 (F := F) (V (Proc.devRef .tc main_arg0)) :=
  (ssa_binary hW V 24 rfl (by decide) (by decide) (by decide) _ _ (st_main_v11 V) (st_main_v12 V)).trans rfl

theorem st_main_v14 : after (ops (F := F)) V (Proc.devRef .tc main_v14) = val_main_v14 (F := F) (V (Proc.devRef .tc main_arg1)) :=
  (ssa_unary hW V 25 rfl (by decide) (by decide) _ (st_main_v9 V)).trans rfl

theorem st_main_v15 : after (ops (F := F)) V (Proc.devRef .tc main_v15) = val_main_v15 (F := F) (V (Proc.devRef .tc main_arg1)) :=
  (ssa_binary hW V 26 rfl (by decide) (by decide) (by decide) _ _ (st_main_v9 V) (st_main_v14 V)).trans rfl

theorem st_main_cst_2 : after (ops (F := F)) V (Proc.devRef .tc main_cst_2) = val_main_cst_2 (F := F) :=
  (ssa_nullary hW V 27 rfl (by decide)).trans rfl

theorem st_main_v16 : after (ops (F := F)) V (Proc.devRef .tc main_v16) = val_main_v16 (F := F) :=
  (ssa_unary hW V 28 rfl (by decide) (by decide) _ (st_main_cst_2 V)).trans rfl

theorem st_main_v17 : after (ops (F := F)) V (Proc.devRef .tc main_v17) = val_main_v17 (F := F) (V (Proc.devRef .tc main_arg1)) :=
  (ssa_binary hW V 29 rfl (by decide) (by decide) (by decide) _ _ (st_main_v15 V) (st_main_v16 V)).trans rfl

theorem st_main_v18 : after (ops (F := F)) V (Proc.devRef .tc main_v18) = val_main_v18 (F := F) (V (Proc.devRef .tc main_arg1)) :=
  (ssa_unary hW V 30 rfl (by decide) (by decide) _ (st_main_v9 V)).trans rfl

theorem st_main_v19 : after (ops (F := F)) V (Proc.devRef .tc main_v19) = val_main_v19 (F := F) (V (Proc.devRef .tc main_arg0)) (V (Proc.devRef .tc main_arg1)) :=
  (ssa_binary hW V 31 rfl (by decide) (by decide) (by decide) _ _ (st_main_v4 V) (st_main_v18 V)).trans rfl

theorem st_main_cst_3 : after (ops (F := F)) V (Proc.devRef .tc main_cst_3) = val_main_cst_3 (F := F) :=
  (ssa_nullary hW V 32 rfl (by decide)).trans rfl

theorem st_main_v20 : after (ops (F := F)) V (Proc.devRef .tc main_v20) = val_main_v20 (F := F) :=
  (ssa_unary hW V 33 rfl (by decide) (by decide) _ (st_main_cst_3 V)).trans rfl

theorem st_main_v21 : after (ops (F := F)) V (Proc.devRef .tc main_v21) = val_main_v21 (F := F) (V (Proc.devRef .tc main_arg0)) (V (Proc.devRef .tc main_arg1)) :=
  (ssa_binary hW V 34 rfl (by decide) (by decide) (by decide) _ _ (st_main_v19 V) (st_main_v20 V)).trans rfl

theorem st_main_v22 : after (ops (F := F)) V (Proc.devRef .tc main_v22) = val_main_v22 (F := F) :=
  (ssa_nullary hW V 35 rfl (by decide)).trans rfl

theorem st_main_v23 : after (ops (F := F)) V (Proc.devRef .tc main_v23) = val_main_v23 (F := F) :=
  (ssa_nullary hW V 36 rfl (by decide)).trans rfl

theorem st_main_c : after (ops (F := F)) V (Proc.devRef .tc main_c) = val_main_c (F := F) :=
  (ssa_nullary hW V 37 rfl (by decide)).trans rfl

theorem st_main_v24 : after (ops (F := F)) V (Proc.devRef .tc main_v24) = val_main_v24 (F := F) :=
  (ssa_unary hW V 38 rfl (by decide) (by decide) _ (st_main_c V)).trans rfl

theorem st_main_v25 : after (ops (F := F)) V (Proc.devRef .tc main_v25) = val_main_v25 (F := F) :=
  (ssa_binary hW V 39 rfl (by decide) (by decide) (by decide) _ _ (st_main_v22 V) (st_main_v24 V)).trans rfl

theorem st_main_v26 : after (ops (F := F)) V (Proc.devRef .tc main_v26) = val_main_v26 (F := F) :=
  (ssa_binary hW V 40 rfl (by decide) (by decide) (by decide) _ _ (st_main_v25 V) (st_main_v23 V)).trans rfl

theorem st_main_cst_4 : after (ops (F := F)) V (Proc.devRef .tc main_cst_4) = val_main_cst_4 (F := F) :=
  (ssa_nullary hW V 41 rfl (by decide)).trans rfl

theorem st_main_call2_v0 : after (ops (F := F)) V (Proc.devRef .tc main_call2_v0) = val_main_call2_v0 (F := F) :=
  (ssa_unary hW V 42 (show (ops (F := F))[42]? = some (unary main_cst_4 main_call2_v0 ((id) : (⟨S_, .f32⟩ : BufTy).Contents (Elt F) → (⟨S_, .f32⟩ : BufTy).Contents (Elt F))) from rfl) (by decide) (by decide) _ (st_main_cst_4 V)).trans rfl

theorem st_main_call2_v1 : after (ops (F := F)) V (Proc.devRef .tc main_call2_v1) = val_main_call2_v1 (F := F) :=
  (ssa_unary hW V 43 (show (ops (F := F))[43]? = some (unary main_call2_v0 main_call2_v1 (((broadcastInDim S4096x4096 ![] bcast_S_S4096x4096)) : (⟨S_, .f32⟩ : BufTy).Contents (Elt F) → (⟨S4096x4096, .f32⟩ : BufTy).Contents (Elt F))) from rfl) (by decide) (by decide) _ (st_main_call2_v0 V)).trans rfl

theorem st_main_v27 : after (ops (F := F)) V (Proc.devRef .tc main_v27) = val_main_v27 (F := F) (V (Proc.devRef .tc main_arg0)) :=
  (ssa_ternary hW V 44 (show (ops (F := F))[44]? = some (ternary main_v26 main_call2_v1 main_v13 main_v27 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F))) from rfl) (by decide) (by decide) (by decide) (by decide) _ _ _ (st_main_v26 V) (st_main_call2_v1 V) (st_main_v13 V)).trans rfl

theorem st_main_cst_5 : after (ops (F := F)) V (Proc.devRef .tc main_cst_5) = val_main_cst_5 (F := F) :=
  (ssa_nullary hW V 45 rfl (by decide)).trans rfl

theorem st_main_call3_v0 : after (ops (F := F)) V (Proc.devRef .tc main_call3_v0) = val_main_call3_v0 (F := F) :=
  (ssa_unary hW V 46 (show (ops (F := F))[46]? = some (unary main_cst_5 main_call3_v0 ((id) : (⟨S_, .f32⟩ : BufTy).Contents (Elt F) → (⟨S_, .f32⟩ : BufTy).Contents (Elt F))) from rfl) (by decide) (by decide) _ (st_main_cst_5 V)).trans rfl

theorem st_main_call3_v1 : after (ops (F := F)) V (Proc.devRef .tc main_call3_v1) = val_main_call3_v1 (F := F) :=
  (ssa_unary hW V 47 (show (ops (F := F))[47]? = some (unary main_call3_v0 main_call3_v1 (((broadcastInDim S4096x4096 ![] bcast_S_S4096x4096)) : (⟨S_, .f32⟩ : BufTy).Contents (Elt F) → (⟨S4096x4096, .f32⟩ : BufTy).Contents (Elt F))) from rfl) (by decide) (by decide) _ (st_main_call3_v0 V)).trans rfl

theorem st_main_v28 : after (ops (F := F)) V (Proc.devRef .tc main_v28) = val_main_v28 (F := F) (V (Proc.devRef .tc main_arg1)) :=
  (ssa_ternary hW V 48 (show (ops (F := F))[48]? = some (ternary main_v26 main_call3_v1 main_v17 main_v28 ((select) : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F))) from rfl) (by decide) (by decide) (by decide) (by decide) _ _ _ (st_main_v26 V) (st_main_call3_v1 V) (st_main_v17 V)).trans rfl

theorem st_main_v29 : after (ops (F := F)) V (Proc.devRef .tc main_v29) = val_main_v29 (F := F) (V (Proc.devRef .tc main_arg0)) (V (Proc.devRef .tc main_arg1)) :=
  (ssa_binary hW V 49 rfl (by decide) (by decide) (by decide) _ _ (st_main_v21 V) (st_main_v27 V)).trans rfl

theorem st_main_v30 : after (ops (F := F)) V (Proc.devRef .tc main_v30) = val_main_v30 (F := F) (V (Proc.devRef .tc main_arg0)) (V (Proc.devRef .tc main_arg1)) :=
  (ssa_unary hW V 50 rfl (by decide) (by decide) _ (st_main_v21 V)).trans rfl

theorem st_main_v31 : after (ops (F := F)) V (Proc.devRef .tc main_v31) = val_main_v31 (F := F) (V (Proc.devRef .tc main_arg0)) (V (Proc.devRef .tc main_arg1)) :=
  (ssa_binary hW V 51 rfl (by decide) (by decide) (by decide) _ _ (st_main_v28 V) (st_main_v30 V)).trans rfl

theorem st_main_v32 : after (ops (F := F)) V (Proc.devRef .tc main_v32) = val_main_v32 (F := F) (V (Proc.devRef .tc main_arg0)) (V (Proc.devRef .tc main_arg1)) :=
  (ssa_binary hW V 52 rfl (by decide) (by decide) (by decide) _ _ (st_main_v29 V) (st_main_v31 V)).trans rfl

theorem st_main_v33 : after (ops (F := F)) V (Proc.devRef .tc main_v33) = val_main_v33 (F := F) :=
  (ssa_nullary hW V 53 rfl (by decide)).trans rfl

theorem st_main_call4_cst : after (ops (F := F)) V (Proc.devRef .tc main_call4_cst) = val_main_call4_cst (F := F) :=
  (ssa_nullary hW V 54 (show (ops (F := F))[54]? = some (nullary main_call4_cst ((constant S_ .f32 0xFF800000#32) : (⟨S_, .f32⟩ : BufTy).Contents (Elt F))) from rfl) (by decide)).trans rfl

theorem st_main_call4_v0 : after (ops (F := F)) V (Proc.devRef .tc main_call4_v0) = val_main_call4_v0 (F := F) (V (Proc.devRef .tc main_arg0)) (V (Proc.devRef .tc main_arg1)) :=
  (ssa_binary hW V 55 rfl (by decide) (by decide) (by decide) _ _ (st_main_v32 V) (st_main_call4_cst V)).trans (by simp only [TRef.toBuf, TRef.ofBuf, cast_eq]; rfl)

theorem st_main_call4_cst_0 : after (ops (F := F)) V (Proc.devRef .tc main_call4_cst_0) = val_main_call4_cst_0 (F := F) :=
  (ssa_nullary hW V 56 (show (ops (F := F))[56]? = some (nullary main_call4_cst_0 ((constant S_ .f32 0xFF800000#32) : (⟨S_, .f32⟩ : BufTy).Contents (Elt F))) from rfl) (by decide)).trans rfl

theorem st_main_call4_v1 : after (ops (F := F)) V (Proc.devRef .tc main_call4_v1) = val_main_call4_v1 (F := F) :=
  (ssa_unary hW V 57 (show (ops (F := F))[57]? = some (unary main_call4_cst_0 main_call4_v1 (((broadcastInDim S8192 ![] bcast_S_S8192)) : (⟨S_, .f32⟩ : BufTy).Contents (Elt F) → (⟨S8192, .f32⟩ : BufTy).Contents (Elt F))) from rfl) (by decide) (by decide) _ (st_main_call4_cst_0 V)).trans rfl

theorem st_main_call4_v2 : after (ops (F := F)) V (Proc.devRef .tc main_call4_v2) = val_main_call4_v2 (F := F) (V (Proc.devRef .tc main_arg0)) (V (Proc.devRef .tc main_arg1)) :=
  (ssa_binary hW V 58 (show (ops (F := F))[58]? = some (binary main_call4_v1 main_call4_v0 main_call4_v2 ((maximumf) : (⟨S8192, .f32⟩ : BufTy).Contents (Elt F) → (⟨S8192, .f32⟩ : BufTy).Contents (Elt F) → (⟨S8192, .f32⟩ : BufTy).Contents (Elt F))) from rfl) (by decide) (by decide) (by decide) _ _ (st_main_call4_v1 V) (st_main_call4_v0 V)).trans rfl

theorem st_main_call4_v3 : after (ops (F := F)) V (Proc.devRef .tc main_call4_v3) = val_main_call4_v3 (F := F) (V (Proc.devRef .tc main_arg0)) (V (Proc.devRef .tc main_arg1)) :=
  (ssa_unary hW V 59 (show (ops (F := F))[59]? = some (unary main_call4_v2 main_call4_v3 (((broadcastInDim S8192x1 ![0] bcast_S8192_S8192x1_0)) : (⟨S8192, .f32⟩ : BufTy).Contents (Elt F) → (⟨S8192x1, .f32⟩ : BufTy).Contents (Elt F))) from rfl) (by decide) (by decide) _ (st_main_call4_v2 V)).trans rfl

theorem st_main_call4_v4 : after (ops (F := F)) V (Proc.devRef .tc main_call4_v4) = val_main_call4_v4 (F := F) (V (Proc.devRef .tc main_arg0)) (V (Proc.devRef .tc main_arg1)) :=
  (ssa_unary hW V 60 (show (ops (F := F))[60]? = some (unary main_call4_v3 main_call4_v4 (((broadcastInDim S8192x8192 ![0, 1] bcast_S8192x1_S8192x8192_0_1)) : (⟨S8192x1, .f32⟩ : BufTy).Contents (Elt F) → (⟨S8192x8192, .f32⟩ : BufTy).Contents (Elt F))) from rfl) (by decide) (by decide) _ (st_main_call4_v3 V)).trans rfl

theorem st_main_call4_v5 : after (ops (F := F)) V (Proc.devRef .tc main_call4_v5) = val_main_call4_v5 (F := F) (V (Proc.devRef .tc main_arg0)) (V (Proc.devRef .tc main_arg1)) :=
  (ssa_binary hW V 61 (show (ops (F := F))[61]? = some (binary main_v32 main_call4_v4 main_call4_v5 ((subf) : (⟨S8192x8192, .f32⟩ : BufTy).Contents (Elt F) → (⟨S8192x8192, .f32⟩ : BufTy).Contents (Elt F) → (⟨S8192x8192, .f32⟩ : BufTy).Contents (Elt F))) from rfl) (by decide) (by decide) (by decide) _ _ (st_main_v32 V) (st_main_call4_v4 V)).trans rfl

theorem st_main_call4_v6 : after (ops (F := F)) V (Proc.devRef .tc main_call4_v6) = val_main_call4_v6 (F := F) (V (Proc.devRef .tc main_arg0)) (V (Proc.devRef .tc main_arg1)) :=
  (ssa_unary hW V 62 (show (ops (F := F))[62]? = some (unary main_call4_v5 main_call4_v6 ((Host.exp) : (⟨S8192x8192, .f32⟩ : BufTy).Contents (Elt F) → (⟨S8192x8192, .f32⟩ : BufTy).Contents (Elt F))) from rfl) (by decide) (by decide) _ (st_main_call4_v5 V)).trans rfl

theorem st_main_call4_cst_1 : after (ops (F := F)) V (Proc.devRef .tc main_call4_cst_1) = val_main_call4_cst_1 (F := F) :=
  (ssa_nullary hW V 63 (show (ops (F := F))[63]? = some (nullary main_call4_cst_1 ((constant S_ .f32 0x00000000#32) : (⟨S_, .f32⟩ : BufTy).Contents (Elt F))) from rfl) (by decide)).trans rfl

theorem st_main_call4_v7 : after (ops (F := F)) V (Proc.devRef .tc main_call4_v7) = val_main_call4_v7 (F := F) (V (Proc.devRef .tc main_arg0)) (V (Proc.devRef .tc main_arg1)) :=
  (ssa_binary hW V 64 (show (ops (F := F))[64]? = some (binary main_call4_v6 main_call4_cst_1 main_call4_v7 (((fun x v => Host.reduceAdd x v reducesTo_S8192x8192_S8192_d1 h_S_)) : (⟨S8192x8192, .f32⟩ : BufTy).Contents (Elt F) → (⟨S_, .f32⟩ : BufTy).Contents (Elt F) → (⟨S8192, .f32⟩ : BufTy).Contents (Elt F))) from rfl) (by decide) (by decide) (by decide) _ _ (st_main_call4_v6 V) (st_main_call4_cst_1 V)).trans rfl

theorem st_main_call4_v8 : after (ops (F := F)) V (Proc.devRef .tc main_call4_v8) = val_main_call4_v8 (F := F) (V (Proc.devRef .tc main_arg0)) (V (Proc.devRef .tc main_arg1)) :=
  (ssa_unary hW V 65 (show (ops (F := F))[65]? = some (unary main_call4_v7 main_call4_v8 (((broadcastInDim S8192x1 ![0] bcast_S8192_S8192x1_0)) : (⟨S8192, .f32⟩ : BufTy).Contents (Elt F) → (⟨S8192x1, .f32⟩ : BufTy).Contents (Elt F))) from rfl) (by decide) (by decide) _ (st_main_call4_v7 V)).trans rfl

theorem st_main_call4_v9 : after (ops (F := F)) V (Proc.devRef .tc main_call4_v9) = val_main_call4_v9 (F := F) (V (Proc.devRef .tc main_arg0)) (V (Proc.devRef .tc main_arg1)) :=
  (ssa_unary hW V 66 (show (ops (F := F))[66]? = some (unary main_call4_v8 main_call4_v9 ((Host.log) : (⟨S8192x1, .f32⟩ : BufTy).Contents (Elt F) → (⟨S8192x1, .f32⟩ : BufTy).Contents (Elt F))) from rfl) (by decide) (by decide) _ (st_main_call4_v8 V)).trans rfl

theorem st_main_call4_v10 : after (ops (F := F)) V (Proc.devRef .tc main_call4_v10) = val_main_call4_v10 (F := F) (V (Proc.devRef .tc main_arg0)) (V (Proc.devRef .tc main_arg1)) :=
  (ssa_unary hW V 67 (show (ops (F := F))[67]? = some (unary main_call4_v9 main_call4_v10 (((broadcastInDim S8192x8192 ![0, 1] bcast_S8192x1_S8192x8192_0_1)) : (⟨S8192x1, .f32⟩ : BufTy).Contents (Elt F) → (⟨S8192x8192, .f32⟩ : BufTy).Contents (Elt F))) from rfl) (by decide) (by decide) _ (st_main_call4_v9 V)).trans rfl

theorem st_main_v34 : after (ops (F := F)) V (Proc.devRef .tc main_v34) = val_main_v34 (F := F) (V (Proc.devRef .tc main_arg0)) (V (Proc.devRef .tc main_arg1)) :=
  (ssa_binary hW V 68 (show (ops (F := F))[68]? = some (binary main_call4_v5 main_call4_v10 main_v34 ((subf) : (⟨S8192x8192, .f32⟩ : BufTy).Contents (Elt F) → (⟨S8192x8192, .f32⟩ : BufTy).Contents (Elt F) → (⟨S8192x8192, .f32⟩ : BufTy).Contents (Elt F))) from rfl) (by decide) (by decide) (by decide) _ _ (st_main_call4_v5 V) (st_main_call4_v10 V)).trans rfl

theorem st_main_v35 : after (ops (F := F)) V (Proc.devRef .tc main_v35) = val_main_v35 (F := F) :=
  (ssa_unary hW V 69 rfl (by decide) (by decide) _ (st_main_v33 V)).trans rfl

theorem st_main_call5_c : after (ops (F := F)) V (Proc.devRef .tc main_call5_c) = val_main_call5_c (F := F) :=
  (ssa_nullary hW V 70 (show (ops (F := F))[70]? = some (nullary main_call5_c ((constantI S_ 32 0#32) : (⟨S_, .i32⟩ : BufTy).Contents (Elt F))) from rfl) (by decide)).trans rfl

theorem st_main_call5_v0 : after (ops (F := F)) V (Proc.devRef .tc main_call5_v0) = val_main_call5_v0 (F := F) :=
  (ssa_unary hW V 71 (show (ops (F := F))[71]? = some (unary main_call5_c main_call5_v0 (((broadcastInDim S8192x1 ![] bcast_S_S8192x1)) : (⟨S_, .i32⟩ : BufTy).Contents (Elt F) → (⟨S8192x1, .i32⟩ : BufTy).Contents (Elt F))) from rfl) (by decide) (by decide) _ (st_main_call5_c V)).trans rfl

theorem st_main_call5_v1 : after (ops (F := F)) V (Proc.devRef .tc main_call5_v1) = val_main_call5_v1 (F := F) :=
  (ssa_binary hW V 72 (show (ops (F := F))[72]? = some (binary main_v35 main_call5_v0 main_call5_v1 (((cmpi .slt)) : (⟨S8192x1, .i32⟩ : BufTy).Contents (Elt F) → (⟨S8192x1, .i32⟩ : BufTy).Contents (Elt F) → (⟨S8192x1, .i1⟩ : BufTy).Contents (Elt F))) from rfl) (by decide) (by decide) (by decide) _ _ (st_main_v35 V) (st_main_call5_v0 V)).trans rfl

theorem st_main_call5_c_0 : after (ops (F := F)) V (Proc.devRef .tc main_call5_c_0) = val_main_call5_c_0 (F := F) :=
  (ssa_nullary hW V 73 (show (ops (F := F))[73]? = some (nullary main_call5_c_0 ((constantI S_ 32 8192#32) : (⟨S_, .i32⟩ : BufTy).Contents (Elt F))) from rfl) (by decide)).trans rfl

theorem st_main_call5_v2 : after (ops (F := F)) V (Proc.devRef .tc main_call5_v2) = val_main_call5_v2 (F := F) :=
  (ssa_unary hW V 74 (show (ops (F := F))[74]? = some (unary main_call5_c_0 main_call5_v2 (((broadcastInDim S8192x1 ![] bcast_S_S8192x1)) : (⟨S_, .i32⟩ : BufTy).Contents (Elt F) → (⟨S8192x1, .i32⟩ : BufTy).Contents (Elt F))) from rfl) (by decide) (by decide) _ (st_main_call5_c_0 V)).trans rfl

theorem st_main_call5_v3 : after (ops (F := F)) V (Proc.devRef .tc main_call5_v3) = val_main_call5_v3 (F := F) :=
  (ssa_binary hW V 75 (show (ops (F := F))[75]? = some (binary main_v35 main_call5_v2 main_call5_v3 ((addi) : (⟨S8192x1, .i32⟩ : BufTy).Contents (Elt F) → (⟨S8192x1, .i32⟩ : BufTy).Contents (Elt F) → (⟨S8192x1, .i32⟩ : BufTy).Contents (Elt F))) from rfl) (by decide) (by decide) (by decide) _ _ (st_main_v35 V) (st_main_call5_v2 V)).trans rfl

theorem st_main_call5_v4 : after (ops (F := F)) V (Proc.devRef .tc main_call5_v4) = val_main_call5_v4 (F := F) :=
  (ssa_ternary hW V 76 (show (ops (F := F))[76]? = some (ternary main_call5_v1 main_call5_v3 main_v35 main_call5_v4 ((select) : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F))) from rfl) (by decide) (by decide) (by decide) (by decide) _ _ _ (st_main_call5_v1 V) (st_main_call5_v3 V) (st_main_v35 V)).trans rfl

theorem st_main_call5_v5 : after (ops (F := F)) V (Proc.devRef .tc main_call5_v5) = val_main_call5_v5 (F := F) :=
  (ssa_reshape hW V 77 (show (ops (F := F))[77]? = some (reshape main_call5_v4 main_call5_v5 rfl shapeCasts_S8192x1_S8192x1x1) from rfl) (by decide) (by decide) _ (st_main_call5_v4 V)).trans rfl

theorem st_main_call5_c_1 : after (ops (F := F)) V (Proc.devRef .tc main_call5_c_1) = val_main_call5_c_1 (F := F) :=
  (ssa_nullary hW V 78 (show (ops (F := F))[78]? = some (nullary main_call5_c_1 ((constantI S1 32 8191#32) : (⟨S1, .i32⟩ : BufTy).Contents (Elt F))) from rfl) (by decide)).trans rfl

theorem st_main_call5_c_2 : after (ops (F := F)) V (Proc.devRef .tc main_call5_c_2) = val_main_call5_c_2 (F := F) :=
  (ssa_nullary hW V 79 (show (ops (F := F))[79]? = some (nullary main_call5_c_2 ((constantI S_ 32 0#32) : (⟨S_, .i32⟩ : BufTy).Contents (Elt F))) from rfl) (by decide)).trans rfl

theorem st_main_call5_v6 : after (ops (F := F)) V (Proc.devRef .tc main_call5_v6) = val_main_call5_v6 (F := F) :=
  (ssa_unary hW V 80 (show (ops (F := F))[80]? = some (unary main_call5_c_2 main_call5_v6 (((broadcastInDim S8192x1x1 ![] bcast_S_S8192x1x1)) : (⟨S_, .i32⟩ : BufTy).Contents (Elt F) → (⟨S8192x1x1, .i32⟩ : BufTy).Contents (Elt F))) from rfl) (by decide) (by decide) _ (st_main_call5_c_2 V)).trans rfl

theorem st_main_call5_v7 : after (ops (F := F)) V (Proc.devRef .tc main_call5_v7) = val_main_call5_v7 (F := F) :=
  (ssa_binary hW V 81 (show (ops (F := F))[81]? = some (binary main_call5_v5 main_call5_v6 main_call5_v7 (((cmpi .sge)) : (⟨S8192x1x1, .i32⟩ : BufTy).Contents (Elt F) → (⟨S8192x1x1, .i32⟩ : BufTy).Contents (Elt F) → (⟨S8192x1x1, .i1⟩ : BufTy).Contents (Elt F))) from rfl) (by decide) (by decide) (by decide) _ _ (st_main_call5_v5 V) (st_main_call5_v6 V)).trans rfl

theorem st_main_call5_v8 : after (ops (F := F)) V (Proc.devRef .tc main_call5_v8) = val_main_call5_v8 (F := F) :=
  (ssa_unary hW V 82 (show (ops (F := F))[82]? = some (unary main_call5_c_1 main_call5_v8 (((broadcastInDim S1x1x1 ![2] bcast_S1_S1x1x1_2)) : (⟨S1, .i32⟩ : BufTy).Contents (Elt F) → (⟨S1x1x1, .i32⟩ : BufTy).Contents (Elt F))) from rfl) (by decide) (by decide) _ (st_main_call5_c_1 V)).trans rfl

theorem st_main_call5_v9 : after (ops (F := F)) V (Proc.devRef .tc main_call5_v9) = val_main_call5_v9 (F := F) :=
  (ssa_unary hW V 83 (show (ops (F := F))[83]? = some (unary main_call5_v8 main_call5_v9 (((broadcastInDim S8192x1x1 ![0, 1, 2] bcast_S1x1x1_S8192x1x1_0_1_2)) : (⟨S1x1x1, .i32⟩ : BufTy).Contents (Elt F) → (⟨S8192x1x1, .i32⟩ : BufTy).Contents (Elt F))) from rfl) (by decide) (by decide) _ (st_main_call5_v8 V)).trans rfl

theorem st_main_call5_v10 : after (ops (F := F)) V (Proc.devRef .tc main_call5_v10) = val_main_call5_v10 (F := F) :=
  (ssa_binary hW V 84 (show (ops (F := F))[84]? = some (binary main_call5_v5 main_call5_v9 main_call5_v10 (((cmpi .sle)) : (⟨S8192x1x1, .i32⟩ : BufTy).Contents (Elt F) → (⟨S8192x1x1, .i32⟩ : BufTy).Contents (Elt F) → (⟨S8192x1x1, .i1⟩ : BufTy).Contents (Elt F))) from rfl) (by decide) (by decide) (by decide) _ _ (st_main_call5_v5 V) (st_main_call5_v9 V)).trans rfl

theorem st_main_call5_v11 : after (ops (F := F)) V (Proc.devRef .tc main_call5_v11) = val_main_call5_v11 (F := F) :=
  (ssa_binary hW V 85 (show (ops (F := F))[85]? = some (binary main_call5_v7 main_call5_v10 main_call5_v11 ((andi) : (⟨S8192x1x1, .i1⟩ : BufTy).Contents (Elt F) → (⟨S8192x1x1, .i1⟩ : BufTy).Contents (Elt F) → (⟨S8192x1x1, .i1⟩ : BufTy).Contents (Elt F))) from rfl) (by decide) (by decide) (by decide) _ _ (st_main_call5_v7 V) (st_main_call5_v10 V)).trans rfl

theorem st_main_call5_c_3 : after (ops (F := F)) V (Proc.devRef .tc main_call5_c_3) = val_main_call5_c_3 (F := F) :=
  (ssa_nullary hW V 86 (show (ops (F := F))[86]? = some (nullary main_call5_c_3 ((constantI S_ 1 1#1) : (⟨S_, .i1⟩ : BufTy).Contents (Elt F))) from rfl) (by decide)).trans rfl

theorem st_main_call5_v12 : after (ops (F := F)) V (Proc.devRef .tc main_call5_v12) = val_main_call5_v12 (F := F) :=
  (ssa_binary hW V 87 (show (ops (F := F))[87]? = some (binary main_call5_v11 main_call5_c_3 main_call5_v12 (((fun x v => Host.reduce IntOp.andi x v reducesTo_S8192x1x1_S8192x1_d2 h_S_)) : (⟨S8192x1x1, .i1⟩ : BufTy).Contents (Elt F) → (⟨S_, .i1⟩ : BufTy).Contents (Elt F) → (⟨S8192x1, .i1⟩ : BufTy).Contents (Elt F))) from rfl) (by decide) (by decide) (by decide) _ _ (st_main_call5_v11 V) (st_main_call5_c_3 V)).trans rfl

theorem st_main_call5_v13 : after (ops (F := F)) V (Proc.devRef .tc main_call5_v13) = val_main_call5_v13 (F := F) (V (Proc.devRef .tc main_arg0)) (V (Proc.devRef .tc main_arg1)) :=
  (ssa_binary hW V 88 (show (ops (F := F))[88]? = some (binary main_v34 main_call5_v5 main_call5_v13 (((fun x i => Host.gather gather_S8192x8192_S8192x1x1_S8192x1_n_1_0_0_1_2_11 x i)) : (⟨S8192x8192, .f32⟩ : BufTy).Contents (Elt F) → (⟨S8192x1x1, .i32⟩ : BufTy).Contents (Elt F) → (⟨S8192x1, .f32⟩ : BufTy).Contents (Elt F))) from rfl) (by decide) (by decide) (by decide) _ _ (st_main_v34 V) (st_main_call5_v5 V)).trans rfl

theorem st_main_call5_cst : after (ops (F := F)) V (Proc.devRef .tc main_call5_cst) = val_main_call5_cst (F := F) :=
  (ssa_nullary hW V 89 (show (ops (F := F))[89]? = some (nullary main_call5_cst ((constant S_ .f32 0x7FC00000#32) : (⟨S_, .f32⟩ : BufTy).Contents (Elt F))) from rfl) (by decide)).trans rfl

theorem st_main_call5_v14 : after (ops (F := F)) V (Proc.devRef .tc main_call5_v14) = val_main_call5_v14 (F := F) :=
  (ssa_unary hW V 90 (show (ops (F := F))[90]? = some (unary main_call5_cst main_call5_v14 (((broadcastInDim S8192x1 ![] bcast_S_S8192x1)) : (⟨S_, .f32⟩ : BufTy).Contents (Elt F) → (⟨S8192x1, .f32⟩ : BufTy).Contents (Elt F))) from rfl) (by decide) (by decide) _ (st_main_call5_cst V)).trans rfl

theorem st_main_v36 : after (ops (F := F)) V (Proc.devRef .tc main_v36) = val_main_v36 (F := F) (V (Proc.devRef .tc main_arg0)) (V (Proc.devRef .tc main_arg1)) :=
  (ssa_ternary hW V 91 (show (ops (F := F))[91]? = some (ternary main_call5_v12 main_call5_v13 main_call5_v14 main_v36 ((select) : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F))) from rfl) (by decide) (by decide) (by decide) (by decide) _ _ _ (st_main_call5_v12 V) (st_main_call5_v13 V) (st_main_call5_v14 V)).trans rfl

theorem st_main_v37 : after (ops (F := F)) V (Proc.devRef .tc main_v37) = val_main_v37 (F := F) (V (Proc.devRef .tc main_arg0)) (V (Proc.devRef .tc main_arg1)) :=
  (ssa_reshape hW V 92 rfl (by decide) (by decide) _ (st_main_v36 V)).trans rfl

theorem st_main_v38 : after (ops (F := F)) V (Proc.devRef .tc main_v38) = val_main_v38 (F := F) (V (Proc.devRef .tc main_arg0)) (V (Proc.devRef .tc main_arg1)) :=
  (ssa_unary hW V 93 rfl (by decide) (by decide) _ (st_main_v37 V)).trans rfl

end Cert.RefStages

end
-- ==== Proof.RefRun.lean ====
/-
  The reference's run. Every weakly fair execution of its straight line terminates with each buffer at the fold of the
  operations' results over the launch contents; read stage by stage, the result buffer holds the last stage of the two
  argument arrays as launched, and the two argument arrays are unchanged.
-/
import proofs.«108332_j71305047049043_2_alg».proof.Proof.RefStages

noncomputable section

namespace Cert.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- From any memory with zero counters: the run terminates, the result buffer ends at the last stage of the argument
    arrays as launched, and the argument arrays end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = Cert.ReferenceIdeal.ReadP.val_main_v38 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (Cert.RefStages.st_main_v38 (launchContents m c)),
      (h c main_arg0).trans (Cert.RefStages.keep0 (launchContents m c)),
      (h c main_arg1).trans (Cert.RefStages.keep1 (launchContents m c))⟩)
    (run_seq scopedRefs_eq scopedSems_eq defs main (fun _ => ops) main_eq (fun _ => ops_sub) m ρ)

end Cert.RefRun

end
-- ==== Proof.RefSideMath.lean ====
/-
  Real arithmetic inside the extended reals, for one row of a masked log-softmax.

  A logit is a real number or, where an entry is masked out, minus infinity. Subtracting a real number M from a logit and
  taking the exponential gives exp (x - M) for a real logit x and 0 for a masked one; the sum of these over a row is a
  positive real as soon as one logit is real, and
      (x - M) - log (sum over k of exp (x_k - M)) = x - log (sum over k of exp x_k)
  for every real M: the shift cancels. The largest logit of a row with at least one real entry is a real number.
  A quotient by a clamped norm, and an inner product, of real numbers computed in the extended reals are the real ones.
-/
import Idealize.ShloMosaic.PureOps.Ideal
import proofs.«108332_j71305047049043_2_alg».proof.Proof.LibRealSoftmax

noncomputable section

namespace Cert.RefSide

open Idealize.ShloMosaic
open scoped BigOperators

/-- A logit as an extended real: a real number, or minus infinity for a masked entry. -/
def toE : Option ℝ → EReal
  | none => ⊥
  | some r => (r : EReal)

@[simp] theorem toE_none : toE none = ⊥ := rfl
@[simp] theorem toE_some (r : ℝ) : toE (some r) = (r : EReal) := rfl

/-- The weight of a logit in the sum of exponentials: exp of a real logit, 0 for a masked one. -/
def wexp : Option ℝ → ℝ
  | none => 0
  | some r => Real.exp r

@[simp] theorem wexp_none : wexp none = 0 := rfl
@[simp] theorem wexp_some (r : ℝ) : wexp (some r) = Real.exp r := rfl

theorem wexp_nonneg (o : Option ℝ) : 0 ≤ wexp o := by
  cases o with
  | none => exact le_rfl
  | some r => exact (Real.exp_pos r).le

/-- exp (logit - M) is the logit's weight times exp (-M); a masked logit stays masked under the shift. -/
theorem exp_toE_sub (o : Option ℝ) (M : ℝ) :
    Ideal.exp (toE o - (M : EReal)) = ((wexp o * Real.exp (-M) : ℝ) : EReal) := by
  cases o with
  | none =>
    show Ideal.exp (⊥ - (M : EReal)) = ((0 * Real.exp (-M) : ℝ) : EReal)
    rw [EReal.bot_sub, Ideal.exp_bot, zero_mul, EReal.coe_zero]
  | some r =>
    show Ideal.exp ((r : EReal) - (M : EReal)) = ((Real.exp r * Real.exp (-M) : ℝ) : EReal)
    rw [← EReal.coe_sub, Ideal.exp_coe, sub_eq_add_neg, Real.exp_add]

/-- The largest logit of a range holding at least one real logit, folded from minus infinity, is a real number. -/
theorem fold_max_toE {ι : Type} (s : Finset ι) (w : ι → Option ℝ) (k : ι) (hk : k ∈ s) (x : ℝ) (hx : w k = some x) :
    ∃ M : ℝ, s.fold max (⊥ : EReal) (fun i => toE (w i)) = (M : EReal) := by
  classical
  have key : ∀ s : Finset ι, s.fold max (⊥ : EReal) (fun i => toE (w i)) = ⊥
      ∨ ∃ M : ℝ, s.fold max (⊥ : EReal) (fun i => toE (w i)) = (M : EReal) := by
    intro s
    induction s using Finset.induction_on with
    | empty => exact Or.inl Finset.fold_empty
    | insert a s ha ih =>
      rw [Finset.fold_insert ha]
      have hcase : toE (w a) = ⊥ ∨ ∃ r : ℝ, toE (w a) = (r : EReal) := by
        cases w a with
        | none => exact Or.inl rfl
        | some r => exact Or.inr ⟨r, rfl⟩
      show max (toE (w a)) (s.fold max (⊥ : EReal) (fun i => toE (w i))) = ⊥
        ∨ ∃ M : ℝ, max (toE (w a)) (s.fold max (⊥ : EReal) (fun i => toE (w i))) = (M : EReal)
      rcases hcase with h0 | ⟨r, hr⟩
      · rw [h0, max_eq_right bot_le]; exact ih
      · rcases ih with h | ⟨μ, h⟩
        · right; exact ⟨r, by rw [h, hr]; exact max_eq_left bot_le⟩
        · right; exact ⟨max r μ, by rw [h, hr, Cert.LibRealSoftmax.max_coe]⟩
  rcases key s with h | h
  · exfalso
    have hle : ((x : ℝ) : EReal) ≤ s.fold max (⊥ : EReal) (fun i => toE (w i)) :=
      (Finset.le_fold_max _).2 (Or.inr ⟨k, hk, by show (x : EReal) ≤ toE (w k); rw [hx]; exact le_rfl⟩)
    rw [h] at hle
    exact EReal.coe_ne_bot x (le_bot_iff.1 hle)
  · exact h

/-- The sum of a row's weights is positive when one logit is real. -/
theorem sum_wexp_pos {N : ℕ} (w : Fin N → Option ℝ) (c : Fin N) (x : ℝ) (hc : w c = some x) :
    0 < ∑ k : Fin N, wexp (w k) :=
  lt_of_lt_of_le (by rw [hc]; exact Real.exp_pos x : 0 < wexp (w c))
    (Finset.single_le_sum (fun k _ => wexp_nonneg (w k)) (Finset.mem_univ c))

/-- One entry of a row's log-softmax, negated, with any real shift M: the shift cancels and the result is
    log (sum of the weights) - x. -/
theorem neg_logsoftmax_row {N : ℕ} (w : Fin N → Option ℝ) (c : Fin N) (x : ℝ) (hc : w c = some x) (M : ℝ) :
    -((toE (w c) - (M : EReal)) - Ideal.log ((0 : EReal) + ∑ k : Fin N, Ideal.exp (toE (w k) - (M : EReal))))
      = ((Real.log (∑ k : Fin N, wexp (w k)) - x : ℝ) : EReal) := by
  have hS := sum_wexp_pos w c x hc
  have hsum : ∑ k : Fin N, Ideal.exp (toE (w k) - (M : EReal))
      = (((∑ k : Fin N, wexp (w k)) * Real.exp (-M) : ℝ) : EReal) := by
    rw [Finset.sum_mul, ← Cert.LibRealSoftmax.sum_coe]
    exact Finset.sum_congr rfl fun k _ => exp_toE_sub (w k) M
  have hpos : 0 < (∑ k : Fin N, wexp (w k)) * Real.exp (-M) := mul_pos hS (Real.exp_pos _)
  rw [hsum, zero_add, Ideal.log_coe, if_neg (not_le.2 hpos), hc, toE_some, ← EReal.coe_sub, ← EReal.coe_sub,
    ← EReal.coe_neg, Real.log_mul hS.ne' (Real.exp_pos _).ne', Real.log_exp]
  exact congrArg (fun t : ℝ => (t : EReal)) (by ring)

/-- An inner product of real numbers, computed in the extended reals, is the real inner product. -/
theorem dot_coe {n : ℕ} (u v : Fin n → ℝ) :
    ∑ k : Fin n, ((u k : ℝ) : EReal) * ((v k : ℝ) : EReal) = ((∑ k : Fin n, u k * v k : ℝ) : EReal) := by
  rw [← Cert.LibRealSoftmax.sum_coe]
  exact Finset.sum_congr rfl fun k _ => (EReal.coe_mul _ _).symm

/-- A real number divided by a clamped norm: the square root of a sum of squares (the sum started from zero), clamped
    below by a positive real, computed in the extended reals. -/
theorem div_clamped_norm (x ss eps : ℝ) (hss : 0 ≤ ss) (heps : 0 < eps) :
    Ideal.div (x : EReal) (max (Ideal.sqrt ((0 : EReal) + (ss : EReal))) (eps : EReal))
      = ((x / max (Real.sqrt ss) eps : ℝ) : EReal) := by
  have hne : max (Real.sqrt ss) eps ≠ 0 := ne_of_gt (lt_of_lt_of_le heps (le_max_right _ _))
  rw [zero_add, Ideal.sqrt_coe, if_neg (not_lt.2 hss), Cert.LibRealSoftmax.max_coe, Ideal.div_coe hne, ← EReal.coe_mul]
  exact congrArg (fun t : ℝ => (t : EReal)) (by rw [mul_one_div])

end Cert.RefSide

end
-- ==== Proof.RefSideDenom.lean ====
/-
  The sum of exponentials of a row of logits is the specification's denominator, and the row's label entry is the
  cross similarity of the query row with its partner.

  A row of 8192 logits is two stretches of 4096. In a row of the first half the first stretch holds the similarities of
  row p of the first batch with every row of the second, and the second stretch its similarities with the rows of the first
  batch, the one with itself masked out; a masked logit weighs 0, so that stretch sums over the rows other than p. A row of
  the second half has the masked stretch first, and its other stretch holds the similarities of the first batch's rows with
  row p of the second batch, which are the similarities of row p of the second batch with the rows of the first.
-/
import proofs.«108332_j71305047049043_2_alg».proof.Proof.Spec
import proofs.«108332_j71305047049043_2_alg».proof.Proof.RefSideMath

noncomputable section

namespace Cert.RefSide

open Idealize.ShloMosaic Idealize.ShloMosaic.ValueIdx Cert.Spec
open scoped BigOperators

/-- The similarity is symmetric in the exchange of the two batches and the two rows. -/
theorem sim_comm (eps ten : ℝ) (x y : SA.Idx → ℝ) (p q : Fin 4096) : sim eps ten x y p q = sim eps ten y x q p := by
  unfold sim
  exact congrArg (· * ten) (Finset.sum_congr rfl fun d _ => mul_comm _ _)

/-- The logits of query row p of the first half: the similarities with the second batch's rows, then the masked
    similarities with the first batch's rows. -/
def rowTop (a0 a1 : SA.Idx → ℝ) (p : Fin 4096) (c : Fin 8192) : Option ℝ :=
  if h : c.val < 4096 then some (sim epsR 10 a0 a1 p ⟨c.val, h⟩)
  else if p = (⟨c.val - 4096, by have := c.isLt; omega⟩ : Fin 4096) then none
  else some (sim epsR 10 a0 a0 p ⟨c.val - 4096, by have := c.isLt; omega⟩)

/-- The logits of query row p of the second half: the masked similarities with the second batch's rows, then the
    similarities of the first batch's rows with row p of the second. -/
def rowBot (a0 a1 : SA.Idx → ℝ) (p : Fin 4096) (c : Fin 8192) : Option ℝ :=
  if h : c.val < 4096 then (if p = (⟨c.val, h⟩ : Fin 4096) then none else some (sim epsR 10 a1 a1 p ⟨c.val, h⟩))
  else some (sim epsR 10 a0 a1 ⟨c.val - 4096, by have := c.isLt; omega⟩ p)

/-- Row r of the logits. -/
def logitRow (a0 a1 : SA.Idx → ℝ) (r c : Fin 8192) : Option ℝ :=
  if h : r.val < 4096 then rowTop a0 a1 ⟨r.val, h⟩ c
  else rowBot a0 a1 ⟨r.val - 4096, by have := r.isLt; omega⟩ c

/-- A sum over 8192 columns is the sum over the first 4096 plus the sum over the last 4096. -/
theorem sum_halves (f : Fin 8192 → ℝ) :
    ∑ k : Fin 8192, f k = ∑ q : Fin 4096, f ⟨q.val, by have := q.isLt; omega⟩
      + ∑ q : Fin 4096, f ⟨4096 + q.val, by have := q.isLt; omega⟩ :=
  Fin.sum_univ_add (a := 4096) (b := 4096) (fun k : Fin (4096 + 4096) => f k)

/-- A stretch of weights with entry p masked out sums over the entries other than p. -/
theorem sum_masked {n : ℕ} (p : Fin n) (s : Fin n → ℝ) :
    ∑ q : Fin n, wexp (if p = q then none else some (s q)) = ∑ q ∈ (Finset.univ : Finset (Fin n)).erase p, Real.exp (s q) := by
  rw [← Finset.sum_erase (Finset.univ : Finset (Fin n)) (a := p)
    (f := fun q => wexp (if p = q then none else some (s q))) (by rw [if_pos rfl]; rfl)]
  refine Finset.sum_congr rfl fun q hq => ?_
  rw [if_neg (fun h => (Finset.ne_of_mem_erase hq) h.symm)]; rfl

/-- A row of the first half, at a column of its first stretch. -/
theorem rowTop_lo (a0 a1 : SA.Idx → ℝ) (p : Fin 4096) (c : Fin 8192) (hc : c.val < 4096) :
    rowTop a0 a1 p c = some (sim epsR 10 a0 a1 p ⟨c.val, hc⟩) := by
  unfold rowTop; rw [dif_pos hc]

/-- A row of the first half, at column 4096 + q of its second stretch. -/
theorem rowTop_hi (a0 a1 : SA.Idx → ℝ) (p : Fin 4096) (c : Fin 8192) (hc : ¬ c.val < 4096) (q : Fin 4096)
    (hq : c.val - 4096 = q.val) :
    rowTop a0 a1 p c = if p = q then none else some (sim epsR 10 a0 a0 p q) := by
  unfold rowTop; rw [dif_neg hc]
  have e : (⟨c.val - 4096, by have := c.isLt; omega⟩ : Fin 4096) = q := Fin.ext hq
  rw [e]

/-- A row of the second half, at a column of its first stretch. -/
theorem rowBot_lo (a0 a1 : SA.Idx → ℝ) (p : Fin 4096) (c : Fin 8192) (hc : c.val < 4096) :
    rowBot a0 a1 p c = if p = (⟨c.val, hc⟩ : Fin 4096) then none else some (sim epsR 10 a1 a1 p ⟨c.val, hc⟩) := by
  unfold rowBot; rw [dif_pos hc]

/-- A row of the second half, at column 4096 + q of its second stretch: the similarity of row q of the first batch with
    row p of the second, which is that of row p of the second with row q of the first. -/
theorem rowBot_hi (a0 a1 : SA.Idx → ℝ) (p : Fin 4096) (c : Fin 8192) (hc : ¬ c.val < 4096) (q : Fin 4096)
    (hq : c.val - 4096 = q.val) :
    rowBot a0 a1 p c = some (sim epsR 10 a1 a0 p q) := by
  unfold rowBot; rw [dif_neg hc]
  have e : (⟨c.val - 4096, by have := c.isLt; omega⟩ : Fin 4096) = q := Fin.ext hq
  rw [e, sim_comm]

/-- The weights of a row of the first half sum to the denominator of row p of the first batch against the second. -/
theorem sum_wexp_top (a0 a1 : SA.Idx → ℝ) (p : Fin 4096) :
    ∑ k : Fin 8192, wexp (rowTop a0 a1 p k) = denom epsR 10 a0 a1 p := by
  rw [sum_halves, denom, ← sum_masked p (fun q => sim epsR 10 a0 a0 p q)]
  refine congrArg₂ (· + ·) (Finset.sum_congr rfl fun q _ => ?_) (Finset.sum_congr rfl fun q _ => ?_)
  · rw [rowTop_lo a0 a1 p (⟨q.val, by have := q.isLt; omega⟩ : Fin 8192) q.isLt]; rfl
  · rw [rowTop_hi a0 a1 p (⟨4096 + q.val, by have := q.isLt; omega⟩ : Fin 8192) (by show ¬ 4096 + q.val < 4096; omega) q
      (by show 4096 + q.val - 4096 = q.val; omega)]

/-- The weights of a row of the second half sum to the denominator of row p of the second batch against the first. -/
theorem sum_wexp_bot (a0 a1 : SA.Idx → ℝ) (p : Fin 4096) :
    ∑ k : Fin 8192, wexp (rowBot a0 a1 p k) = denom epsR 10 a1 a0 p := by
  rw [sum_halves, denom, ← sum_masked p (fun q => sim epsR 10 a1 a1 p q), add_comm]
  refine congrArg₂ (· + ·) (Finset.sum_congr rfl fun q _ => ?_) (Finset.sum_congr rfl fun q _ => ?_)
  · rw [rowBot_hi a0 a1 p (⟨4096 + q.val, by have := q.isLt; omega⟩ : Fin 8192) (by show ¬ 4096 + q.val < 4096; omega) q
      (by show 4096 + q.val - 4096 = q.val; omega)]; rfl
  · rw [rowBot_lo a0 a1 p (⟨q.val, by have := q.isLt; omega⟩ : Fin 8192) q.isLt]

/-- Row r's label entry and the sum of its weights give the specification's loss. -/
theorem row_loss (a0 a1 : SA.Idx → ℝ) (r : Fin 8192) :
    ∃ x : ℝ, logitRow a0 a1 r r = some x ∧ Real.log (∑ k : Fin 8192, wexp (logitRow a0 a1 r k)) - x = G epsR 10 a0 a1 r := by
  by_cases hr : r.val < 4096
  · refine ⟨sim epsR 10 a0 a1 ⟨r.val, hr⟩ ⟨r.val, hr⟩, ?_, ?_⟩
    · unfold logitRow; rw [dif_pos hr]; exact rowTop_lo a0 a1 ⟨r.val, hr⟩ r hr
    · have e : (fun k => wexp (logitRow a0 a1 r k)) = fun k => wexp (rowTop a0 a1 ⟨r.val, hr⟩ k) := by
        funext k; unfold logitRow; rw [dif_pos hr]
      rw [e, sum_wexp_top]; unfold G; rw [dif_pos hr]; rfl
  · have hlt : r.val - 4096 < 4096 := by have := r.isLt; omega
    refine ⟨sim epsR 10 a1 a0 ⟨r.val - 4096, hlt⟩ ⟨r.val - 4096, hlt⟩, ?_, ?_⟩
    · unfold logitRow; rw [dif_neg hr]; exact rowBot_hi a0 a1 ⟨r.val - 4096, hlt⟩ r hr ⟨r.val - 4096, hlt⟩ rfl
    · have e : (fun k => wexp (logitRow a0 a1 r k)) = fun k => wexp (rowBot a0 a1 ⟨r.val - 4096, hlt⟩ k) := by
        funext k; unfold logitRow; rw [dif_neg hr]
      rw [e, sum_wexp_bot]; unfold G; rw [dif_neg hr]; rfl

end Cert.RefSide

end
-- ==== Proof.RefSideNorm.lean ====
/-
  The reference's unit rows.

  The reference divides each entry of a batch by its row's Euclidean norm clamped below by the clamp constant: the
  squares of a row are summed from zero, the square root is taken, the larger of it and the constant is spread along the
  row, and the entry is divided by it. On a batch of real numbers every step stays real, and the entry (p, d) of the
  result is the specification's unit row: a (p, d) / max (sqrt (sum over k of a (p, k)²)) eps. The two batches go
  through two copies of the same operations.
-/
import proofs.«108332_j71305047049043_2_alg».proof.Proof.RefReadP
import proofs.«108332_j71305047049043_2_alg».proof.Proof.Spec
import proofs.«108332_j71305047049043_2_alg».proof.Proof.LibWords
import proofs.«108332_j71305047049043_2_alg».proof.Proof.RefSideMath

noncomputable section

namespace Cert.RefSide

open Cert.ReferenceIdeal Cert.ReferenceIdeal.Gen Cert.ReferenceIdeal.ReadP
open Idealize.ShloMosaic Idealize.ShloMosaic.ValueIdx Cert.Spec
open scoped BigOperators

/-- Entry (p, d) of the first batch's unit rows. -/
theorem unit0_apply (a : SA.Idx → ℝ) (p : Fin 4096) (d : Fin 256) :
    val_main_v4 (F := Ideal) (lift a) (ix2 p d) = ((unitRow epsR a p d : ℝ) : EReal) := by
  have hidx : ∀ k : Fin 256, idx_main_call0_v1 (idx_main_call0_v2 (idx_main_v3 (ix2 p d))) k = ix2 p k := fun k =>
    funext fun b => Fin.ext (by match b with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, hidx, Ideal.hostDivf_def, Ideal.maximumf_def, Ideal.hostUnary_sqrt_def,
    Ideal.ofBits_def, Ideal.mulf_def]
  rw [Ideal.ofBits_zero_f32, Cert.LibWords.word_eps]
  show Ideal.div ((a (ix2 p d) : ℝ) : EReal) (max (Ideal.sqrt ((0 : EReal)
    + ∑ k : Fin 256, ((a (ix2 p k) : ℝ) : EReal) * ((a (ix2 p k) : ℝ) : EReal))) ((epsR : ℝ) : EReal)) = _
  rw [dot_coe (fun k => a (ix2 p k)) (fun k => a (ix2 p k))]
  exact div_clamped_norm _ _ _ (Finset.sum_nonneg fun k _ => mul_self_nonneg _) Cert.LibWords.epsR_pos

/-- Entry (p, d) of the second batch's unit rows. -/
theorem unit1_apply (a : SA.Idx → ℝ) (p : Fin 4096) (d : Fin 256) :
    val_main_v9 (F := Ideal) (lift a) (ix2 p d) = ((unitRow epsR a p d : ℝ) : EReal) := by
  have hidx : ∀ k : Fin 256, idx_main_call1_v1 (idx_main_call1_v2 (idx_main_v8 (ix2 p d))) k = ix2 p k := fun k =>
    funext fun b => Fin.ext (by match b with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, hidx, Ideal.hostDivf_def, Ideal.maximumf_def, Ideal.hostUnary_sqrt_def,
    Ideal.ofBits_def, Ideal.mulf_def]
  rw [Ideal.ofBits_zero_f32, Cert.LibWords.word_eps]
  show Ideal.div ((a (ix2 p d) : ℝ) : EReal) (max (Ideal.sqrt ((0 : EReal)
    + ∑ k : Fin 256, ((a (ix2 p k) : ℝ) : EReal) * ((a (ix2 p k) : ℝ) : EReal))) ((epsR : ℝ) : EReal)) = _
  rw [dot_coe (fun k => a (ix2 p k)) (fun k => a (ix2 p k))]
  exact div_clamped_norm _ _ _ (Finset.sum_nonneg fun k _ => mul_self_nonneg _) Cert.LibWords.epsR_pos

end Cert.RefSide

end
-- ==== Proof.RefSideSim.lean ====
/-
  The reference's three similarity matrices.

  Each is the matrix product of one batch's unit rows with the transpose of a batch's unit rows, times the word of ten.
  At (p, q) the product is the inner product of unit row p of the left batch with unit row q of the right one; on
  batches of real numbers it is the real inner product, and the entry is the specification's scaled similarity.
-/
import proofs.«108332_j71305047049043_2_alg».proof.Proof.RefReadP
import proofs.«108332_j71305047049043_2_alg».proof.Proof.Spec
import proofs.«108332_j71305047049043_2_alg».proof.Proof.LibWords
import proofs.«108332_j71305047049043_2_alg».proof.Proof.RefSideMath
import proofs.«108332_j71305047049043_2_alg».proof.Proof.RefSideNorm

noncomputable section

namespace Cert.RefSide

open Cert.ReferenceIdeal Cert.ReferenceIdeal.Gen Cert.ReferenceIdeal.ReadP
open Idealize.ShloMosaic Idealize.ShloMosaic.ValueIdx Cert.Spec
open scoped BigOperators

/-- The similarity of row p of the first batch with row q of the second. -/
theorem cross_apply (a0 a1 : SA.Idx → ℝ) (p q : Fin 4096) :
    val_main_v21 (F := Ideal) (lift a0) (lift a1) (ix2 p q) = ((sim epsR 10 a0 a1 p q : ℝ) : EReal) := by
  have hl : ∀ k : Fin 256, lidx_main_v19 (ix2 p q) k = ix2 p k := fun k =>
    funext fun b => Fin.ext (by match b with | ⟨0, _⟩ => rfl | ⟨1, _⟩ => rfl)
  have hr : ∀ k : Fin 256, idx_main_v18 (ridx_main_v19 (ix2 p q) k) = ix2 q k := fun k =>
    funext fun b => Fin.ext (by match b with | ⟨0, _⟩ => rfl | ⟨1, _⟩ => rfl)
  rw [val_main_v21_apply, val_main_v19_apply, val_main_v20_apply, val_main_cst_3_apply]
  simp only [val_main_v18_apply, hl, hr, unit0_apply, unit1_apply, Ideal.mulf_def, Ideal.ofBits_def]
  rw [Cert.LibWords.word_ten, dot_coe (fun k => unitRow epsR a0 p k) (fun k => unitRow epsR a1 q k), ← EReal.coe_mul]
  rfl

/-- The similarity of rows p and q of the first batch. -/
theorem self0_apply (a : SA.Idx → ℝ) (p q : Fin 4096) :
    val_main_v13 (F := Ideal) (lift a) (ix2 p q) = ((sim epsR 10 a a p q : ℝ) : EReal) := by
  have hl : ∀ k : Fin 256, lidx_main_v11 (ix2 p q) k = ix2 p k := fun k =>
    funext fun b => Fin.ext (by match b with | ⟨0, _⟩ => rfl | ⟨1, _⟩ => rfl)
  have hr : ∀ k : Fin 256, idx_main_v10 (ridx_main_v11 (ix2 p q) k) = ix2 q k := fun k =>
    funext fun b => Fin.ext (by match b with | ⟨0, _⟩ => rfl | ⟨1, _⟩ => rfl)
  rw [val_main_v13_apply, val_main_v11_apply, val_main_v12_apply, val_main_cst_1_apply]
  simp only [val_main_v10_apply, hl, hr, unit0_apply, Ideal.mulf_def, Ideal.ofBits_def]
  rw [Cert.LibWords.word_ten, dot_coe (fun k => unitRow epsR a p k) (fun k => unitRow epsR a q k), ← EReal.coe_mul]
  rfl

/-- The similarity of rows p and q of the second batch. -/
theorem self1_apply (a : SA.Idx → ℝ) (p q : Fin 4096) :
    val_main_v17 (F := Ideal) (lift a) (ix2 p q) = ((sim epsR 10 a a p q : ℝ) : EReal) := by
  have hl : ∀ k : Fin 256, lidx_main_v15 (ix2 p q) k = ix2 p k := fun k =>
    funext fun b => Fin.ext (by match b with | ⟨0, _⟩ => rfl | ⟨1, _⟩ => rfl)
  have hr : ∀ k : Fin 256, idx_main_v14 (ridx_main_v15 (ix2 p q) k) = ix2 q k := fun k =>
    funext fun b => Fin.ext (by match b with | ⟨0, _⟩ => rfl | ⟨1, _⟩ => rfl)
  rw [val_main_v17_apply, val_main_v15_apply, val_main_v16_apply, val_main_cst_2_apply]
  simp only [val_main_v14_apply, hl, hr, unit1_apply, Ideal.mulf_def, Ideal.ofBits_def]
  rw [Cert.LibWords.word_ten, dot_coe (fun k => unitRow epsR a p k) (fun k => unitRow epsR a q k), ← EReal.coe_mul]
  rfl

end Cert.RefSide

end
-- ==== Proof.RefSideLogits.lean ====
/-
  The reference's matrix of logits, entry by entry.

  The self-similarity matrices are masked on the diagonal: where the row number equals the column number the entry is the
  word of minus infinity. The [8192, 8192] matrix of logits is made of four [4096, 4096] quarters: for a query row p of the
  first half, the similarities of row p of the first batch with the rows of the second, then its masked similarities with
  the rows of the first; for a query row of the second half, the masked similarities of row p of the second batch with the
  rows of the second, then the transposed cross similarities, that is the similarities of the rows of the first batch with
  row p of the second. Every entry is a real number or, on the two masked diagonals, minus infinity.
-/
import proofs.«108332_j71305047049043_2_alg».proof.Proof.RefReadP
import proofs.«108332_j71305047049043_2_alg».proof.Proof.Spec
import proofs.«108332_j71305047049043_2_alg».proof.Proof.LibWords
import proofs.«108332_j71305047049043_2_alg».proof.Proof.RefSideMath
import proofs.«108332_j71305047049043_2_alg».proof.Proof.RefSideSim
import proofs.«108332_j71305047049043_2_alg».proof.Proof.RefSideDenom
import Idealize.ShloMosaic.Lib.Affine

noncomputable section

namespace Cert.RefSide

open Cert.ReferenceIdeal Cert.ReferenceIdeal.Gen Cert.ReferenceIdeal.ReadP
open Idealize.ShloMosaic Idealize.ShloMosaic.ValueIdx Cert.Spec
open scoped BigOperators

/-- A select on "the row number (plus the zero word) equals the column number", for numbers below 4096. -/
theorem select_diag {α : Type} (p q : Fin 4096) (A B : α) :
    Scalar.select (IntOp.cmpi .eq (IntOp.addi (BitVec.ofNat 32 p.val) 0#32) (BitVec.ofNat 32 q.val)) A B
      = if p = q then A else B := by
  have hp : p.val < 2 ^ 32 := by have := p.isLt; omega
  have hq : q.val < 2 ^ 32 := by have := q.isLt; omega
  have hadd : IntOp.addi (BitVec.ofNat 32 p.val) 0#32 = BitVec.ofNat 32 p.val := BitVec.add_zero _
  rw [hadd]
  by_cases h : p = q
  · subst h
    rw [if_pos rfl, show IntOp.cmpi .eq (BitVec.ofNat 32 p.val) (BitVec.ofNat 32 p.val) = 1#1 from
      IntOp.cmpi_eq.2 rfl, select_one]
  · have hne : ¬ IntOp.cmpi .eq (BitVec.ofNat 32 p.val) (BitVec.ofNat 32 q.val) = 1#1 := by
      intro hc
      have e2 := congrArg BitVec.toNat (IntOp.cmpi_eq.1 hc)
      rw [BitVec.toNat_ofNat, BitVec.toNat_ofNat, Nat.mod_eq_of_lt hp, Nat.mod_eq_of_lt hq] at e2
      exact h (Fin.ext e2)
    rw [if_neg h, eq_zero_of_ne_one hne, select_zero]

/-- The first batch's self-similarities, masked on the diagonal. -/
theorem masked0_apply (a : SA.Idx → ℝ) (p q : Fin 4096) :
    val_main_v27 (F := Ideal) (lift a) (ix2 p q) = toE (if p = q then none else some (sim epsR 10 a a p q)) := by
  rw [val_main_v27_apply, val_main_v26_apply, val_main_v25_apply, val_main_v22_apply, val_main_v23_apply,
    val_main_v24_apply, val_main_c_apply, val_main_call2_v1_apply, val_main_call2_v0_apply, val_main_cst_4_apply,
    self0_apply]
  show Scalar.select (IntOp.cmpi .eq (IntOp.addi (BitVec.ofNat 32 p.val) 0#32) (BitVec.ofNat 32 q.val))
    (Ideal.ofBits .f32 0xFF800000#32) _ = _
  rw [select_diag, Cert.LibWords.word_negInf]
  by_cases h : p = q
  · rw [if_pos h, if_pos h]; rfl
  · rw [if_neg h, if_neg h]; rfl

/-- The second batch's self-similarities, masked on the diagonal. -/
theorem masked1_apply (a : SA.Idx → ℝ) (p q : Fin 4096) :
    val_main_v28 (F := Ideal) (lift a) (ix2 p q) = toE (if p = q then none else some (sim epsR 10 a a p q)) := by
  rw [val_main_v28_apply, val_main_v26_apply, val_main_v25_apply, val_main_v22_apply, val_main_v23_apply,
    val_main_v24_apply, val_main_c_apply, val_main_call3_v1_apply, val_main_call3_v0_apply, val_main_cst_5_apply,
    self1_apply]
  show Scalar.select (IntOp.cmpi .eq (IntOp.addi (BitVec.ofNat 32 p.val) 0#32) (BitVec.ofNat 32 q.val))
    (Ideal.ofBits .f32 0xFF800000#32) _ = _
  rw [select_diag, Cert.LibWords.word_negInf]
  by_cases h : p = q
  · rw [if_pos h, if_pos h]; rfl
  · rw [if_neg h, if_neg h]; rfl

/-! ## Two quarters side by side, two halves one above the other -/

/-- The left 4096 columns of two [4096, 4096] matrices joined side by side are the first matrix. -/
theorem catCols_left {α : Type} (x₁ x₂ : S4096x4096.Idx → α)
    (h : Shape.Concatenates [S4096x4096, S4096x4096] S4096x8192 1) (p : Fin 4096) (c : Fin 8192) (hc : c.val < 4096) :
    concatenate S4096x8192 1 [⟨S4096x4096, x₁⟩, ⟨S4096x4096, x₂⟩] h (ix2 p c) = x₁ (ix2 p ⟨c.val, hc⟩) :=
  concatenate_pair_apply_left 1 x₁ x₂ h (ix2 p c) rfl (ix2 p ⟨c.val, hc⟩)
    (fun b => by match b with | ⟨0, _⟩ => rfl | ⟨1, _⟩ => rfl)

/-- The right 4096 columns are the second matrix. -/
theorem catCols_right {α : Type} (x₁ x₂ : S4096x4096.Idx → α)
    (h : Shape.Concatenates [S4096x4096, S4096x4096] S4096x8192 1) (p : Fin 4096) (c : Fin 8192) (hc : 4096 ≤ c.val) :
    concatenate S4096x8192 1 [⟨S4096x4096, x₁⟩, ⟨S4096x4096, x₂⟩] h (ix2 p c)
      = x₂ (ix2 p ⟨c.val - 4096, by have := c.isLt; omega⟩) :=
  concatenate_pair_apply_right 1 x₁ x₂ h (ix2 p c) rfl rfl (ix2 p ⟨c.val - 4096, by have := c.isLt; omega⟩)
    (fun b hb => by
      match b, hb with
      | ⟨0, _⟩, _ => rfl
      | ⟨1, _⟩, hb => exact absurd rfl hb)
    (by show (c.val - 4096) + 4096 = c.val; omega)

/-- The upper 4096 rows of two [4096, 8192] matrices, one above the other, are the first matrix. -/
theorem catRows_top {α : Type} (x₁ x₂ : S4096x8192.Idx → α)
    (h : Shape.Concatenates [S4096x8192, S4096x8192] S8192x8192 0) (r c : Fin 8192) (hr : r.val < 4096) :
    concatenate S8192x8192 0 [⟨S4096x8192, x₁⟩, ⟨S4096x8192, x₂⟩] h (ix2 r c) = x₁ (ix2 ⟨r.val, hr⟩ c) :=
  concatenate_pair_apply_left 0 x₁ x₂ h (ix2 r c) rfl (ix2 ⟨r.val, hr⟩ c)
    (fun b => by match b with | ⟨0, _⟩ => rfl | ⟨1, _⟩ => rfl)

/-- The lower 4096 rows are the second matrix. -/
theorem catRows_bot {α : Type} (x₁ x₂ : S4096x8192.Idx → α)
    (h : Shape.Concatenates [S4096x8192, S4096x8192] S8192x8192 0) (r c : Fin 8192) (hr : 4096 ≤ r.val) :
    concatenate S8192x8192 0 [⟨S4096x8192, x₁⟩, ⟨S4096x8192, x₂⟩] h (ix2 r c)
      = x₂ (ix2 ⟨r.val - 4096, by have := r.isLt; omega⟩ c) :=
  concatenate_pair_apply_right 0 x₁ x₂ h (ix2 r c) rfl rfl (ix2 ⟨r.val - 4096, by have := r.isLt; omega⟩ c)
    (fun b hb => by
      match b, hb with
      | ⟨0, _⟩, hb => exact absurd rfl hb
      | ⟨1, _⟩, _ => rfl)
    (by show (r.val - 4096) + 4096 = r.val; omega)

/-! ## The logits -/

theorem top_apply (a0 a1 : SA.Idx → ℝ) (p : Fin 4096) (c : Fin 8192) :
    val_main_v29 (F := Ideal) (lift a0) (lift a1) (ix2 p c) = toE (rowTop a0 a1 p c) := by
  unfold val_main_v29 rowTop
  by_cases hc : c.val < 4096
  · rw [dif_pos hc, catCols_left _ _ _ p c hc, cross_apply]; rfl
  · rw [dif_neg hc, catCols_right _ _ _ p c (not_lt.1 hc), masked0_apply]

theorem bot_apply (a0 a1 : SA.Idx → ℝ) (p : Fin 4096) (c : Fin 8192) :
    val_main_v31 (F := Ideal) (lift a0) (lift a1) (ix2 p c) = toE (rowBot a0 a1 p c) := by
  unfold val_main_v31 rowBot
  by_cases hc : c.val < 4096
  · rw [dif_pos hc, catCols_left _ _ _ p c hc, masked1_apply]
  · have hidx : idx_main_v30 (ix2 p (⟨c.val - 4096, by have := c.isLt; omega⟩ : Fin 4096))
        = ix2 (⟨c.val - 4096, by have := c.isLt; omega⟩ : Fin 4096) p :=
      funext fun b => Fin.ext (by match b with | ⟨0, _⟩ => rfl | ⟨1, _⟩ => rfl)
    rw [dif_neg hc, catCols_right _ _ _ p c (not_lt.1 hc), val_main_v30_apply, hidx, cross_apply]; rfl

/-- Entry (r, c) of the matrix of logits. -/
theorem logits_apply (a0 a1 : SA.Idx → ℝ) (r c : Fin 8192) :
    val_main_v32 (F := Ideal) (lift a0) (lift a1) (ix2 r c) = toE (logitRow a0 a1 r c) := by
  unfold val_main_v32 logitRow
  by_cases hr : r.val < 4096
  · rw [dif_pos hr, catRows_top _ _ _ r c hr, top_apply]
  · rw [dif_neg hr, catRows_bot _ _ _ r c (not_lt.1 hr), bot_apply]

end Cert.RefSide

end
-- ==== Proof.RefSideRow.lean ====
/-
  The reference's log-softmax along the rows of the logits.

  The row maximum is the fold of max over the row's 8192 logits from minus infinity; every row holds a real logit (its label
  entry), so the maximum is a real number M, and the further maximum against minus infinity changes nothing. Each logit less
  M is exponentiated, the exponentials are summed from zero, the logarithm of the sum is spread back along the row and
  subtracted. Entry (r, c) is therefore (logit (r, c) - M) - log (0 + sum over k of exp (logit (r, k) - M)).
-/
import proofs.«108332_j71305047049043_2_alg».proof.Proof.RefReadP
import proofs.«108332_j71305047049043_2_alg».proof.Proof.Spec
import proofs.«108332_j71305047049043_2_alg».proof.Proof.LibWords
import proofs.«108332_j71305047049043_2_alg».proof.Proof.RefSideMath
import proofs.«108332_j71305047049043_2_alg».proof.Proof.RefSideDenom
import proofs.«108332_j71305047049043_2_alg».proof.Proof.RefSideLogits
import Idealize.ShloMosaic.PureOps.Ideal.Laws

noncomputable section

namespace Cert.RefSide

open Cert.ReferenceIdeal Cert.ReferenceIdeal.Gen Cert.ReferenceIdeal.ReadP
open Idealize.ShloMosaic Idealize.ShloMosaic.ValueIdx Cert.Spec
open scoped BigOperators

/-- The logits' columns are reduced away, leaving one value per row. -/
theorem colsReduce : S8192x8192.Reduces [1] S8192 := by decide

/-- Row r with column k inserted is the index (r, k). -/
theorem lift_row (r k : Fin 8192) : colsReduce.lift (ix1 r) k = ix2 r k :=
  funext fun b => Fin.ext (by match b with | ⟨0, _⟩ => rfl | ⟨1, _⟩ => rfl)

/-- The maximum of row r of the logits is a real number. -/
theorem rowmax_real (a0 a1 : SA.Idx → ℝ) (r : Fin 8192) :
    ∃ M : ℝ, val_main_call4_v0 (F := Ideal) (lift a0) (lift a1) (ix1 r) = (M : EReal) := by
  obtain ⟨x, hx, -⟩ := row_loss a0 a1 r
  obtain ⟨M, hM⟩ := fold_max_toE (Finset.univ : Finset (Fin 8192)) (logitRow a0 a1 r) r (Finset.mem_univ r) x hx
  refine ⟨M, ?_⟩
  unfold val_main_call4_v0
  rw [Host.reduce_eq_fold_single FloatOps.maximumf _ _ reducesTo_S8192x8192_S8192_d1 colsReduce h_S_ (ix1 r), ← hM]
  have e1 : (val_main_v32 (F := Ideal) (lift a0) (lift a1) ∘ colsReduce.lift (ix1 r))
      = fun k : Fin 8192 => toE (logitRow a0 a1 r k) := by
    funext k
    show val_main_v32 (F := Ideal) (lift a0) (lift a1) (colsReduce.lift (ix1 r) k) = _
    exact (congrArg (val_main_v32 (F := Ideal) (lift a0) (lift a1)) (lift_row r k)).trans (logits_apply a0 a1 r k)
  have e0 : val_main_call4_cst (F := Ideal) (Shape.Idx.first h_S_) = (⊥ : EReal) := by
    rw [val_main_call4_cst_apply]; exact Cert.LibWords.word_negInf
  rw [e1, e0]
  rfl

/-- A logit less its row's maximum. -/
theorem shift_apply (a0 a1 : SA.Idx → ℝ) (r c : Fin 8192) (M : ℝ)
    (hM : val_main_call4_v0 (F := Ideal) (lift a0) (lift a1) (ix1 r) = (M : EReal)) :
    val_main_call4_v5 (F := Ideal) (lift a0) (lift a1) (ix2 r c) = toE (logitRow a0 a1 r c) - (M : EReal) := by
  have hidx : idx_main_call4_v3 (idx_main_call4_v4 (ix2 r c)) = ix1 r :=
    funext fun b => Fin.ext (by match b with | ⟨0, _⟩ => rfl)
  rw [val_main_call4_v5_apply, val_main_call4_v4_apply, val_main_call4_v3_apply, hidx, val_main_call4_v2_apply,
    val_main_call4_v1_apply, val_main_call4_cst_0_apply, hM, logits_apply]
  simp only [Ideal.subf_def, Ideal.maximumf_def, Ideal.ofBits_def]
  rw [Cert.LibWords.word_negInf, max_eq_right bot_le]

/-- Entry (r, c) of the log-softmax of the logits. -/
theorem logsoftmax_apply (a0 a1 : SA.Idx → ℝ) (r c : Fin 8192) (M : ℝ)
    (hM : val_main_call4_v0 (F := Ideal) (lift a0) (lift a1) (ix1 r) = (M : EReal)) :
    val_main_v34 (F := Ideal) (lift a0) (lift a1) (ix2 r c)
      = (toE (logitRow a0 a1 r c) - (M : EReal))
        - Ideal.log ((0 : EReal) + ∑ k : Fin 8192, Ideal.exp (toE (logitRow a0 a1 r k) - (M : EReal))) := by
  have hidx : idx_main_call4_v8 (idx_main_call4_v10 (ix2 r c)) = ix1 r :=
    funext fun b => Fin.ext (by match b with | ⟨0, _⟩ => rfl)
  have hk : ∀ k : Fin 8192, idx_main_call4_v7 (ix1 r) k = ix2 r k := fun k =>
    funext fun b => Fin.ext (by match b with | ⟨0, _⟩ => rfl | ⟨1, _⟩ => rfl)
  rw [val_main_v34_apply, val_main_call4_v10_apply, val_main_call4_v9_apply, val_main_call4_v8_apply, hidx,
    val_main_call4_v7_apply, val_main_call4_cst_1_apply, shift_apply a0 a1 r c M hM]
  simp only [val_main_call4_v6_apply, hk, shift_apply a0 a1 r _ M hM, Ideal.subf_def, Ideal.hostUnary_log_def,
    Ideal.hostUnary_exp_def, Ideal.ofBits_def]
  rw [Ideal.ofBits_zero_f32]

end Cert.RefSide

end
-- ==== Proof.RefSideGather.lean ====
/-
  The reference's label pick: row r of the log-softmax read at column r.

  The labels are the row numbers themselves. The pick first turns a negative label into label + 8192 (no label is
  negative), checks that the label lies in [0, 8191] (every one does, so nothing is replaced by the filler value), and reads,
  for every row r, the matrix at (r, label r clamped into [0, 8191]) = (r, r).
-/
import proofs.«108332_j71305047049043_2_alg».proof.Proof.RefReadP
import Idealize.ShloMosaic.Lib.Affine
import Idealize.ShloMosaic.Lib.ValueIdx

noncomputable section

namespace Cert.RefSide

open Cert.ReferenceIdeal Cert.ReferenceIdeal.Gen Cert.ReferenceIdeal.ReadP
open Idealize.ShloMosaic Idealize.ShloMosaic.ValueIdx
open scoped BigOperators

variable {F : FTy → Type} [FloatOps F]

/-- A number below 8192, as a 32-bit word read signed, is itself. -/
theorem toInt_ofNat_small (r : ℕ) (hr : r < 8192) : (BitVec.ofNat 32 r).toInt = (r : Int) := by
  have e := BitVec.toInt_eq_toNat_cond (BitVec.ofNat 32 r)
  rw [BitVec.toNat_ofNat, Nat.mod_eq_of_lt (by omega : r < 2 ^ 32)] at e
  rw [e, if_pos (by omega)]

/-- The start index of row r: the label r itself (it is not negative, so 8192 is not added). -/
theorem label_word (r : Fin 8192) :
    val_main_call5_v5 (F := F) (ix3 r (0 : Fin 1) (0 : Fin 1)) = BitVec.ofNat 32 r.val := by
  have hidx : idx_main_call5_v5 (ix3 r (0 : Fin 1) (0 : Fin 1)) = ix2 r (0 : Fin 1) :=
    funext fun b => Fin.ext (by
      match b with
      | ⟨0, _⟩ => show ((r.val * 1 + 0) * 1 + 0) / 1 = r.val; simp
      | ⟨1, _⟩ => rfl)
  have h35 : val_main_v35 (F := F) (ix2 r (0 : Fin 1)) = BitVec.ofNat 32 r.val := by
    rw [val_main_v35_apply, val_main_v33_apply]
  have hneg : ¬ IntOp.cmpi .slt (BitVec.ofNat 32 r.val) (0#32 : BitVec 32) = 1#1 := by
    intro hc
    have := IntOp.cmpi_slt.1 hc
    rw [toInt_ofNat_small r.val r.isLt, BitVec.toInt_zero] at this
    omega
  rw [val_main_call5_v5_apply, hidx, val_main_call5_v4_apply, val_main_call5_v1_apply, h35, val_main_call5_v0_apply,
    val_main_call5_c_apply, eq_zero_of_ne_one hneg, select_zero]

/-- Every label is in range: the range test passes on every row. -/
theorem inrange_apply (r : Fin 8192) : val_main_call5_v12 (F := F) (ix2 r (0 : Fin 1)) = 1#1 := by
  have hred : S8192x1x1.Reduces [2] S8192x1 := by decide
  have hall : ∀ i : S8192x1x1.Idx, val_main_call5_v11 (F := F) i = 1#1 := by
    intro i
    obtain ⟨r', u, v, rfl⟩ : ∃ (r' : Fin 8192) (u v : Fin 1), i = ix3 r' u v := ⟨i 0, i 1, i 2, eq_ix3 i⟩
    obtain rfl : u = 0 := Subsingleton.elim _ _
    obtain rfl : v = 0 := Subsingleton.elim _ _
    rw [val_main_call5_v11_apply, val_main_call5_v7_apply, val_main_call5_v10_apply, label_word, val_main_call5_v6_apply,
      val_main_call5_c_2_apply, val_main_call5_v9_apply, val_main_call5_v8_apply, val_main_call5_c_1_apply]
    have h1 : IntOp.cmpi .sge (BitVec.ofNat 32 r'.val) (0#32 : BitVec 32) = 1#1 :=
      IntOp.cmpi_sge.2 (by rw [toInt_ofNat_small r'.val r'.isLt, BitVec.toInt_zero]; omega)
    have h2 : IntOp.cmpi .sle (BitVec.ofNat 32 r'.val) (8191#32 : BitVec 32) = 1#1 :=
      IntOp.cmpi_sle.2 (by
        rw [toInt_ofNat_small r'.val r'.isLt, show (8191#32 : BitVec 32) = BitVec.ofNat 32 8191 from rfl,
          toInt_ofNat_small 8191 (by omega)]
        have := r'.isLt; omega)
    rw [h1, h2]; rfl
  unfold val_main_call5_v12
  rw [Host.reduce_eq_fold_single IntOp.andi _ _ reducesTo_S8192x1x1_S8192x1_d2 hred h_S_ (ix2 r (0 : Fin 1)),
    val_main_call5_c_3_apply]
  have e1 : (val_main_call5_v11 (F := F) ∘ hred.lift (ix2 r (0 : Fin 1))) = fun _ => (1#1 : BitVec 1) :=
    funext fun k => hall _
  rw [e1]
  classical
  generalize (Finset.univ : Finset (Fin (S8192x1x1.size 2))) = s
  induction s using Finset.induction_on with
  | empty => exact Finset.fold_empty
  | insert a s ha ih => rw [Finset.fold_insert ha, ih]; rfl

/-- The pick reads, on row r, the matrix at (r, the start index of row r clamped into [0, 8191]). -/
theorem pick_apply {α : Type} (x : S8192x8192.Idx → α) (idx : IVec S8192x1x1 32) (r : Fin 8192) :
    Host.gather gather_S8192x8192_S8192x1x1_S8192x1_n_1_0_0_1_2_11 x idx (ix2 r (0 : Fin 1))
      = x (ix2 r ⟨min (idx (ix3 r (0 : Fin 1) (0 : Fin 1))).toInt.toNat 8191, by omega⟩) := by
  unfold Host.gather
  congr 1
  funext a
  refine Fin.ext ?_
  match a with
  | ⟨0, _⟩ =>
    show gather_S8192x8192_S8192x1x1_S8192x1_n_1_0_0_1_2_11.start (ix2 r (0 : Fin 1)) idx 0
      + gather_S8192x8192_S8192x1x1_S8192x1_n_1_0_0_1_2_11.batchCoord (ix2 r (0 : Fin 1)) 0
      + gather_S8192x8192_S8192x1x1_S8192x1_n_1_0_0_1_2_11.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S8192x8192_S8192x1x1_S8192x1_n_1_0_0_1_2_11.operandBatchingDims from
      List.mem_singleton.mpr rfl)]
    refine (Nat.add_zero _).trans ((Nat.zero_add _).trans ?_)
    rfl
  | ⟨1, _⟩ =>
    show gather_S8192x8192_S8192x1x1_S8192x1_n_1_0_0_1_2_11.start (ix2 r (0 : Fin 1)) idx 1
      + gather_S8192x8192_S8192x1x1_S8192x1_n_1_0_0_1_2_11.batchCoord (ix2 r (0 : Fin 1)) 1
      + gather_S8192x8192_S8192x1x1_S8192x1_n_1_0_0_1_2_11.offCoord (ix2 r (0 : Fin 1)) 1
      = min (idx (ix3 r (0 : Fin 1) (0 : Fin 1))).toInt.toNat 8191
    rw [GatherDims.batchCoord_eq_zero _ _ _ (show (1 : Fin 2) ∉ [(0 : Fin 2)] from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8192_S8192x1x1_S8192x1_n_1_0_0_1_2_11.startIndexMap from
      List.mem_singleton.mpr rfl)]
    have hsi : gather_S8192x8192_S8192x1x1_S8192x1_n_1_0_0_1_2_11.siIdx (ix2 r (0 : Fin 1))
        ⟨List.idxOf (1 : Fin 2) gather_S8192x8192_S8192x1x1_S8192x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- The picked entry of row r is the matrix at (r, r). -/
theorem picked_apply (x0 x1 : (⟨S4096x256, .f32⟩ : BufTy).Contents (Elt F)) (r : Fin 8192) :
    val_main_v36 (F := F) x0 x1 (ix2 r (0 : Fin 1)) = val_main_v34 (F := F) x0 x1 (ix2 r r) := by
  rw [val_main_v36_apply, inrange_apply, select_one]
  unfold val_main_call5_v13
  have hmin : min (val_main_call5_v5 (F := F) (ix3 r (0 : Fin 1) (0 : Fin 1))).toInt.toNat 8191 = r.val := by
    rw [label_word, toInt_ofNat_small r.val r.isLt]
    have := r.isLt
    simp only [Int.toNat_natCast]
    omega
  refine (pick_apply _ _ r).trans ?_
  exact congrArg (val_main_v34 (F := F) x0 x1) (congrArg (ix2 r) (Fin.ext hmin))

end Cert.RefSide

end
-- ==== Proof.RefSide.lean ====
/-
  The reference computes the specification.

  Output row r is minus the log-softmax of row r of the logits, read at the label column r. The row's logits are real
  numbers or minus infinity, the label entry is real, and the row maximum M is real; so the entry is
      -((x - M) - log (sum over k of exp (x_k - M))) = log (sum over k of exp x_k) - x,
  with the masked logits contributing nothing to the sum: the specification's loss of that row.
-/
import proofs.«108332_j71305047049043_2_alg».proof.Proof.RefReadP
import proofs.«108332_j71305047049043_2_alg».proof.Proof.Spec
import proofs.«108332_j71305047049043_2_alg».proof.Proof.RefSideMath
import proofs.«108332_j71305047049043_2_alg».proof.Proof.RefSideDenom
import proofs.«108332_j71305047049043_2_alg».proof.Proof.RefSideRow
import proofs.«108332_j71305047049043_2_alg».proof.Proof.RefSideGather

noncomputable section

namespace Cert.RefSide

open Cert.ReferenceIdeal Cert.ReferenceIdeal.Gen Cert.ReferenceIdeal.ReadP
open Idealize.ShloMosaic Idealize.ShloMosaic.ValueIdx Cert.Spec
open scoped BigOperators

/-- On batches of real numbers the reference's result is the specification, row by row. -/
theorem ref_eq (a0 a1 : SA.Idx → ℝ) :
    val_main_v38 (F := Ideal) (lift a0) (lift a1) = Garr epsR 10 a0 a1 := by
  funext j
  obtain ⟨r, rfl⟩ : ∃ r : Fin 8192, j = ix1 r := ⟨j 0, eq_ix1 j⟩
  obtain ⟨M, hM⟩ := rowmax_real a0 a1 r
  obtain ⟨x, hx, hG⟩ := row_loss a0 a1 r
  have hidx : idx_main_v37 (ix1 r) = ix2 r (0 : Fin 1) :=
    funext fun b => Fin.ext (by
      match b with
      | ⟨0, _⟩ => exact Nat.div_one _
      | ⟨1, _⟩ => rfl)
  rw [val_main_v38_apply, val_main_v37_apply, hidx, picked_apply, logsoftmax_apply a0 a1 r r M hM]
  simp only [Ideal.hostNegf_def, Ideal.negf_def]
  rw [neg_logsoftmax_row (logitRow a0 a1 r) r x hx M, hG]
  rfl

end Cert.RefSide

end
-- ==== Proof.FiniteInputs.lean ====
/-
  From the precondition to real matrices.

  The precondition is the printed test `jnp.all (|x| < +∞) ∧ jnp.all (|y| < +∞)` of the two argument arrays, and
  it says the test came out all ones. An `and`-reduction that is 1 met only 1s, so every entry passes
  `|a| < +∞`; an extended real whose absolute value `max a (-a)` is below `+∞` is neither infinity, that is, it
  is a real number. Choosing those reals entry by entry gives each argument array as the lift of a real matrix.
-/
import Idealize.ShloMosaic.Lib.ReduceAll
import Idealize.ShloMosaic.Lib.ValueIdx
import Idealize.ShloMosaic.PureOps.Ideal.Laws
import proofs.«108332_j71305047049043_2_alg».proof.Defs
import proofs.«108332_j71305047049043_2_alg».proof.Proof.Gen.Pre_finite_inputs
import proofs.«108332_j71305047049043_2_alg».proof.Proof.Spec
import proofs.«108332_j71305047049043_2_alg».proof.Proof.LibRealSoftmax

noncomputable section

namespace Cert.FiniteInputs

open Idealize.ShloMosaic Idealize.SL.Sem

/-- The test's result has one index. -/
instance : Subsingleton Cert.Pre_finite_inputs.S_.Idx := ⟨fun a b => funext fun d => d.elim0⟩

/-- Two arrays that pass the finiteness test have only real entries. -/
theorem entries_real [Cert.Pre_finite_inputs.Facts]
    (x y : FVec Ideal Cert.Pre_finite_inputs.S4096x256 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · exact Cert.LibRealSoftmax.real_of_test (x i) (Host.reduce_andi_all _ _ _ _ _ hx i)
  · exact Cert.LibRealSoftmax.real_of_test (y i) (Host.reduce_andi_all _ _ _ _ _ hy i)

/-- Two arrays that pass the finiteness test are the lifts of two real matrices. -/
theorem lifts_of_test [Cert.Pre_finite_inputs.Facts]
    (x y : FVec Ideal Cert.Pre_finite_inputs.S4096x256 .f32)
    (h : Cert.Pre_finite_inputs.fn (F := Ideal) x y = fun _ => 1#1) :
    ∃ a0 a1 : Cert.Spec.SA.Idx → ℝ, x = Cert.Spec.lift a0 ∧ y = Cert.Spec.lift a1 := by
  obtain ⟨h0, h1⟩ := entries_real x y h
  choose a0 ha0 using h0
  choose a1 ha1 using h1
  exact ⟨a0, a1, funext ha0, funext ha1⟩

/-- Under the precondition the idealized kernel's two argument arrays are the lifts of two real matrices, on every
    device. -/
theorem reals_of_pre [Cert.Pre_finite_inputs.Facts] [Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ a0 a1 : Cert.Spec.SA.Idx → ℝ,
      m ((c.tc : Thread Cert.KernelIdeal.nD Cert.KernelIdeal.τ).loc Cert.KernelIdeal.main_arg0) = Cert.Spec.lift a0
      ∧ m ((c.tc : Thread Cert.KernelIdeal.nD Cert.KernelIdeal.τ).loc Cert.KernelIdeal.main_arg1)
          = Cert.Spec.lift a1 :=
  lifts_of_test _ _ (h c)

end Cert.FiniteInputs

end
-- ==== Proof.lean ====
/-
  Two batches of 4096 rows of 256 numbers; the contrastive (NT-Xent) loss of each of the 8192 rows against the other
  batch. The kernel walks a grid of (half, row tile, column tile): per row tile it carries a running maximum, a
  running sum of exponentials rescaled to that maximum and the label logit across the four column tiles, and writes
  the 1024 losses of the row tile after the last one; the reference forms the whole 8192 × 8192 matrix of logits,
  takes its row-wise log-softmax and gathers the label column.

  Both are, for every finite input, the same real number per row (Proof/Spec.lean): over the reals
  `M + log Σ exp (x - M)` does not depend on `M`, so the kernel's running maximum and the reference's row maximum
  drop out, and the masked self-similarity — the kernel's fill, named `-∞`, the reference's `-∞` — contributes
  `exp (-∞) = 0` to either sum.

    * the kernel's run: Proof/KernelIdealFr*.lean (the three control cases of the body, the proof data, the run when
      two windows read one array), Proof/KernelIdealCols.lean (what each case leaves in the three carried columns),
      Proof/KernelIdealBlocks.lean (where the blocks sit), Proof/KernelIdealEntry*.lean and Proof/KerPay*.lean (the
      steps read at an entry), Proof/KernelIdealValue.lean (the result array);
    * the same frame for the kernel as printed: Proof/KernelFr*.lean;
    * the reference: Proof/RefRunP.lean (its operations as a list), Proof/RefReadP.lean (its stages), Proof/RefStages.lean
      and Proof/RefRun.lean (its run, read one operation at a time), Proof/RefSide*.lean (its result is the
      specification's);
    * the mathematics: Proof/Spec.lean, Proof/LibMaskedOnline.lean, Proof/LibTiles4096.lean, Proof/TiledLoss.lean,
      Proof/KerMath.lean, Proof/LibWords.lean; finiteness: Proof/FiniteInputs.lean.
-/
import proofs.«108332_j71305047049043_2_alg».proof.Defs
import proofs.«108332_j71305047049043_2_alg».proof.Proof.Gen.Kernel
import proofs.«108332_j71305047049043_2_alg».proof.Proof.Gen.KernelIdeal
import proofs.«108332_j71305047049043_2_alg».proof.Proof.Gen.ReferenceIdeal
import proofs.«108332_j71305047049043_2_alg».proof.Proof.Gen.Pre_finite_inputs
import proofs.«108332_j71305047049043_2_alg».proof.Proof.KernelFrLaunch
import proofs.«108332_j71305047049043_2_alg».proof.Proof.KernelIdealValue
import proofs.«108332_j71305047049043_2_alg».proof.Proof.RefRun
import proofs.«108332_j71305047049043_2_alg».proof.Proof.RefSide
import proofs.«108332_j71305047049043_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves both batches as launched. -/
theorem frame_k [Cert.Kernel.Facts] [Cert.Pre_finite_inputs.Facts] : Cert.frame_Kernel := fun m ρ _ => Cert.Kernel.Fr.frame m ρ

/-- So does the idealized kernel. -/
theorem frame_ki [Cert.KernelIdeal.Facts] [Cert.Pre_finite_inputs.Facts] : Cert.frame_KernelIdeal := fun m ρ _ => Cert.KernelIdeal.Fr.frame m ρ

/-- And the reference: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.RefRun.run (F := Ideal) m ρ)

/-- The one rewrite of the idealization: the mask fill is named, and the name denotes `-∞`. -/
theorem preserves : Cert.preserves_Kernel_KernelIdeal :=
  IdealRules.named_const.statement Cert.KernelIdeal.κ "neg_big" .f32 0xFF333332#32 ⊥ rfl

/-- From memories agreeing on the two batches, every entry finite, both programs end with the specification's result. -/
theorem algebraic [Cert.KernelIdeal.Facts] [Cert.ReferenceIdeal.Facts] [Cert.Pre_finite_inputs.Facts] :
    Cert.algebraic_KernelIdeal_ReferenceIdeal := by
  intro m ρ m' ρ' hpre hagree
  choose a0 a1 h0 h1 using fun c => Cert.FiniteInputs.reals_of_pre m hpre c
  refine ⟨fun c => Cert.Spec.Garr Cert.Spec.epsR 10 (a0 c) (a1 c), Cert.KernelIdeal.Fr.run m ρ a0 a1 h0 h1, ?_⟩
  refine (θ_run Cert.ReferenceIdeal.defs _ _).mono (fun _ h c => ⟨(h c).1.trans ?_, (h c).2⟩)
    (Cert.RefRun.run (F := Ideal) m' ρ')
  rw [(hagree c).1, (hagree c).2, h0 c, h1 c]
  exact Cert.RefSide.ref_eq (a0 c) (a1 c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
